-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S800000x1 : Shape := ⟨2, ![800000, 1]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S800000x1 : S_.BroadcastsInDim S800000x1 (![] : Fin 0 → Fin S800000x1.rank)
  reducesTo_S800000x1_S_d0_1 : S800000x1.ReducesTo [0, 1] S_

variable [Facts]

def fn_part1 {F : FTy → Type} [FloatOps F] (main_arg4 : FVec F S96 .f32) (main_arg5 : FVec F S800000x1 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S800000x1 .f32 := Host.absf main_arg5
  let main_cst_8 : FVec F S_ .f32 := constant S_ .f32 0x7F800000#32
  let main_v25 : FVec F S800000x1 .f32 := broadcastInDim S800000x1 ![] bcast_S_S800000x1 main_cst_8
  let main_v26 : IVec S800000x1 1 := cmpf .olt main_v24 main_v25
  let main_c_9 : IVec S_ 1 := constantI S_ 1 1#1
  let main_v27 : IVec S_ 1 := (fun x v => Host.reduce IntOp.andi x v reducesTo_S800000x1_S_d0_1 h_S_) main_v26 main_c_9
  let main_v28 : IVec S_ 1 := andi main_v23 main_v27
  main_v28

def fn {F : FTy → Type} [FloatOps F] (main_arg0 : FVec F S50000x96 .f32) (main_arg1 : FVec F S96x96 .f32) (main_arg2 : FVec F S96 .f32) (main_arg3 : FVec F S96x96 .f32) (main_arg4 : FVec F S96 .f32) (main_arg5 : FVec F S800000x1 .f32) (main_arg6 : IVec S800000 32) (main_arg7 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_v13 main_v16
-- ==== Kernel.lean ====
abbrev S50000x96 : Shape := ⟨2, ![50000, 96]⟩
abbrev S96x96 : Shape := ⟨2, ![96, 96]⟩
abbrev S96 : Shape := ⟨1, ![96]⟩
abbrev S800000x1 : Shape := ⟨2, ![800000, 1]⟩
abbrev S800000 : Shape := ⟨1, ![800000]⟩
abbrev S_ : Shape := ⟨0, ![]⟩
abbrev S50000 : Shape := ⟨1, ![50000]⟩
abbrev S50000x1 : Shape := ⟨2, ![50000, 1]⟩
abbrev S5000x96 : Shape := ⟨2, ![5000, 96]⟩
abbrev S5000x1 : Shape := ⟨2, ![5000, 1]⟩
abbrev S1x96 : Shape := ⟨2, ![1, 96]⟩
abbrev S800000x96 : Shape := ⟨2, ![800000, 96]⟩
abbrev S8000x96 : Shape := ⟨2, ![8000, 96]⟩
abbrev S8000x1 : Shape := ⟨2, ![8000, 1]⟩
abbrev S1x96x1 : Shape := ⟨3, ![1, 96, 1]⟩

abbrev nBuf : Space → Nat
  | .hbm => 55
  | .vmem => 32
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S800000x1, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S96x96, .f32⟩
  | .hbm, ⟨22, _⟩ => ⟨S96x96, .f32⟩
  | .hbm, ⟨23, _⟩ => ⟨S50000x96, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x96, .f32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S50000x96, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x96, .f32⟩
  | .hbm, ⟨48, _⟩ => ⟨S800000x96, .f32⟩
  | .hbm, ⟨49, _⟩ => ⟨S_, .f32⟩
  | .hbm, ⟨50, _⟩ => ⟨S50000x96, .f32⟩
  | .hbm, ⟨51, _⟩ => ⟨S800000x1, .i32⟩
  | .hbm, ⟨52, _⟩ => ⟨S50000x96, .f32⟩
  | .hbm, ⟨53, _⟩ => ⟨S1x96, .f32⟩
  | .hbm, ⟨54, _⟩ => ⟨S1x96x1, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S96, .f32⟩
  | .local _ .vmem, ⟨4, _⟩ => ⟨S5000x1, .f32⟩
  | .local _ .vmem, ⟨5, _⟩ => ⟨S5000x1, .f32⟩
  | .local _ .vmem, ⟨6, _⟩ => ⟨S5000x96, .f32⟩
  | .local _ .vmem, ⟨7, _⟩ => ⟨S5000x96, .f32⟩
  | .local _ .vmem, ⟨8, _⟩ => ⟨S8000x96, .f32⟩
  | .local _ .vmem, ⟨9, _⟩ => ⟨S8000x96, .f32⟩
  | .local _ .vmem, ⟨10, _⟩ => ⟨S8000x1, .f32⟩
  | .local _ .vmem, ⟨11, _⟩ => ⟨S8000x1, .f32⟩
  | .local _ .vmem, ⟨12, _⟩ => ⟨S8000x96, .f32⟩
  | .local _ .vmem, ⟨13, _⟩ => ⟨S8000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S96, .f32⟩
  | .local _ .vmem, ⟨18, _⟩ => ⟨S5000x1, .f32⟩
  | .local _ .vmem, ⟨19, _⟩ => ⟨S5000x1, .f32⟩
  | .local _ .vmem, ⟨20, _⟩ => ⟨S5000x96, .f32⟩
  | .local _ .vmem, ⟨21, _⟩ => ⟨S5000x96, .f32⟩
  | .local _ .vmem, ⟨22, _⟩ => ⟨S8000x96, .f32⟩
  | .local _ .vmem, ⟨23, _⟩ => ⟨S8000x96, .f32⟩
  | .local _ .vmem, ⟨24, _⟩ => ⟨S8000x1, .f32⟩
  | .local _ .vmem, ⟨25, _⟩ => ⟨S8000x1, .f32⟩
  | .local _ .vmem, ⟨26, _⟩ => ⟨S8000x96, .f32⟩
  | .local _ .vmem, ⟨27, _⟩ => ⟨S8000x96, .f32⟩
  | .local _ .vmem, ⟨28, _⟩ => ⟨S5000x96, .f32⟩
  | .local _ .vmem, ⟨29, _⟩ => ⟨S5000x96, .f32⟩
  | .local _ .vmem, ⟨30, _⟩ => ⟨S1x96, .f32⟩
  | .local _ .vmem, ⟨31, _⟩ => ⟨S1x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v13 : BitVec 1 := Scalar.cmpi .eq arg0 c9_i32
  let v14 : BitVec 32 := Scalar.extui v13
  let c0_i32_6 : BitVec 32 := 0#32
  let v15 : BitVec 1 := Scalar.cmpi .ne v14 c0_i32_6
  v15

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S96x96_S96x96_1_0 : S96x96.Transposes [1, 0] S96x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  inb_S8000x1_S8000x1_0_0 : ∀ a, (![0, 0] : Fin 2 → Nat) a + S8000x1.size a ≤ S8000x1.size a
  h_S8000x1 : 0 < S8000x1.numel
  broadcasts_S8000x1_S8000x96 : S8000x1.Broadcasts S8000x96
  bcast_S_S50000x96 : S_.BroadcastsInDim S50000x96 (![] : Fin 0 → Fin S50000x96.rank)
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  reduces_S5000x96_S96 : S5000x96.Reduces [0] S96
  bcast_S1x96_S1x96x1_0_1 : S1x96.BroadcastsInDim S1x96x1 (![0, 1] : Fin 2 → Fin S1x96x1.rank)
  scatter_S50000_S800000x1_S800000_n_0_0_1_wf : ScatterDims.WF S50000 S800000x1 S800000 [] [0] [0] 1
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .f32 = 32 ∨ (Rect.block (s := S50000x96) S5000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x96.size a ≤ S800000x96.size a
  hwx1_0 : ∀ i : grid1.Coords, EltTy.bits .f32 = 32 ∨ (Rect.block (s := S800000x96) S8000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x96.size a ≤ S800000x96.size a
  hwx1_2 : ∀ i : grid1.Coords, EltTy.bits .f32 = 32 ∨ (Rect.block (s := S800000x96) S8000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96.size a ≤ S96.size a
  hwx2_2 : ∀ i : grid2.Coords, EltTy.bits .f32 = 32 ∨ (Rect.block (s := S96) S96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .f32 = 32 ∨ (Rect.block (s := S50000x96) S5000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x96.size a ≤ S800000x96.size a
  hwx3_0 : ∀ i : grid3.Coords, EltTy.bits .f32 = 32 ∨ (Rect.block (s := S800000x96) S8000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S800000x1.size a
  hwx3_1 : ∀ i : grid3.Coords, EltTy.bits .f32 = 32 ∨ (Rect.block (s := S800000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x96.size a ≤ S800000x96.size a
  hwx3_2 : ∀ i : grid3.Coords, EltTy.bits .f32 = 32 ∨ (Rect.block (s := S800000x96) S8000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S8000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S8000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S5000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v30) S8000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S8000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v34) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S1x96.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S800000x1 : Shape := ⟨2, ![800000, 1]⟩
abbrev S800000 : Shape := ⟨1, ![800000]⟩
abbrev S_ : Shape := ⟨0, ![]⟩
abbrev S50000 : Shape := ⟨1, ![50000]⟩
abbrev S50000x1 : Shape := ⟨2, ![50000, 1]⟩
abbrev S1x96 : Shape := ⟨2, ![1, 96]⟩
abbrev S800000x96 : Shape := ⟨2, ![800000, 96]⟩
abbrev S1x96x1 : Shape := ⟨3, ![1, 96, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S800000x1, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S96x96, .f32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S50000x96, .f32⟩
  | .hbm, ⟨26, _⟩ => ⟨S50000x96, .f32⟩
  | .hbm, ⟨27, _⟩ => ⟨S50000x96, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x96, .f32⟩
  | .hbm, ⟨37, _⟩ => ⟨S800000x96, .f32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S50000x96, .f32⟩
  | .hbm, ⟨44, _⟩ => ⟨S96x96, .f32⟩
  | .hbm, ⟨45, _⟩ => ⟨S50000x96, .f32⟩
  | .hbm, ⟨46, _⟩ => ⟨S1x96, .f32⟩
  | .hbm, ⟨47, _⟩ => ⟨S50000x96, .f32⟩
  | .hbm, ⟨48, _⟩ => ⟨S50000x96, .f32⟩
  | .hbm, ⟨49, _⟩ => ⟨S50000x96, .f32⟩
  | .hbm, ⟨50, _⟩ => ⟨S50000x96, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x96, .f32⟩
  | .hbm, ⟨60, _⟩ => ⟨S800000x96, .f32⟩
  | .hbm, ⟨61, _⟩ => ⟨S800000x96, .f32⟩
  | .hbm, ⟨62, _⟩ => ⟨S_, .f32⟩
  | .hbm, ⟨63, _⟩ => ⟨S50000x96, .f32⟩
  | .hbm, ⟨64, _⟩ => ⟨S800000x1, .i32⟩
  | .hbm, ⟨65, _⟩ => ⟨S50000x96, .f32⟩
  | .hbm, ⟨66, _⟩ => ⟨S50000x96, .f32⟩
  | .hbm, ⟨67, _⟩ => ⟨S_, .f32⟩
  | .hbm, ⟨68, _⟩ => ⟨S96, .f32⟩
  | .hbm, ⟨69, _⟩ => ⟨S1x96, .f32⟩
  | .hbm, ⟨70, _⟩ => ⟨S_, .f32⟩
  | .hbm, ⟨71, _⟩ => ⟨S1x96, .f32⟩
  | .hbm, ⟨72, _⟩ => ⟨S1x96, .f32⟩
  | .hbm, ⟨73, _⟩ => ⟨S1x96x1, .f32⟩
  | .hbm, ⟨74, _⟩ => ⟨S1x96x1, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S50000x1_S50000x96_0_1 : S50000x1.BroadcastsInDim S50000x96 (![0, 1] : Fin 2 → Fin S50000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  reducesTo_S50000x96_S96_d0 : S50000x96.ReducesTo [0] S96
  h_S_ : 0 < S_.numel
  bcast_S_S1x96 : S_.BroadcastsInDim S1x96 (![] : Fin 0 → Fin S1x96.rank)
  bcast_S1x96_S1x96x1_0_1 : S1x96.BroadcastsInDim S1x96x1 (![0, 1] : Fin 2 → Fin S1x96x1.rank)
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.K.R0.lean ====
/- Region 0 of the program: one linear layer on a block of rows.  At every grid point the body reads a block of
   5000 rows of the feature matrix, the whole 96 x 96 weight matrix, the bias row and the rows' column of scale
   factors, and overwrites the output block of 5000 rows with a single store of a value computed from those four
   reads alone.  Nothing else is written, so: after the body each input block is what it was, and the output block
   is that one value, whatever the output buffer held before.  This file states that per grid point, for arbitrary
   contents of the arrays at the region's entry, and packages it as the pipeline's body obligation. -/
import proofs.«111731_j19000935317646_1_alg».proof.Proof.Gen.Kernel.Launch
import proofs.«111731_j19000935317646_1_alg».proof.Proof.Gen.Kernel.Skeleton
import proofs.«111731_j19000935317646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below holds for any such contents
variable (V : (c : Dev nD) → (b : Ref sig .tc) → Buf (Elt F) ((c : Thread nD τ).loc b))

/-! ## The windows' blocks -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: when the body is entered at a point, the window's current buffer holds the window's block there,
    whether the block was copied in at this point or at an earlier one (an input block that is not copied in again has
    the same index as before, and the body leaves it as it was). For any proof data over the entry contents. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: when the body is entered at a point, the window's current buffer holds the window's block there,
    whether the block was copied in at this point or at an earlier one (an input block that is not copied in again has
    the same index as before, and the body leaves it as it was). For any proof data over the entry contents. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: when the body is entered at a point, the window's current buffer holds the window's block there,
    whether the block was copied in at this point or at an earlier one (an input block that is not copied in again has
    the same index as before, and the body leaves it as it was). For any proof data over the entry contents. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: when the body is entered at a point, the window's current buffer holds the window's block there,
    whether the block was copied in at this point or at an earlier one (an input block that is not copied in again has
    the same index as before, and the body leaves it as it was). For any proof data over the entry contents. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_0 : Rect S5000x96 := Rect.unit (s := S5000x96) ![0, 0] S5000x96.size inb_S5000x96_S5000x96_0_0
abbrev r0_1 : Rect S96x96 := Rect.unit (s := S96x96) ![0, 0] S96x96.size inb_S96x96_S96x96_0_0
abbrev r0_2 : Rect S96 := Rect.unit (s := S96) ![0] S96.size inb_S96_S96_0
abbrev r0_3 : Rect S5000x1 := Rect.unit (s := S5000x1) ![0, 0] S5000x1.size inb_S5000x1_S5000x1_0_0

/-! ## What the body leaves in the output block -/

/-- The output block after the body, as a function of the four input blocks: the one store, over the whole block. -/
def out0_4 (x0 : Vec F S5000x96 .f32) (x1 : Vec F S96x96 .f32) (x2 : Vec F S96 .f32) (x3 : Vec F S5000x1 .f32) : Vec F S5000x96 .f32 :=
  View.canon [⟨r0_0, k0_pay1 (View.ld x0 r0_0) (View.ld x1 r0_1) (View.ld x2 r0_2) (View.ld x3 r0_3)⟩]

/-- The store's rectangle is the whole block, so every index of the block lies in it. -/
theorem cover0_4 (p0 : Vec F S5000x96 .f32) (y : S5000x96.Idx) :
    ∃ pc ∈ ([⟨r0_0, p0⟩] : List (View.Piece (Elt F) S5000x96 .f32)), y ∈ pc.1.set :=
  View.cover_of_tiled [⟨r0_0, p0⟩] S5000x96.size (by rfl) y

/-! ## The body's triple -/

set_option maxHeartbeats 1000000 in
/-- The body on whole buffers: the four inputs' buffers at contents `x0 .. x3`, the output's at anything. It runs to a
    state where the inputs' buffers are unchanged and the output's holds `out0_4 x0 x1 x2 x3`: five loads (the fifth,
    of the output buffer, is not used) and one store. -/
theorem sound_kernel0 (c : Dev nD) (E : Set ℕ) (i : grid0.Coords) (arg1 : Memref sig .tc .vmem S5000x96 .f32) (harg1 : arg1.IsWhole) (arg2 : Memref sig .tc .vmem S96x96 .f32) (harg2 : arg2.IsWhole) (arg3 : Memref sig .tc .vmem S96 .f32) (harg3 : arg3.IsWhole) (arg4 : Memref sig .tc .vmem S5000x1 .f32) (harg4 : arg4.IsWhole) (arg5 : Memref sig .tc .vmem S5000x96 .f32) (harg5 : arg5.IsWhole)
    (x0 : Vec F S5000x96 .f32) (x1 : Vec F S96x96 .f32) (x2 : Vec F S96 .f32) (x3 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__linear_norm_kernel i arg1 harg1 arg2 harg2 arg3 harg3 arg4 harg4 arg5 harg5) K := by
  simp only [cc0__linear_norm_kernel_eq_skeleton]; unfold cc0__linear_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the region's pipeline on core `c`: the arrays as the region finds them; after the body at a
    point each input's buffer holds its block and the output's holds `out0_4` of the four input blocks; the invariant
    is the untouched rest of the core's state; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is entered with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- The class-A half of pallas_call region 1 (the edge-scale kernel on a grid of 100 points, three windows:
   the gathered rows [8000,96] and the per-edge factor [8000,1] read, the scaled rows [8000,96] written), stated at a
   parameter `V`, the TensorCore's buffer contents when the region is entered.  Each window's block at a point is read
   off its array; the body reads its two inputs whole, reads the output buffer once without using what it read, and
   overwrites the output buffer whole with the payload of the two inputs; so after the body the inputs' buffers hold
   their blocks and the output's holds the payload, whatever it held before.  From this: the proof data of the
   pipeline and its body obligation at every point. -/
import proofs.«111731_j19000935317646_1_alg».proof.Proof.Gen.Kernel.Launch
import proofs.«111731_j19000935317646_1_alg».proof.Proof.Gen.Kernel.Skeleton
import proofs.«111731_j19000935317646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: the window is uncut, never idle, and the body does not write it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S8000x96 := Rect.unit (s := S8000x96) ![0, 0] S8000x96.size inb_S8000x96_S8000x96_0_0
abbrev r1_1 : Rect S8000x1 := Rect.unit (s := S8000x1) ![0, 0] S8000x1.size inb_S8000x1_S8000x1_0_0

/-! ## What the body leaves in the output window's buffer -/

/-- Window 2's staging buffer after the body, from the input windows' blocks: its one store, of the whole buffer,
    of the payload of the two inputs read whole. -/
def out1_2 (x0 : Vec F S8000x96 .f32) (x1 : Vec F S8000x1 .f32) : Vec F S8000x96 .f32 :=
  View.canon [⟨r1_0, k1_pay1 (View.ld x0 r1_0) (View.ld x1 r1_1)⟩]

/-- The one store is of the whole buffer, so it covers it: one block of the buffer's own extents. -/
theorem cover1_2 (p0 : Vec F S8000x96 .f32) (y : S8000x96.Idx) :
    ∃ pc ∈ ([⟨r1_0, p0⟩] : List (View.Piece (Elt F) S8000x96 .f32)), y ∈ pc.1.set :=
  View.cover_of_tiled [⟨r1_0, p0⟩] S8000x96.size (by rfl) y

/-! ## The body's triple -/

set_option maxHeartbeats 1000000 in
/-- The kernel body on whole staging memrefs, the inputs' at contents `x0`, `x1` and the output's at anything, runs to
    the continuation holding the inputs' as they were and the output's at `out1_2 x0 x1`: two loads, a load of the
    output buffer whose value is not used, and the store. -/
theorem sound_kernel1 (c : Dev nD) (E : Set ℕ) (i : grid1.Coords) (arg1 : Memref sig .tc .vmem S8000x96 .f32) (harg1 : arg1.IsWhole) (arg2 : Memref sig .tc .vmem S8000x1 .f32) (harg2 : arg2.IsWhole) (arg3 : Memref sig .tc .vmem S8000x96 .f32) (harg3 : arg3.IsWhole)
    (x0 : Vec F S8000x96 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__edge_scale_kernel i arg1 harg1 arg2 harg2 arg3 harg3) K := by
  simp only [cc1__edge_scale_kernel_eq_skeleton]; unfold cc1__edge_scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of the program: the second linear layer, on a block of rows, with a hyperbolic tangent applied to the
   features first.  At every grid point the body reads a block of
   5000 rows of the feature matrix, the whole 96 x 96 weight matrix, the bias row and the rows' column of scale
   factors, and overwrites the output block of 5000 rows with a single store of a value computed from those four
   reads alone.  Nothing else is written, so: after the body each input block is what it was, and the output block
   is that one value, whatever the output buffer held before.  This file states that per grid point, for arbitrary
   contents of the arrays at the region's entry, and packages it as the pipeline's body obligation. -/
import proofs.«111731_j19000935317646_1_alg».proof.Proof.Gen.Kernel.Launch
import proofs.«111731_j19000935317646_1_alg».proof.Proof.Gen.Kernel.Skeleton
import proofs.«111731_j19000935317646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below holds for any such contents
variable (V : (c : Dev nD) → (b : Ref sig .tc) → Buf (Elt F) ((c : Thread nD τ).loc b))

/-! ## The windows' blocks -/

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: when the body is entered at a point, the window's current buffer holds the window's block there,
    whether the block was copied in at this point or at an earlier one (an input block that is not copied in again has
    the same index as before, and the body leaves it as it was). For any proof data over the entry contents. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: when the body is entered at a point, the window's current buffer holds the window's block there,
    whether the block was copied in at this point or at an earlier one (an input block that is not copied in again has
    the same index as before, and the body leaves it as it was). For any proof data over the entry contents. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: when the body is entered at a point, the window's current buffer holds the window's block there,
    whether the block was copied in at this point or at an earlier one (an input block that is not copied in again has
    the same index as before, and the body leaves it as it was). For any proof data over the entry contents. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: when the body is entered at a point, the window's current buffer holds the window's block there,
    whether the block was copied in at this point or at an earlier one (an input block that is not copied in again has
    the same index as before, and the body leaves it as it was). For any proof data over the entry contents. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_0 : Rect S5000x96 := Rect.unit (s := S5000x96) ![0, 0] S5000x96.size inb_S5000x96_S5000x96_0_0
abbrev r2_1 : Rect S96x96 := Rect.unit (s := S96x96) ![0, 0] S96x96.size inb_S96x96_S96x96_0_0
abbrev r2_2 : Rect S96 := Rect.unit (s := S96) ![0] S96.size inb_S96_S96_0
abbrev r2_3 : Rect S5000x1 := Rect.unit (s := S5000x1) ![0, 0] S5000x1.size inb_S5000x1_S5000x1_0_0

/-! ## What the body leaves in the output block -/

/-- The output block after the body, as a function of the four input blocks: the one store, over the whole block. -/
def out2_4 (x0 : Vec F S5000x96 .f32) (x1 : Vec F S96x96 .f32) (x2 : Vec F S96 .f32) (x3 : Vec F S5000x1 .f32) : Vec F S5000x96 .f32 :=
  View.canon [⟨r2_0, k2_pay1 (View.ld x0 r2_0) (View.ld x1 r2_1) (View.ld x2 r2_2) (View.ld x3 r2_3)⟩]

/-- The store's rectangle is the whole block, so every index of the block lies in it. -/
theorem cover2_4 (p0 : Vec F S5000x96 .f32) (y : S5000x96.Idx) :
    ∃ pc ∈ ([⟨r2_0, p0⟩] : List (View.Piece (Elt F) S5000x96 .f32)), y ∈ pc.1.set :=
  View.cover_of_tiled [⟨r2_0, p0⟩] S5000x96.size (by rfl) y

/-! ## The body's triple -/

set_option maxHeartbeats 1000000 in
/-- The body on whole buffers: the four inputs' buffers at contents `x0 .. x3`, the output's at anything. It runs to a
    state where the inputs' buffers are unchanged and the output's holds `out2_4 x0 x1 x2 x3`: five loads (the fifth,
    of the output buffer, is not used) and one store. -/
theorem sound_kernel2 (c : Dev nD) (E : Set ℕ) (i : grid2.Coords) (arg1 : Memref sig .tc .vmem S5000x96 .f32) (harg1 : arg1.IsWhole) (arg2 : Memref sig .tc .vmem S96x96 .f32) (harg2 : arg2.IsWhole) (arg3 : Memref sig .tc .vmem S96 .f32) (harg3 : arg3.IsWhole) (arg4 : Memref sig .tc .vmem S5000x1 .f32) (harg4 : arg4.IsWhole) (arg5 : Memref sig .tc .vmem S5000x96 .f32) (harg5 : arg5.IsWhole)
    (x0 : Vec F S5000x96 .f32) (x1 : Vec F S96x96 .f32) (x2 : Vec F S96 .f32) (x3 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__linear_norm_kernel i arg1 harg1 arg2 harg2 arg3 harg3 arg4 harg4 arg5 harg5) K := by
  simp only [cc2__linear_norm_kernel_eq_skeleton]; unfold cc2__linear_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the region's pipeline on core `c`: the arrays as the region finds them; after the body at a
    point each input's buffer holds its block and the output's holds `out2_4` of the four input blocks; the invariant
    is the untouched rest of the core's state; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is entered with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- The class-A half of pallas_call region 3 (the edge-scale kernel on a grid of 100 points, three windows:
   the gathered rows [8000,96] and the per-edge factor [8000,1] read, the scaled rows [8000,96] written), stated at a
   parameter `V`, the TensorCore's buffer contents when the region is entered.  Each window's block at a point is read
   off its array; the body reads its two inputs whole, reads the output buffer once without using what it read, and
   overwrites the output buffer whole with the payload of the two inputs; so after the body the inputs' buffers hold
   their blocks and the output's holds the payload, whatever it held before.  From this: the proof data of the
   pipeline and its body obligation at every point. -/
import proofs.«111731_j19000935317646_1_alg».proof.Proof.Gen.Kernel.Launch
import proofs.«111731_j19000935317646_1_alg».proof.Proof.Gen.Kernel.Skeleton
import proofs.«111731_j19000935317646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place: the window is uncut, never idle, and the body does not write it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S8000x96 := Rect.unit (s := S8000x96) ![0, 0] S8000x96.size inb_S8000x96_S8000x96_0_0
abbrev r3_1 : Rect S8000x1 := Rect.unit (s := S8000x1) ![0, 0] S8000x1.size inb_S8000x1_S8000x1_0_0

/-! ## What the body leaves in the output window's buffer -/

/-- Window 2's staging buffer after the body, from the input windows' blocks: its one store, of the whole buffer,
    of the payload of the two inputs read whole. -/
def out3_2 (x0 : Vec F S8000x96 .f32) (x1 : Vec F S8000x1 .f32) : Vec F S8000x96 .f32 :=
  View.canon [⟨r3_0, k3_pay1 (View.ld x0 r3_0) (View.ld x1 r3_1)⟩]

/-- The one store is of the whole buffer, so it covers it: one block of the buffer's own extents. -/
theorem cover3_2 (p0 : Vec F S8000x96 .f32) (y : S8000x96.Idx) :
    ∃ pc ∈ ([⟨r3_0, p0⟩] : List (View.Piece (Elt F) S8000x96 .f32)), y ∈ pc.1.set :=
  View.cover_of_tiled [⟨r3_0, p0⟩] S8000x96.size (by rfl) y

/-! ## The body's triple -/

set_option maxHeartbeats 1000000 in
/-- The kernel body on whole staging memrefs, the inputs' at contents `x0`, `x1` and the output's at anything, runs to
    the continuation holding the inputs' as they were and the output's at `out3_2 x0 x1`: two loads, a load of the
    output buffer whose value is not used, and the store. -/
theorem sound_kernel3 (c : Dev nD) (E : Set ℕ) (i : grid3.Coords) (arg1 : Memref sig .tc .vmem S8000x96 .f32) (harg1 : arg1.IsWhole) (arg2 : Memref sig .tc .vmem S8000x1 .f32) (harg2 : arg2.IsWhole) (arg3 : Memref sig .tc .vmem S8000x96 .f32) (harg3 : arg3.IsWhole)
    (x0 : Vec F S8000x96 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__edge_scale_kernel i arg1 harg1 arg2 harg2 arg3 harg3) K := by
  simp only [cc3__edge_scale_kernel_eq_skeleton]; unfold cc3__edge_scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's owed counts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Runs.lean ====
/- The pooling region (a grid of 10 points over the rows of h, a [1,96] accumulator carried from point to point):
   what its three control cases share. The two conditions on the coordinate in closed form (the first holds at
   point 0 only, the second at point 9 only); where the output window is idle; the memrefs the body is called
   with; and the region's invariant opened at the accumulator. -/
import proofs.«111731_j19000935317646_1_alg».proof.Proof.Gen.Kernel.Launch
import proofs.«111731_j19000935317646_1_alg».proof.Proof.Gen.Kernel.Skeleton
import proofs.«111731_j19000935317646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions -/

/-- The first condition (the coordinate is 0), as the body computes it. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second condition (the coordinate is 9), as the body computes it. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- The input window is never idle. -/
theorem liveAt4_0 : ∀ t : Fin cfg4.N, cfg4.idle 0 (grid4.coords t) = false := by decide +kernel
/-- At the first point nothing is stored into the output window, and it is not written back. -/
theorem idleAt4_1_A : ∀ t : Fin cfg4.N, cond4_0 (grid4.coords t) → ¬cond4_1 (grid4.coords t) → cfg4.idle 1 (grid4.coords t) = true := by decide +kernel
theorem noFlush4_1_A : ∀ t : Fin cfg4.N, cond4_0 (grid4.coords t) → ¬cond4_1 (grid4.coords t) → (cfg4.win 1).flush t = false := by decide +kernel
/-- The same at the points strictly between the first and the last. -/
theorem idleAt4_1_B : ∀ t : Fin cfg4.N, ¬cond4_0 (grid4.coords t) → ¬cond4_1 (grid4.coords t) → cfg4.idle 1 (grid4.coords t) = true := by decide +kernel
theorem noFlush4_1_B : ∀ t : Fin cfg4.N, ¬cond4_0 (grid4.coords t) → ¬cond4_1 (grid4.coords t) → (cfg4.win 1).flush t = false := by decide +kernel
/-- At the last point the output window is stored into. -/
theorem liveAt4_1_C : ∀ t : Fin cfg4.N, ¬cond4_0 (grid4.coords t) → cond4_1 (grid4.coords t) → cfg4.idle 1 (grid4.coords t) = false := by decide +kernel

/-! ## The memrefs the body is called with -/

/-- The output window's one staging buffer, as a view: its contents are stated through it. -/
abbrev VO4_1 : View sig .tc .vmem S1x96 .f32 := (Memref.whole cc4_stg1_0 : Memref sig .tc .vmem S1x96 .f32).view
/-- Each window's current staging memref at point `t`, and its wholeness. -/
abbrev ms4_0 (t : Fin cfg4.N) : Memref sig .tc .vmem S5000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x96 .f32 := win4_1.stage (cfg4.slots t 1)
abbrev hs4_1 (t : Fin cfg4.N) : (ms4_1 t).IsWhole := hstage4_1 ((cfg4.slots t 1).cast nbuf4_1)
/-- The accumulator: a whole scoped buffer of the kernel's own, passed beside the windows. -/
abbrev scM4_0 : Memref sig .tc .vmem S1x96 .f32 := Memref.whole cc4_scratch0
/-- The same as a view: what it holds is stated through it. -/
abbrev VS4_0 : View sig .tc .vmem S1x96 .f32 := scM4_0.view

/-- Every scoped buffer other than the accumulator and the region's own staging buffers, each at some contents:
    the body never touches them. -/
abbrev rest4 (c : Dev nD) : sProp 𝕄 :=
  Pipeline.scopedRestBut (Ix := Unit) (Name := ℕ) (U := UR sig nD τ) (Lvl := ℕ) (Val := Elt F) spec4 c [cc4_scratch0]

/-- The region's invariant opened at the accumulator: the accumulator owned at some contents, the other scoped
    buffers, the generator register at some state. -/
theorem PhiA4_eq (c : Dev nD) :
    (Pipeline.ΦA spec4 c : sProp 𝕄)
      = iprop(iprop(iprop((∃ d, owns (c : Thread nD τ) scM4_0 fullShare d)) ∗ rest4 c) ∗ (∃ r, prngReg c r)) := by
  unfold Pipeline.ΦA; rw [scopedRest4_split]; simp only [scM4_0, owns_whole]; try rfl

end Cert.Kernel.Hand

end
-- ==== Proof.K.R4RunA.lean ====
/- The pooling body at the first point (first condition holds, second fails): the accumulator, found at anything,
   is zeroed and then receives the column sums of the block's tanh on top; nothing is stored into the output window.
   The pieces the accumulator ends with are the witness the symbolic run finds. -/
import proofs.«111731_j19000935317646_1_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the first point: on whole memrefs — the input's at its block `x0`, the output's at contents `xi1` handed back
    untouched, the accumulator at anything — the body runs to the continuation holding the input's as it was, the
    output's as it was, and the accumulator with the found pieces written (last first). -/
noncomputable def kernelRun4_A (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) :
    Σ' (L1 : List (View.Piece (Elt F) S1x96 .f32)), { LS0 : List (View.Piece (Elt F) S1x96 .f32) //
      ∀ (xi1 : Vec F S1x96 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_tanh_kernel i arg1 harg1 arg2 harg2 arg3 harg3) K } := by
  refine ⟨[], ?_, fun xi1 E K => ?run⟩
  case run =>
    simp only [cc4__mean_tanh_kernel_eq_skeleton]; unfold cc4__mean_tanh_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.R4RunB.lean ====
/- The pooling body at a point strictly between the first and the last (both conditions fail): the accumulator,
   found at what the point before left, receives the column sums of the block's tanh on top; nothing is stored into
   the output window. The pieces the accumulator ends with are the witness the symbolic run finds. -/
import proofs.«111731_j19000935317646_1_alg».proof.Proof.K.R4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle point: on whole memrefs — the input's at its block `x0`, the output's at contents `xi1` handed back
    untouched, the accumulator at `xs0` — the body runs to the continuation holding the input's as it was, the
    output's as it was, and the accumulator with the found pieces written (last first). -/
noncomputable def kernelRun4_B (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) :
    Σ' (L1 : List (View.Piece (Elt F) S1x96 .f32)), { LS0 : List (View.Piece (Elt F) S1x96 .f32) //
      ∀ (xi1 : Vec F S1x96 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_tanh_kernel i arg1 harg1 arg2 harg2 arg3 harg3) K } := by
  refine ⟨[], ?_, fun xi1 E K => ?run⟩
  case run =>
    simp only [cc4__mean_tanh_kernel_eq_skeleton]; unfold cc4__mean_tanh_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.R4RunC.lean ====
/- The pooling body at the last point (first condition fails, second holds): the accumulator, found at what the
   point before left, receives the column sums of the block's tanh on top, and the output window receives the tanh
   of the accumulator scaled by 1/50000. The pieces the two buffers end with are the witness the symbolic run finds. -/
import proofs.«111731_j19000935317646_1_alg».proof.Proof.K.R4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the last point: on whole memrefs — the input's at its block `x0`, the output's at anything, the accumulator at
    `xs0` — the body runs to the continuation holding the input's as it was and the output's and the accumulator each
    with the found pieces written (last first). -/
noncomputable def kernelRun4_C (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) :
    Σ' (L1 : List (View.Piece (Elt F) S1x96 .f32)), { LS0 : List (View.Piece (Elt F) S1x96 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc4__mean_tanh_kernel i arg1 harg1 arg2 harg2 arg3 harg3) K } := by
  refine ⟨?_, ?_, fun E K => ?run⟩
  case run =>
    simp only [cc4__mean_tanh_kernel_eq_skeleton]; unfold cc4__mean_tanh_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.K.R4.lean ====
/- The pooling region's proof data and body obligation. What the output buffer and the carried accumulator hold
   after each point is defined by recursion on the point: the first point's case over nothing, every later point's
   case over what the point before left in the accumulator. The region's invariant before a point other than the first
   names the accumulator's contents; the body's run in each of the three control cases then gives the obligation. -/
import proofs.«111731_j19000935317646_1_alg».proof.Proof.K.R4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point stores nothing into the output window: no pieces (a placeholder nothing consults). -/
def out4_A_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) : Vec F S1x96 .f32 :=
  VO4_1.read (Elt F) (VO4_1.writes (Elt F) VO4_1.junk (kernelRun4_A c i arg1 harg1 arg2 harg2 arg3 harg3 hc0 hc1 x0).1)

/-- The first point's pieces for the accumulator cover it. -/
theorem scover4_A_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) (y : S1x96.Idx) :
    ∃ pc ∈ (kernelRun4_A c i arg1 harg1 arg2 harg2 arg3 harg3 hc0 hc1 x0).2.1, y ∈ pc.1.set :=
  View.cover_of_tiledL (kernelRun4_A c i arg1 harg1 arg2 harg2 arg3 harg3 hc0 hc1 x0).2.1 S1x96.size (by sl_kernel_rfl) y

/-- What the first point leaves in the accumulator: its pieces read back. -/
def sout4_A_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) : Vec F S1x96 .f32 :=
  VS4_0.read (Elt F) (VS4_0.writes (Elt F) VS4_0.junk (kernelRun4_A c i arg1 harg1 arg2 harg2 arg3 harg3 hc0 hc1 x0).2.1)

/-- A middle point stores nothing into the output window either. -/
def out4_B_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) : Vec F S1x96 .f32 :=
  VO4_1.read (Elt F) (VO4_1.writes (Elt F) VO4_1.junk (kernelRun4_B c i arg1 harg1 arg2 harg2 arg3 harg3 hc0 hc1 x0 xs0).1)

/-- A middle point's pieces for the accumulator cover it. -/
theorem scover4_B_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) (y : S1x96.Idx) :
    ∃ pc ∈ (kernelRun4_B c i arg1 harg1 arg2 harg2 arg3 harg3 hc0 hc1 x0 xs0).2.1, y ∈ pc.1.set :=
  View.cover_of_tiledL (kernelRun4_B c i arg1 harg1 arg2 harg2 arg3 harg3 hc0 hc1 x0 xs0).2.1 S1x96.size (by sl_kernel_rfl) y

/-- What a middle point leaves in the accumulator. -/
def sout4_B_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) : Vec F S1x96 .f32 :=
  VS4_0.read (Elt F) (VS4_0.writes (Elt F) VS4_0.junk (kernelRun4_B c i arg1 harg1 arg2 harg2 arg3 harg3 hc0 hc1 x0 xs0).2.1)

/-- The last point's pieces for the output window cover it. -/
theorem cover4_C_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) (y : S1x96.Idx) :
    ∃ pc ∈ (kernelRun4_C c i arg1 harg1 arg2 harg2 arg3 harg3 hc0 hc1 x0 xs0).1, y ∈ pc.1.set :=
  View.cover_of_tiledL (kernelRun4_C c i arg1 harg1 arg2 harg2 arg3 harg3 hc0 hc1 x0 xs0).1 S1x96.size (by sl_kernel_rfl) y

/-- What the last point leaves in the output window's staging buffer. -/
def out4_C_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) : Vec F S1x96 .f32 :=
  VO4_1.read (Elt F) (VO4_1.writes (Elt F) VO4_1.junk (kernelRun4_C c i arg1 harg1 arg2 harg2 arg3 harg3 hc0 hc1 x0 xs0).1)

/-- The last point's pieces for the accumulator cover it. -/
theorem scover4_C_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) (y : S1x96.Idx) :
    ∃ pc ∈ (kernelRun4_C c i arg1 harg1 arg2 harg2 arg3 harg3 hc0 hc1 x0 xs0).2.1, y ∈ pc.1.set :=
  View.cover_of_tiledL (kernelRun4_C c i arg1 harg1 arg2 harg2 arg3 harg3 hc0 hc1 x0 xs0).2.1 S1x96.size (by sl_kernel_rfl) y

/-- What the last point leaves in the accumulator. -/
def sout4_C_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) : Vec F S1x96 .f32 :=
  VS4_0.read (Elt F) (VS4_0.writes (Elt F) VS4_0.junk (kernelRun4_C c i arg1 harg1 arg2 harg2 arg3 harg3 hc0 hc1 x0 xs0).2.1)

/-! ## The conditions at a point, from its position -/

theorem hA0 (t : Fin cfg4.N) (h0 : t.val = 0) : cond4_0 (grid4.coords t) := (hcond4_0 t).mpr h0
theorem hA1 (t : Fin cfg4.N) (h0 : t.val = 0) : ¬cond4_1 (grid4.coords t) := fun h => by
  have h9 := (hcond4_1 t).mp h; omega
theorem hB0 (t : Fin cfg4.N) (h0 : t.val ≠ 0) : ¬cond4_0 (grid4.coords t) := fun h => h0 ((hcond4_0 t).mp h)
theorem hB1 (t : Fin cfg4.N) (h1 : t.val ≠ 9) : ¬cond4_1 (grid4.coords t) := fun h => h1 ((hcond4_1 t).mp h)
theorem hC1 (t : Fin cfg4.N) (h1 : t.val = 9) : cond4_1 (grid4.coords t) := (hcond4_1 t).mpr h1

/-! ## What the output buffer and the accumulator hold after each point -/

/-- The pair (output buffer, accumulator) after the first point. -/
def caseA4 (c : Dev nD) (t : Fin cfg4.N) (h0 : t.val = 0) : Vec F S1x96 .f32 × Vec F S1x96 .f32 :=
  (out4_A_1 c (grid4.coords t) (ms4_0 t) (hs4_0 t) (ms4_1 t) (hs4_1 t) scM4_0 (Memref.isWhole_whole _) (hA0 t h0) (hA1 t h0) (iblk4 V c 0 t),
   sout4_A_0 c (grid4.coords t) (ms4_0 t) (hs4_0 t) (ms4_1 t) (hs4_1 t) scM4_0 (Memref.isWhole_whole _) (hA0 t h0) (hA1 t h0) (iblk4 V c 0 t))

/-- The pair after a middle point, over the accumulator `xs` the point before left. -/
def caseB4 (c : Dev nD) (t : Fin cfg4.N) (h0 : t.val ≠ 0) (h1 : t.val ≠ 9) (xs : Vec F S1x96 .f32) : Vec F S1x96 .f32 × Vec F S1x96 .f32 :=
  (out4_B_1 c (grid4.coords t) (ms4_0 t) (hs4_0 t) (ms4_1 t) (hs4_1 t) scM4_0 (Memref.isWhole_whole _) (hB0 t h0) (hB1 t h1) (iblk4 V c 0 t) xs,
   sout4_B_0 c (grid4.coords t) (ms4_0 t) (hs4_0 t) (ms4_1 t) (hs4_1 t) scM4_0 (Memref.isWhole_whole _) (hB0 t h0) (hB1 t h1) (iblk4 V c 0 t) xs)

/-- The pair after the last point, over the accumulator `xs` the point before left. -/
def caseC4 (c : Dev nD) (t : Fin cfg4.N) (h0 : t.val ≠ 0) (h1 : t.val = 9) (xs : Vec F S1x96 .f32) : Vec F S1x96 .f32 × Vec F S1x96 .f32 :=
  (out4_C_1 c (grid4.coords t) (ms4_0 t) (hs4_0 t) (ms4_1 t) (hs4_1 t) scM4_0 (Memref.isWhole_whole _) (hB0 t h0) (hC1 t h1) (iblk4 V c 0 t) xs,
   sout4_C_0 c (grid4.coords t) (ms4_0 t) (hs4_0 t) (ms4_1 t) (hs4_1 t) scM4_0 (Memref.isWhole_whole _) (hB0 t h0) (hC1 t h1) (iblk4 V c 0 t) xs)

/-- THE ACCUMULATION: the pair after the body at position `n`, by recursion on `n`. -/
def outsAt4 (c : Dev nD) : (n : ℕ) → n < cfg4.N → Vec F S1x96 .f32 × Vec F S1x96 .f32
  | 0, hn => caseA4 V c ⟨0, hn⟩ rfl
  | n + 1, hn =>
    if h1 : n + 1 = 9 then
      caseC4 V c ⟨n + 1, hn⟩ (Nat.succ_ne_zero n) h1 (outsAt4 c n (Nat.lt_of_succ_lt hn)).2
    else
      caseB4 V c ⟨n + 1, hn⟩ (Nat.succ_ne_zero n) h1 (outsAt4 c n (Nat.lt_of_succ_lt hn)).2

theorem outsAt4_A (c : Dev nD) (t : Fin cfg4.N) (h0 : t.val = 0) :
    outsAt4 V c t.val t.isLt = caseA4 V c t h0 := by
  obtain ⟨n, hn⟩ := t
  cases n with
  | zero => exact rfl
  | succ n => exact absurd h0 (Nat.succ_ne_zero n)

theorem outsAt4_B (c : Dev nD) (t : Fin cfg4.N) (h0 : t.val ≠ 0) (h1 : t.val ≠ 9) :
    outsAt4 V c t.val t.isLt = caseB4 V c t h0 h1 (outsAt4 V c (t.val - 1) (Nat.lt_of_le_of_lt (Nat.sub_le _ _) t.isLt)).2 := by
  obtain ⟨n, hn⟩ := t
  cases n with
  | zero => exact absurd rfl h0
  | succ n => exact (dif_neg h1).trans rfl

theorem outsAt4_C (c : Dev nD) (t : Fin cfg4.N) (h0 : t.val ≠ 0) (h1 : t.val = 9) :
    outsAt4 V c t.val t.isLt = caseC4 V c t h0 h1 (outsAt4 V c (t.val - 1) (Nat.lt_of_le_of_lt (Nat.sub_le _ _) t.isLt)).2 := by
  obtain ⟨n, hn⟩ := t
  cases n with
  | zero => exact absurd rfl h0
  | succ n => exact (dif_pos h1).trans rfl

/-! ## The region's invariant -/

/-- Before the first point the launch's invariant; before any other point the accumulator at what the point before
    left, the other scoped buffers, and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of the pooling pipeline on core `c`: the arrays as the region finds them; after the body at point
    `t` the input's buffer at its block and the output's at the accumulation's first component; the invariant above;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point: the input's memref holds its block; the position says which case the point is in; the
    invariant hands the body the accumulator at what the point before left (at anything at the first point) and takes it
    back at this point's contents, the found pieces covering it; the other scoped buffers, the generator register and
    what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  by_cases h0 : t.val = 0
  · rw [Dat.leavesExact_idle (dat4 V c) 1 t (idleAt4_1_A t (hA0 t h0) (hA1 t h0)) (noFlush4_1_A t (hA0 t h0) (hA1 t h0))]
    rw [outsAt4_A V c t h0]
    unfold caseA4 sout4_A_0; (try dsimp only)
    rw [PhiS4_castSucc V c t, PhiS4_zero V c _ _ h0, PhiA4_eq]
    iintro ⟨⟨⟨HS0, Hr⟩, Hg⟩, Ho, ⟨%d0, H0⟩, ⟨%d1, H1⟩⟩
    iapply ((kernelRun4_A c (grid4.coords t) _ _ _ _ _ _ (hA0 t h0) (hA1 t h0) (iblk4 V c 0 t)).2.2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_A_0 c _ _ _ _ _ _ _ _ _ _)
        iexact Hr
      iexact Hg
    isplitl [Ho]; · iexact Ho
    isplitl [H0]; · iexact H0
    iexists _; iexact H1
  · by_cases h1 : t.val = 9
    · rw [show (dat4 V c).leavesExact 1 t = owns (c : Thread nD τ) (ms4_1 t) fullShare ((dat4 V c).after 1 t) from by
        unfold Dat.leavesExact; rw [liveAt4_1_C t (hB0 t h0) (hC1 t h1)], after4_1]
      rw [outsAt4_C V c t h0 h1]
      unfold caseC4 out4_C_1 sout4_C_0; (try dsimp only)
      rw [PhiS4_castSucc V c t, PhiS4_pos V c _ _ h0]
      iintro ⟨⟨⟨HS0, Hr⟩, Hg⟩, Ho, ⟨%d0, H0⟩, ⟨%d1, H1⟩⟩
      iapply ((kernelRun4_C c (grid4.coords t) _ _ _ _ _ _ (hB0 t h0) (hC1 t h1) (iblk4 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover4_C_1 c _ _ _ _ _ _ _ _ _ _ _)
    · rw [Dat.leavesExact_idle (dat4 V c) 1 t (idleAt4_1_B t (hB0 t h0) (hB1 t h1)) (noFlush4_1_B t (hB0 t h0) (hB1 t h1))]
      rw [outsAt4_B V c t h0 h1]
      unfold caseB4 sout4_B_0; (try dsimp only)
      rw [PhiS4_castSucc V c t, PhiS4_pos V c _ _ h0]
      iintro ⟨⟨⟨HS0, Hr⟩, Hg⟩, Ho, ⟨%d0, H0⟩, ⟨%d1, H1⟩⟩
      iapply ((kernelRun4_B c (grid4.coords t) _ _ _ _ _ _ (hB0 t h0) (hB1 t h1) (iblk4 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _)
          iexact Hr
        iexact Hg
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.K.Run.lean ====
/-
  The run of the idealized kernel program's @main: six stretches of host operations around five kernel regions.
  The contents of every unscoped buffer at each boundary are a fold from the launch memory: a host stretch applies
  its operations, a region replaces its windows' arrays by what its write-backs leave and keeps every other buffer.
  Every weakly fair execution terminates, and the final memory holds each unscoped buffer at the end of that fold;
  the frame claim (the argument arrays end as launched) is read off it: no host operation and no region writes an
  argument (a region reads one through an input window, which is handed back unchanged).
-/
import proofs.«111731_j19000935317646_1_alg».proof.Proof.K.R0
import proofs.«111731_j19000935317646_1_alg».proof.Proof.K.R1
import proofs.«111731_j19000935317646_1_alg».proof.Proof.K.R2
import proofs.«111731_j19000935317646_1_alg».proof.Proof.K.R3
import proofs.«111731_j19000935317646_1_alg».proof.Proof.K.R4
import proofs.«111731_j19000935317646_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the pipeline leaves (an input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the stretch `hostOps0` does not write is as before it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the host stretch `hostOps1`: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the pipeline leaves (an input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the stretch `hostOps1` does not write is as before it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After the host stretch `hostOps2`: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its windows' arrays at what the pipeline leaves (an input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the stretch `hostOps2` does not write is as before it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- After the host stretch `hostOps3`: what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its windows' arrays at what the pipeline leaves (an input as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the stretch `hostOps3` does not write is as before it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- After the host stretch `hostOps4`: what region 4 is entered from. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its windows' arrays at what the pipeline leaves (an input as entered, the output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- An input window's array leaves region 4 as it entered. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer the stretch `hostOps4` does not write is as before it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- After the last host stretch `hostOps5`: the contents at the return. -/
abbrev W11 : Dev nD → Valuation τ sig (Elt F) := fun c => StableHlo.after hostOps5 (W10 m ρ c)
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-! ## The arguments end as launched -/
theorem W11_main_arg0 (c : Dev nD) : W11 m ρ c (Proc.devRef .tc main_arg0) = m ((c : Thread nD τ).loc main_arg0) :=
  (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_in m ρ c 0 rfl).trans <| (W1_of m ρ c main_arg0 (by decide)).trans <| rfl
theorem W11_main_arg1 (c : Dev nD) : W11 m ρ c (Proc.devRef .tc main_arg1) = m ((c : Thread nD τ).loc main_arg1) :=
  (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans <| rfl
theorem W11_main_arg2 (c : Dev nD) : W11 m ρ c (Proc.devRef .tc main_arg2) = m ((c : Thread nD τ).loc main_arg2) :=
  (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_in m ρ c 2 rfl).trans <| (W1_of m ρ c main_arg2 (by decide)).trans <| rfl
theorem W11_main_arg3 (c : Dev nD) : W11 m ρ c (Proc.devRef .tc main_arg3) = m ((c : Thread nD τ).loc main_arg3) :=
  (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans <| rfl
theorem W11_main_arg4 (c : Dev nD) : W11 m ρ c (Proc.devRef .tc main_arg4) = m ((c : Thread nD τ).loc main_arg4) :=
  (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_in m ρ c 2 rfl).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans <| rfl
theorem W11_main_arg5 (c : Dev nD) : W11 m ρ c (Proc.devRef .tc main_arg5) = m ((c : Thread nD τ).loc main_arg5) :=
  (W11_of m ρ c main_arg5 (by decide)).trans <| (W10_of_ne m ρ c main_arg5 (by decide)).trans <| (W9_of m ρ c main_arg5 (by decide)).trans <| (W8_in m ρ c 1 rfl).trans <| (W7_of m ρ c main_arg5 (by decide)).trans <| (W6_of_ne m ρ c main_arg5 (by decide)).trans <| (W5_of m ρ c main_arg5 (by decide)).trans <| (W4_in m ρ c 1 rfl).trans <| (W3_of m ρ c main_arg5 (by decide)).trans <| (W2_of_ne m ρ c main_arg5 (by decide)).trans <| (W1_of m ρ c main_arg5 (by decide)).trans <| rfl
theorem W11_main_arg6 (c : Dev nD) : W11 m ρ c (Proc.devRef .tc main_arg6) = m ((c : Thread nD τ).loc main_arg6) :=
  (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans <| rfl
theorem W11_main_arg7 (c : Dev nD) : W11 m ρ c (Proc.devRef .tc main_arg7) = m ((c : Thread nD τ).loc main_arg7) :=
  (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans <| rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the region's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the region's invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register goes into the region's invariant and comes back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. Its arrays are split out of the unscoped
    buffers and put back at the exit contents; the generator register goes into the region's invariant and comes back;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. Its arrays are split out of the unscoped
    buffers and put back at the exit contents; the generator register goes into the region's invariant and comes back;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    have h := hin4 (V9 m ρ) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dat4 (V9 m ρ) c).Φ (Fin.last cfg4.N) from rfl]
    have h2 : (Pipeline.ΦA spec4 c : sProp 𝕄) ⊢ iprop((∃ r, prngReg c r) ∗ BI.emp ∗ Pipeline.scopedRest spec4 c) := by
      unfold Pipeline.ΦA
      iintro ⟨Hr, Hp⟩
      isplitl [Hp]; · iexact Hp
      isplitr; · iempintro
      iexact Hr
    exact (hout4 (V9 m ρ) c).trans h2
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds every unscoped buffer of every core at the end of the fold `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show (iprop(StableHlo.held (c : Thread nD τ) (Pipeline.ucRefs τ sig) (W11 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.Kernel.Hand

end
-- ==== Proof.KI.R0.lean ====
/- Region 0 of the program: one linear layer on a block of rows.  At every grid point the body reads a block of
   5000 rows of the feature matrix, the whole 96 x 96 weight matrix, the bias row and the rows' column of scale
   factors, and overwrites the output block of 5000 rows with a single store of a value computed from those four
   reads alone.  Nothing else is written, so: after the body each input block is what it was, and the output block
   is that one value, whatever the output buffer held before.  This file states that per grid point, for arbitrary
   contents of the arrays at the region's entry, and packages it as the pipeline's body obligation. -/
import proofs.«111731_j19000935317646_1_alg».proof.Proof.Gen.KernelIdeal.Launch
import proofs.«111731_j19000935317646_1_alg».proof.Proof.Gen.KernelIdeal.Skeleton
import proofs.«111731_j19000935317646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the core's buffers when the region is entered: every statement below holds for any such contents
variable (V : (c : Dev nD) → (b : Ref sig .tc) → Buf (Elt F) ((c : Thread nD τ).loc b))

/-! ## The windows' blocks -/

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: when the body is entered at a point, the window's current buffer holds the window's block there,
    whether the block was copied in at this point or at an earlier one (an input block that is not copied in again has
    the same index as before, and the body leaves it as it was). For any proof data over the entry contents. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: when the body is entered at a point, the window's current buffer holds the window's block there,
    whether the block was copied in at this point or at an earlier one (an input block that is not copied in again has
    the same index as before, and the body leaves it as it was). For any proof data over the entry contents. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: when the body is entered at a point, the window's current buffer holds the window's block there,
    whether the block was copied in at this point or at an earlier one (an input block that is not copied in again has
    the same index as before, and the body leaves it as it was). For any proof data over the entry contents. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: when the body is entered at a point, the window's current buffer holds the window's block there,
    whether the block was copied in at this point or at an earlier one (an input block that is not copied in again has
    the same index as before, and the body leaves it as it was). For any proof data over the entry contents. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_0 : Rect S5000x96 := Rect.unit (s := S5000x96) ![0, 0] S5000x96.size inb_S5000x96_S5000x96_0_0
abbrev r0_1 : Rect S96x96 := Rect.unit (s := S96x96) ![0, 0] S96x96.size inb_S96x96_S96x96_0_0
abbrev r0_2 : Rect S96 := Rect.unit (s := S96) ![0] S96.size inb_S96_S96_0
abbrev r0_3 : Rect S5000x1 := Rect.unit (s := S5000x1) ![0, 0] S5000x1.size inb_S5000x1_S5000x1_0_0

/-! ## What the body leaves in the output block -/

/-- The output block after the body, as a function of the four input blocks: the one store, over the whole block. -/
def out0_4 (x0 : Vec F S5000x96 .f32) (x1 : Vec F S96x96 .f32) (x2 : Vec F S96 .f32) (x3 : Vec F S5000x1 .f32) : Vec F S5000x96 .f32 :=
  View.canon [⟨r0_0, k0_pay1 (View.ld x0 r0_0) (View.ld x1 r0_1) (View.ld x2 r0_2) (View.ld x3 r0_3)⟩]

/-- The store's rectangle is the whole block, so every index of the block lies in it. -/
theorem cover0_4 (p0 : Vec F S5000x96 .f32) (y : S5000x96.Idx) :
    ∃ pc ∈ ([⟨r0_0, p0⟩] : List (View.Piece (Elt F) S5000x96 .f32)), y ∈ pc.1.set :=
  View.cover_of_tiled [⟨r0_0, p0⟩] S5000x96.size (by rfl) y

/-! ## The body's triple -/

set_option maxHeartbeats 1000000 in
/-- The body on whole buffers: the four inputs' buffers at contents `x0 .. x3`, the output's at anything. It runs to a
    state where the inputs' buffers are unchanged and the output's holds `out0_4 x0 x1 x2 x3`: five loads (the fifth,
    of the output buffer, is not used) and one store. -/
theorem sound_kernel0 (c : Dev nD) (E : Set ℕ) (i : grid0.Coords) (arg1 : Memref sig .tc .vmem S5000x96 .f32) (harg1 : arg1.IsWhole) (arg2 : Memref sig .tc .vmem S96x96 .f32) (harg2 : arg2.IsWhole) (arg3 : Memref sig .tc .vmem S96 .f32) (harg3 : arg3.IsWhole) (arg4 : Memref sig .tc .vmem S5000x1 .f32) (harg4 : arg4.IsWhole) (arg5 : Memref sig .tc .vmem S5000x96 .f32) (harg5 : arg5.IsWhole)
    (x0 : Vec F S5000x96 .f32) (x1 : Vec F S96x96 .f32) (x2 : Vec F S96 .f32) (x3 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__linear_norm_kernel i arg1 harg1 arg2 harg2 arg3 harg3 arg4 harg4 arg5 harg5) K := by
  simp only [cc0__linear_norm_kernel_eq_skeleton]; unfold cc0__linear_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the region's pipeline on core `c`: the arrays as the region finds them; after the body at a
    point each input's buffer holds its block and the output's holds `out0_4` of the four input blocks; the invariant
    is the untouched rest of the core's state; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is entered with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- The class-A half of pallas_call region 1 (the edge-scale kernel on a grid of 100 points, three windows:
   the gathered rows [8000,96] and the per-edge factor [8000,1] read, the scaled rows [8000,96] written), stated at a
   parameter `V`, the TensorCore's buffer contents when the region is entered.  Each window's block at a point is read
   off its array; the body reads its two inputs whole, reads the output buffer once without using what it read, and
   overwrites the output buffer whole with the payload of the two inputs; so after the body the inputs' buffers hold
   their blocks and the output's holds the payload, whatever it held before.  From this: the proof data of the
   pipeline and its body obligation at every point. -/
import proofs.«111731_j19000935317646_1_alg».proof.Proof.Gen.KernelIdeal.Launch
import proofs.«111731_j19000935317646_1_alg».proof.Proof.Gen.KernelIdeal.Skeleton
import proofs.«111731_j19000935317646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: the window is uncut, never idle, and the body does not write it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S8000x96 := Rect.unit (s := S8000x96) ![0, 0] S8000x96.size inb_S8000x96_S8000x96_0_0
abbrev r1_1 : Rect S8000x1 := Rect.unit (s := S8000x1) ![0, 0] S8000x1.size inb_S8000x1_S8000x1_0_0

/-! ## What the body leaves in the output window's buffer -/

/-- Window 2's staging buffer after the body, from the input windows' blocks: its one store, of the whole buffer,
    of the payload of the two inputs read whole. -/
def out1_2 (x0 : Vec F S8000x96 .f32) (x1 : Vec F S8000x1 .f32) : Vec F S8000x96 .f32 :=
  View.canon [⟨r1_0, k1_pay1 (View.ld x0 r1_0) (View.ld x1 r1_1)⟩]

/-- The one store is of the whole buffer, so it covers it: one block of the buffer's own extents. -/
theorem cover1_2 (p0 : Vec F S8000x96 .f32) (y : S8000x96.Idx) :
    ∃ pc ∈ ([⟨r1_0, p0⟩] : List (View.Piece (Elt F) S8000x96 .f32)), y ∈ pc.1.set :=
  View.cover_of_tiled [⟨r1_0, p0⟩] S8000x96.size (by rfl) y

/-! ## The body's triple -/

set_option maxHeartbeats 1000000 in
/-- The kernel body on whole staging memrefs, the inputs' at contents `x0`, `x1` and the output's at anything, runs to
    the continuation holding the inputs' as they were and the output's at `out1_2 x0 x1`: two loads, a load of the
    output buffer whose value is not used, and the store. -/
theorem sound_kernel1 (c : Dev nD) (E : Set ℕ) (i : grid1.Coords) (arg1 : Memref sig .tc .vmem S8000x96 .f32) (harg1 : arg1.IsWhole) (arg2 : Memref sig .tc .vmem S8000x1 .f32) (harg2 : arg2.IsWhole) (arg3 : Memref sig .tc .vmem S8000x96 .f32) (harg3 : arg3.IsWhole)
    (x0 : Vec F S8000x96 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__edge_scale_kernel i arg1 harg1 arg2 harg2 arg3 harg3) K := by
  simp only [cc1__edge_scale_kernel_eq_skeleton]; unfold cc1__edge_scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program: the second linear layer, on a block of rows, with a hyperbolic tangent applied to the
   features first.  At every grid point the body reads a block of
   5000 rows of the feature matrix, the whole 96 x 96 weight matrix, the bias row and the rows' column of scale
   factors, and overwrites the output block of 5000 rows with a single store of a value computed from those four
   reads alone.  Nothing else is written, so: after the body each input block is what it was, and the output block
   is that one value, whatever the output buffer held before.  This file states that per grid point, for arbitrary
   contents of the arrays at the region's entry, and packages it as the pipeline's body obligation. -/
import proofs.«111731_j19000935317646_1_alg».proof.Proof.Gen.KernelIdeal.Launch
import proofs.«111731_j19000935317646_1_alg».proof.Proof.Gen.KernelIdeal.Skeleton
import proofs.«111731_j19000935317646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the core's buffers when the region is entered: every statement below holds for any such contents
variable (V : (c : Dev nD) → (b : Ref sig .tc) → Buf (Elt F) ((c : Thread nD τ).loc b))

/-! ## The windows' blocks -/

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: when the body is entered at a point, the window's current buffer holds the window's block there,
    whether the block was copied in at this point or at an earlier one (an input block that is not copied in again has
    the same index as before, and the body leaves it as it was). For any proof data over the entry contents. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: when the body is entered at a point, the window's current buffer holds the window's block there,
    whether the block was copied in at this point or at an earlier one (an input block that is not copied in again has
    the same index as before, and the body leaves it as it was). For any proof data over the entry contents. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: when the body is entered at a point, the window's current buffer holds the window's block there,
    whether the block was copied in at this point or at an earlier one (an input block that is not copied in again has
    the same index as before, and the body leaves it as it was). For any proof data over the entry contents. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: when the body is entered at a point, the window's current buffer holds the window's block there,
    whether the block was copied in at this point or at an earlier one (an input block that is not copied in again has
    the same index as before, and the body leaves it as it was). For any proof data over the entry contents. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_0 : Rect S5000x96 := Rect.unit (s := S5000x96) ![0, 0] S5000x96.size inb_S5000x96_S5000x96_0_0
abbrev r2_1 : Rect S96x96 := Rect.unit (s := S96x96) ![0, 0] S96x96.size inb_S96x96_S96x96_0_0
abbrev r2_2 : Rect S96 := Rect.unit (s := S96) ![0] S96.size inb_S96_S96_0
abbrev r2_3 : Rect S5000x1 := Rect.unit (s := S5000x1) ![0, 0] S5000x1.size inb_S5000x1_S5000x1_0_0

/-! ## What the body leaves in the output block -/

/-- The output block after the body, as a function of the four input blocks: the one store, over the whole block. -/
def out2_4 (x0 : Vec F S5000x96 .f32) (x1 : Vec F S96x96 .f32) (x2 : Vec F S96 .f32) (x3 : Vec F S5000x1 .f32) : Vec F S5000x96 .f32 :=
  View.canon [⟨r2_0, k2_pay1 (View.ld x0 r2_0) (View.ld x1 r2_1) (View.ld x2 r2_2) (View.ld x3 r2_3)⟩]

/-- The store's rectangle is the whole block, so every index of the block lies in it. -/
theorem cover2_4 (p0 : Vec F S5000x96 .f32) (y : S5000x96.Idx) :
    ∃ pc ∈ ([⟨r2_0, p0⟩] : List (View.Piece (Elt F) S5000x96 .f32)), y ∈ pc.1.set :=
  View.cover_of_tiled [⟨r2_0, p0⟩] S5000x96.size (by rfl) y

/-! ## The body's triple -/

set_option maxHeartbeats 1000000 in
/-- The body on whole buffers: the four inputs' buffers at contents `x0 .. x3`, the output's at anything. It runs to a
    state where the inputs' buffers are unchanged and the output's holds `out2_4 x0 x1 x2 x3`: five loads (the fifth,
    of the output buffer, is not used) and one store. -/
theorem sound_kernel2 (c : Dev nD) (E : Set ℕ) (i : grid2.Coords) (arg1 : Memref sig .tc .vmem S5000x96 .f32) (harg1 : arg1.IsWhole) (arg2 : Memref sig .tc .vmem S96x96 .f32) (harg2 : arg2.IsWhole) (arg3 : Memref sig .tc .vmem S96 .f32) (harg3 : arg3.IsWhole) (arg4 : Memref sig .tc .vmem S5000x1 .f32) (harg4 : arg4.IsWhole) (arg5 : Memref sig .tc .vmem S5000x96 .f32) (harg5 : arg5.IsWhole)
    (x0 : Vec F S5000x96 .f32) (x1 : Vec F S96x96 .f32) (x2 : Vec F S96 .f32) (x3 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__linear_norm_kernel i arg1 harg1 arg2 harg2 arg3 harg3 arg4 harg4 arg5 harg5) K := by
  simp only [cc2__linear_norm_kernel_eq_skeleton]; unfold cc2__linear_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the region's pipeline on core `c`: the arrays as the region finds them; after the body at a
    point each input's buffer holds its block and the output's holds `out2_4` of the four input blocks; the invariant
    is the untouched rest of the core's state; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is entered with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- The class-A half of pallas_call region 3 (the edge-scale kernel on a grid of 100 points, three windows:
   the gathered rows [8000,96] and the per-edge factor [8000,1] read, the scaled rows [8000,96] written), stated at a
   parameter `V`, the TensorCore's buffer contents when the region is entered.  Each window's block at a point is read
   off its array; the body reads its two inputs whole, reads the output buffer once without using what it read, and
   overwrites the output buffer whole with the payload of the two inputs; so after the body the inputs' buffers hold
   their blocks and the output's holds the payload, whatever it held before.  From this: the proof data of the
   pipeline and its body obligation at every point. -/
import proofs.«111731_j19000935317646_1_alg».proof.Proof.Gen.KernelIdeal.Launch
import proofs.«111731_j19000935317646_1_alg».proof.Proof.Gen.KernelIdeal.Skeleton
import proofs.«111731_j19000935317646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place: the window is uncut, never idle, and the body does not write it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S8000x96 := Rect.unit (s := S8000x96) ![0, 0] S8000x96.size inb_S8000x96_S8000x96_0_0
abbrev r3_1 : Rect S8000x1 := Rect.unit (s := S8000x1) ![0, 0] S8000x1.size inb_S8000x1_S8000x1_0_0

/-! ## What the body leaves in the output window's buffer -/

/-- Window 2's staging buffer after the body, from the input windows' blocks: its one store, of the whole buffer,
    of the payload of the two inputs read whole. -/
def out3_2 (x0 : Vec F S8000x96 .f32) (x1 : Vec F S8000x1 .f32) : Vec F S8000x96 .f32 :=
  View.canon [⟨r3_0, k3_pay1 (View.ld x0 r3_0) (View.ld x1 r3_1)⟩]

/-- The one store is of the whole buffer, so it covers it: one block of the buffer's own extents. -/
theorem cover3_2 (p0 : Vec F S8000x96 .f32) (y : S8000x96.Idx) :
    ∃ pc ∈ ([⟨r3_0, p0⟩] : List (View.Piece (Elt F) S8000x96 .f32)), y ∈ pc.1.set :=
  View.cover_of_tiled [⟨r3_0, p0⟩] S8000x96.size (by rfl) y

/-! ## The body's triple -/

set_option maxHeartbeats 1000000 in
/-- The kernel body on whole staging memrefs, the inputs' at contents `x0`, `x1` and the output's at anything, runs to
    the continuation holding the inputs' as they were and the output's at `out3_2 x0 x1`: two loads, a load of the
    output buffer whose value is not used, and the store. -/
theorem sound_kernel3 (c : Dev nD) (E : Set ℕ) (i : grid3.Coords) (arg1 : Memref sig .tc .vmem S8000x96 .f32) (harg1 : arg1.IsWhole) (arg2 : Memref sig .tc .vmem S8000x1 .f32) (harg2 : arg2.IsWhole) (arg3 : Memref sig .tc .vmem S8000x96 .f32) (harg3 : arg3.IsWhole)
    (x0 : Vec F S8000x96 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__edge_scale_kernel i arg1 harg1 arg2 harg2 arg3 harg3) K := by
  simp only [cc3__edge_scale_kernel_eq_skeleton]; unfold cc3__edge_scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's owed counts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Runs.lean ====
/- The pooling region (a grid of 10 points over the rows of h, a [1,96] accumulator carried from point to point):
   what its three control cases share. The two conditions on the coordinate in closed form (the first holds at
   point 0 only, the second at point 9 only); where the output window is idle; the memrefs the body is called
   with; and the region's invariant opened at the accumulator. -/
import proofs.«111731_j19000935317646_1_alg».proof.Proof.Gen.KernelIdeal.Launch
import proofs.«111731_j19000935317646_1_alg».proof.Proof.Gen.KernelIdeal.Skeleton
import proofs.«111731_j19000935317646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions -/

/-- The first condition (the coordinate is 0), as the body computes it. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second condition (the coordinate is 9), as the body computes it. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- The input window is never idle. -/
theorem liveAt4_0 : ∀ t : Fin cfg4.N, cfg4.idle 0 (grid4.coords t) = false := by decide +kernel
/-- At the first point nothing is stored into the output window, and it is not written back. -/
theorem idleAt4_1_A : ∀ t : Fin cfg4.N, cond4_0 (grid4.coords t) → ¬cond4_1 (grid4.coords t) → cfg4.idle 1 (grid4.coords t) = true := by decide +kernel
theorem noFlush4_1_A : ∀ t : Fin cfg4.N, cond4_0 (grid4.coords t) → ¬cond4_1 (grid4.coords t) → (cfg4.win 1).flush t = false := by decide +kernel
/-- The same at the points strictly between the first and the last. -/
theorem idleAt4_1_B : ∀ t : Fin cfg4.N, ¬cond4_0 (grid4.coords t) → ¬cond4_1 (grid4.coords t) → cfg4.idle 1 (grid4.coords t) = true := by decide +kernel
theorem noFlush4_1_B : ∀ t : Fin cfg4.N, ¬cond4_0 (grid4.coords t) → ¬cond4_1 (grid4.coords t) → (cfg4.win 1).flush t = false := by decide +kernel
/-- At the last point the output window is stored into. -/
theorem liveAt4_1_C : ∀ t : Fin cfg4.N, ¬cond4_0 (grid4.coords t) → cond4_1 (grid4.coords t) → cfg4.idle 1 (grid4.coords t) = false := by decide +kernel

/-! ## The memrefs the body is called with -/

/-- The output window's one staging buffer, as a view: its contents are stated through it. -/
abbrev VO4_1 : View sig .tc .vmem S1x96 .f32 := (Memref.whole cc4_stg1_0 : Memref sig .tc .vmem S1x96 .f32).view
/-- Each window's current staging memref at point `t`, and its wholeness. -/
abbrev ms4_0 (t : Fin cfg4.N) : Memref sig .tc .vmem S5000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x96 .f32 := win4_1.stage (cfg4.slots t 1)
abbrev hs4_1 (t : Fin cfg4.N) : (ms4_1 t).IsWhole := hstage4_1 ((cfg4.slots t 1).cast nbuf4_1)
/-- The accumulator: a whole scoped buffer of the kernel's own, passed beside the windows. -/
abbrev scM4_0 : Memref sig .tc .vmem S1x96 .f32 := Memref.whole cc4_scratch0
/-- The same as a view: what it holds is stated through it. -/
abbrev VS4_0 : View sig .tc .vmem S1x96 .f32 := scM4_0.view

/-- Every scoped buffer other than the accumulator and the region's own staging buffers, each at some contents:
    the body never touches them. -/
abbrev rest4 (c : Dev nD) : sProp 𝕄 :=
  Pipeline.scopedRestBut (Ix := Unit) (Name := ℕ) (U := UR sig nD τ) (Lvl := ℕ) (Val := Elt F) spec4 c [cc4_scratch0]

/-- The region's invariant opened at the accumulator: the accumulator owned at some contents, the other scoped
    buffers, the generator register at some state. -/
theorem PhiA4_eq (c : Dev nD) :
    (Pipeline.ΦA spec4 c : sProp 𝕄)
      = iprop(iprop(iprop((∃ d, owns (c : Thread nD τ) scM4_0 fullShare d)) ∗ rest4 c) ∗ (∃ r, prngReg c r)) := by
  unfold Pipeline.ΦA; rw [scopedRest4_split]; simp only [scM4_0, owns_whole]; try rfl

end Cert.KernelIdeal.Hand

end
-- ==== Proof.KI.R4RunA.lean ====
/- The pooling body at the first point (first condition holds, second fails): the accumulator, found at anything,
   is zeroed and then receives the column sums of the block's tanh on top; nothing is stored into the output window.
   The pieces the accumulator ends with are the witness the symbolic run finds. -/
import proofs.«111731_j19000935317646_1_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the first point: on whole memrefs — the input's at its block `x0`, the output's at contents `xi1` handed back
    untouched, the accumulator at anything — the body runs to the continuation holding the input's as it was, the
    output's as it was, and the accumulator with the found pieces written (last first). -/
noncomputable def kernelRun4_A (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) :
    Σ' (L1 : List (View.Piece (Elt F) S1x96 .f32)), { LS0 : List (View.Piece (Elt F) S1x96 .f32) //
      ∀ (xi1 : Vec F S1x96 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_tanh_kernel i arg1 harg1 arg2 harg2 arg3 harg3) K } := by
  refine ⟨[], ?_, fun xi1 E K => ?run⟩
  case run =>
    simp only [cc4__mean_tanh_kernel_eq_skeleton]; unfold cc4__mean_tanh_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.R4RunB.lean ====
/- The pooling body at a point strictly between the first and the last (both conditions fail): the accumulator,
   found at what the point before left, receives the column sums of the block's tanh on top; nothing is stored into
   the output window. The pieces the accumulator ends with are the witness the symbolic run finds. -/
import proofs.«111731_j19000935317646_1_alg».proof.Proof.KI.R4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle point: on whole memrefs — the input's at its block `x0`, the output's at contents `xi1` handed back
    untouched, the accumulator at `xs0` — the body runs to the continuation holding the input's as it was, the
    output's as it was, and the accumulator with the found pieces written (last first). -/
noncomputable def kernelRun4_B (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) :
    Σ' (L1 : List (View.Piece (Elt F) S1x96 .f32)), { LS0 : List (View.Piece (Elt F) S1x96 .f32) //
      ∀ (xi1 : Vec F S1x96 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc4__mean_tanh_kernel i arg1 harg1 arg2 harg2 arg3 harg3) K } := by
  refine ⟨[], ?_, fun xi1 E K => ?run⟩
  case run =>
    simp only [cc4__mean_tanh_kernel_eq_skeleton]; unfold cc4__mean_tanh_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.R4RunC.lean ====
/- The pooling body at the last point (first condition fails, second holds): the accumulator, found at what the
   point before left, receives the column sums of the block's tanh on top, and the output window receives the tanh
   of the accumulator scaled by 1/50000. The pieces the two buffers end with are the witness the symbolic run finds. -/
import proofs.«111731_j19000935317646_1_alg».proof.Proof.KI.R4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At the last point: on whole memrefs — the input's at its block `x0`, the output's at anything, the accumulator at
    `xs0` — the body runs to the continuation holding the input's as it was and the output's and the accumulator each
    with the found pieces written (last first). -/
noncomputable def kernelRun4_C (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) :
    Σ' (L1 : List (View.Piece (Elt F) S1x96 .f32)), { LS0 : List (View.Piece (Elt F) S1x96 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc4__mean_tanh_kernel i arg1 harg1 arg2 harg2 arg3 harg3) K } := by
  refine ⟨?_, ?_, fun E K => ?run⟩
  case run =>
    simp only [cc4__mean_tanh_kernel_eq_skeleton]; unfold cc4__mean_tanh_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KI.R4.lean ====
/- The pooling region's proof data and body obligation. What the output buffer and the carried accumulator hold
   after each point is defined by recursion on the point: the first point's case over nothing, every later point's
   case over what the point before left in the accumulator. The region's invariant before a point other than the first
   names the accumulator's contents; the body's run in each of the three control cases then gives the obligation. -/
import proofs.«111731_j19000935317646_1_alg».proof.Proof.KI.R4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves -/

/-- The first point stores nothing into the output window: no pieces (a placeholder nothing consults). -/
def out4_A_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) : Vec F S1x96 .f32 :=
  VO4_1.read (Elt F) (VO4_1.writes (Elt F) VO4_1.junk (kernelRun4_A c i arg1 harg1 arg2 harg2 arg3 harg3 hc0 hc1 x0).1)

/-- The first point's pieces for the accumulator cover it. -/
theorem scover4_A_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) (y : S1x96.Idx) :
    ∃ pc ∈ (kernelRun4_A c i arg1 harg1 arg2 harg2 arg3 harg3 hc0 hc1 x0).2.1, y ∈ pc.1.set :=
  View.cover_of_tiledL (kernelRun4_A c i arg1 harg1 arg2 harg2 arg3 harg3 hc0 hc1 x0).2.1 S1x96.size (by sl_kernel_rfl) y

/-- What the first point leaves in the accumulator: its pieces read back. -/
def sout4_A_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i)
    (x0 : Vec F S5000x96 .f32) : Vec F S1x96 .f32 :=
  VS4_0.read (Elt F) (VS4_0.writes (Elt F) VS4_0.junk (kernelRun4_A c i arg1 harg1 arg2 harg2 arg3 harg3 hc0 hc1 x0).2.1)

/-- A middle point stores nothing into the output window either. -/
def out4_B_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) : Vec F S1x96 .f32 :=
  VO4_1.read (Elt F) (VO4_1.writes (Elt F) VO4_1.junk (kernelRun4_B c i arg1 harg1 arg2 harg2 arg3 harg3 hc0 hc1 x0 xs0).1)

/-- A middle point's pieces for the accumulator cover it. -/
theorem scover4_B_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) (y : S1x96.Idx) :
    ∃ pc ∈ (kernelRun4_B c i arg1 harg1 arg2 harg2 arg3 harg3 hc0 hc1 x0 xs0).2.1, y ∈ pc.1.set :=
  View.cover_of_tiledL (kernelRun4_B c i arg1 harg1 arg2 harg2 arg3 harg3 hc0 hc1 x0 xs0).2.1 S1x96.size (by sl_kernel_rfl) y

/-- What a middle point leaves in the accumulator. -/
def sout4_B_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i)
    (x0 : Vec F S5000x96 .f32) (xs0 : Vec F S1x96 .f32) : Vec F S1x96 .f32 :=
  VS4_0.read (Elt F) (VS4_0.writes (Elt F) VS4_0.junk (kernelRun4_B c i arg1 harg1 arg2 harg2 arg3 harg3 hc0 hc1 x0 xs0).2.1)

/-- The last point's pieces for the output window cover it. -/
theorem cover4_C_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) (y : S1x96.Idx) :
    ∃ pc ∈ (kernelRun4_C c i arg1 harg1 arg2 harg2 arg3 harg3 hc0 hc1 x0 xs0).1, y ∈ pc.1.set :=
  View.cover_of_tiledL (kernelRun4_C c i arg1 harg1 arg2 harg2 arg3 harg3 hc0 hc1 x0 xs0).1 S1x96.size (by sl_kernel_rfl) y

/-- What the last point leaves in the output window's staging buffer. -/
def out4_C_1 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) : Vec F S1x96 .f32 :=
  VO4_1.read (Elt F) (VO4_1.writes (Elt F) VO4_1.junk (kernelRun4_C c i arg1 harg1 arg2 harg2 arg3 harg3 hc0 hc1 x0 xs0).1)

/-- The last point's pieces for the accumulator cover it. -/
theorem scover4_C_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) (y : S1x96.Idx) :
    ∃ pc ∈ (kernelRun4_C c i arg1 harg1 arg2 harg2 arg3 harg3 hc0 hc1 x0 xs0).2.1, y ∈ pc.1.set :=
  View.cover_of_tiledL (kernelRun4_C c i arg1 harg1 arg2 harg2 arg3 harg3 hc0 hc1 x0 xs0).2.1 S1x96.size (by sl_kernel_rfl) y

/-- What the last point leaves in the accumulator. -/
def sout4_C_0 (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i)
    (x0 : Vec F S5000x96 .f32) (xs0 : Vec F S1x96 .f32) : Vec F S1x96 .f32 :=
  VS4_0.read (Elt F) (VS4_0.writes (Elt F) VS4_0.junk (kernelRun4_C c i arg1 harg1 arg2 harg2 arg3 harg3 hc0 hc1 x0 xs0).2.1)

/-! ## The conditions at a point, from its position -/

theorem hA0 (t : Fin cfg4.N) (h0 : t.val = 0) : cond4_0 (grid4.coords t) := (hcond4_0 t).mpr h0
theorem hA1 (t : Fin cfg4.N) (h0 : t.val = 0) : ¬cond4_1 (grid4.coords t) := fun h => by
  have h9 := (hcond4_1 t).mp h; omega
theorem hB0 (t : Fin cfg4.N) (h0 : t.val ≠ 0) : ¬cond4_0 (grid4.coords t) := fun h => h0 ((hcond4_0 t).mp h)
theorem hB1 (t : Fin cfg4.N) (h1 : t.val ≠ 9) : ¬cond4_1 (grid4.coords t) := fun h => h1 ((hcond4_1 t).mp h)
theorem hC1 (t : Fin cfg4.N) (h1 : t.val = 9) : cond4_1 (grid4.coords t) := (hcond4_1 t).mpr h1

/-! ## What the output buffer and the accumulator hold after each point -/

/-- The pair (output buffer, accumulator) after the first point. -/
def caseA4 (c : Dev nD) (t : Fin cfg4.N) (h0 : t.val = 0) : Vec F S1x96 .f32 × Vec F S1x96 .f32 :=
  (out4_A_1 c (grid4.coords t) (ms4_0 t) (hs4_0 t) (ms4_1 t) (hs4_1 t) scM4_0 (Memref.isWhole_whole _) (hA0 t h0) (hA1 t h0) (iblk4 V c 0 t),
   sout4_A_0 c (grid4.coords t) (ms4_0 t) (hs4_0 t) (ms4_1 t) (hs4_1 t) scM4_0 (Memref.isWhole_whole _) (hA0 t h0) (hA1 t h0) (iblk4 V c 0 t))

/-- The pair after a middle point, over the accumulator `xs` the point before left. -/
def caseB4 (c : Dev nD) (t : Fin cfg4.N) (h0 : t.val ≠ 0) (h1 : t.val ≠ 9) (xs : Vec F S1x96 .f32) : Vec F S1x96 .f32 × Vec F S1x96 .f32 :=
  (out4_B_1 c (grid4.coords t) (ms4_0 t) (hs4_0 t) (ms4_1 t) (hs4_1 t) scM4_0 (Memref.isWhole_whole _) (hB0 t h0) (hB1 t h1) (iblk4 V c 0 t) xs,
   sout4_B_0 c (grid4.coords t) (ms4_0 t) (hs4_0 t) (ms4_1 t) (hs4_1 t) scM4_0 (Memref.isWhole_whole _) (hB0 t h0) (hB1 t h1) (iblk4 V c 0 t) xs)

/-- The pair after the last point, over the accumulator `xs` the point before left. -/
def caseC4 (c : Dev nD) (t : Fin cfg4.N) (h0 : t.val ≠ 0) (h1 : t.val = 9) (xs : Vec F S1x96 .f32) : Vec F S1x96 .f32 × Vec F S1x96 .f32 :=
  (out4_C_1 c (grid4.coords t) (ms4_0 t) (hs4_0 t) (ms4_1 t) (hs4_1 t) scM4_0 (Memref.isWhole_whole _) (hB0 t h0) (hC1 t h1) (iblk4 V c 0 t) xs,
   sout4_C_0 c (grid4.coords t) (ms4_0 t) (hs4_0 t) (ms4_1 t) (hs4_1 t) scM4_0 (Memref.isWhole_whole _) (hB0 t h0) (hC1 t h1) (iblk4 V c 0 t) xs)

/-- THE ACCUMULATION: the pair after the body at position `n`, by recursion on `n`. -/
def outsAt4 (c : Dev nD) : (n : ℕ) → n < cfg4.N → Vec F S1x96 .f32 × Vec F S1x96 .f32
  | 0, hn => caseA4 V c ⟨0, hn⟩ rfl
  | n + 1, hn =>
    if h1 : n + 1 = 9 then
      caseC4 V c ⟨n + 1, hn⟩ (Nat.succ_ne_zero n) h1 (outsAt4 c n (Nat.lt_of_succ_lt hn)).2
    else
      caseB4 V c ⟨n + 1, hn⟩ (Nat.succ_ne_zero n) h1 (outsAt4 c n (Nat.lt_of_succ_lt hn)).2

theorem outsAt4_A (c : Dev nD) (t : Fin cfg4.N) (h0 : t.val = 0) :
    outsAt4 V c t.val t.isLt = caseA4 V c t h0 := by
  obtain ⟨n, hn⟩ := t
  cases n with
  | zero => exact rfl
  | succ n => exact absurd h0 (Nat.succ_ne_zero n)

theorem outsAt4_B (c : Dev nD) (t : Fin cfg4.N) (h0 : t.val ≠ 0) (h1 : t.val ≠ 9) :
    outsAt4 V c t.val t.isLt = caseB4 V c t h0 h1 (outsAt4 V c (t.val - 1) (Nat.lt_of_le_of_lt (Nat.sub_le _ _) t.isLt)).2 := by
  obtain ⟨n, hn⟩ := t
  cases n with
  | zero => exact absurd rfl h0
  | succ n => exact (dif_neg h1).trans rfl

theorem outsAt4_C (c : Dev nD) (t : Fin cfg4.N) (h0 : t.val ≠ 0) (h1 : t.val = 9) :
    outsAt4 V c t.val t.isLt = caseC4 V c t h0 h1 (outsAt4 V c (t.val - 1) (Nat.lt_of_le_of_lt (Nat.sub_le _ _) t.isLt)).2 := by
  obtain ⟨n, hn⟩ := t
  cases n with
  | zero => exact absurd rfl h0
  | succ n => exact (dif_pos h1).trans rfl

/-! ## The region's invariant -/

/-- Before the first point the launch's invariant; before any other point the accumulator at what the point before
    left, the other scoped buffers, and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of the pooling pipeline on core `c`: the arrays as the region finds them; after the body at point
    `t` the input's buffer at its block and the output's at the accumulation's first component; the invariant above;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point: the input's memref holds its block; the position says which case the point is in; the
    invariant hands the body the accumulator at what the point before left (at anything at the first point) and takes it
    back at this point's contents, the found pieces covering it; the other scoped buffers, the generator register and
    what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  by_cases h0 : t.val = 0
  · rw [Dat.leavesExact_idle (dat4 V c) 1 t (idleAt4_1_A t (hA0 t h0) (hA1 t h0)) (noFlush4_1_A t (hA0 t h0) (hA1 t h0))]
    rw [outsAt4_A V c t h0]
    unfold caseA4 sout4_A_0; (try dsimp only)
    rw [PhiS4_castSucc V c t, PhiS4_zero V c _ _ h0, PhiA4_eq]
    iintro ⟨⟨⟨HS0, Hr⟩, Hg⟩, Ho, ⟨%d0, H0⟩, ⟨%d1, H1⟩⟩
    iapply ((kernelRun4_A c (grid4.coords t) _ _ _ _ _ _ (hA0 t h0) (hA1 t h0) (iblk4 V c 0 t)).2.2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_A_0 c _ _ _ _ _ _ _ _ _ _)
        iexact Hr
      iexact Hg
    isplitl [Ho]; · iexact Ho
    isplitl [H0]; · iexact H0
    iexists _; iexact H1
  · by_cases h1 : t.val = 9
    · rw [show (dat4 V c).leavesExact 1 t = owns (c : Thread nD τ) (ms4_1 t) fullShare ((dat4 V c).after 1 t) from by
        unfold Dat.leavesExact; rw [liveAt4_1_C t (hB0 t h0) (hC1 t h1)], after4_1]
      rw [outsAt4_C V c t h0 h1]
      unfold caseC4 out4_C_1 sout4_C_0; (try dsimp only)
      rw [PhiS4_castSucc V c t, PhiS4_pos V c _ _ h0]
      iintro ⟨⟨⟨HS0, Hr⟩, Hg⟩, Ho, ⟨%d0, H0⟩, ⟨%d1, H1⟩⟩
      iapply ((kernelRun4_C c (grid4.coords t) _ _ _ _ _ _ (hB0 t h0) (hC1 t h1) (iblk4 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover4_C_1 c _ _ _ _ _ _ _ _ _ _ _)
    · rw [Dat.leavesExact_idle (dat4 V c) 1 t (idleAt4_1_B t (hB0 t h0) (hB1 t h1)) (noFlush4_1_B t (hB0 t h0) (hB1 t h1))]
      rw [outsAt4_B V c t h0 h1]
      unfold caseB4 sout4_B_0; (try dsimp only)
      rw [PhiS4_castSucc V c t, PhiS4_pos V c _ _ h0]
      iintro ⟨⟨⟨HS0, Hr⟩, Hg⟩, Ho, ⟨%d0, H0⟩, ⟨%d1, H1⟩⟩
      iapply ((kernelRun4_B c (grid4.coords t) _ _ _ _ _ _ (hB0 t h0) (hB1 t h1) (iblk4 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _)
          iexact Hr
        iexact Hg
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.Run.lean ====
/-
  The run of the idealized kernel program's @main: six stretches of host operations around five kernel regions.
  The contents of every unscoped buffer at each boundary are a fold from the launch memory: a host stretch applies
  its operations, a region replaces its windows' arrays by what its write-backs leave and keeps every other buffer.
  Every weakly fair execution terminates, and the final memory holds each unscoped buffer at the end of that fold;
  the frame claim (the argument arrays end as launched) is read off it: no host operation and no region writes an
  argument (a region reads one through an input window, which is handed back unchanged).
-/
import proofs.«111731_j19000935317646_1_alg».proof.Proof.KI.R0
import proofs.«111731_j19000935317646_1_alg».proof.Proof.KI.R1
import proofs.«111731_j19000935317646_1_alg».proof.Proof.KI.R2
import proofs.«111731_j19000935317646_1_alg».proof.Proof.KI.R3
import proofs.«111731_j19000935317646_1_alg».proof.Proof.KI.R4
import proofs.«111731_j19000935317646_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the pipeline leaves (an input as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the stretch `hostOps0` does not write is as before it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the host stretch `hostOps1`: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the pipeline leaves (an input as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the stretch `hostOps1` does not write is as before it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After the host stretch `hostOps2`: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its windows' arrays at what the pipeline leaves (an input as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the stretch `hostOps2` does not write is as before it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- After the host stretch `hostOps3`: what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its windows' arrays at what the pipeline leaves (an input as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the stretch `hostOps3` does not write is as before it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- After the host stretch `hostOps4`: what region 4 is entered from. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its windows' arrays at what the pipeline leaves (an input as entered, the output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- An input window's array leaves region 4 as it entered. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer the stretch `hostOps4` does not write is as before it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- After the last host stretch `hostOps5`: the contents at the return. -/
abbrev W11 : Dev nD → Valuation τ sig (Elt F) := fun c => StableHlo.after hostOps5 (W10 m ρ c)
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-! ## The arguments end as launched -/
theorem W11_main_arg0 (c : Dev nD) : W11 m ρ c (Proc.devRef .tc main_arg0) = m ((c : Thread nD τ).loc main_arg0) :=
  (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_in m ρ c 0 rfl).trans <| (W1_of m ρ c main_arg0 (by decide)).trans <| rfl
theorem W11_main_arg1 (c : Dev nD) : W11 m ρ c (Proc.devRef .tc main_arg1) = m ((c : Thread nD τ).loc main_arg1) :=
  (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans <| rfl
theorem W11_main_arg2 (c : Dev nD) : W11 m ρ c (Proc.devRef .tc main_arg2) = m ((c : Thread nD τ).loc main_arg2) :=
  (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_in m ρ c 2 rfl).trans <| (W1_of m ρ c main_arg2 (by decide)).trans <| rfl
theorem W11_main_arg3 (c : Dev nD) : W11 m ρ c (Proc.devRef .tc main_arg3) = m ((c : Thread nD τ).loc main_arg3) :=
  (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans <| rfl
theorem W11_main_arg4 (c : Dev nD) : W11 m ρ c (Proc.devRef .tc main_arg4) = m ((c : Thread nD τ).loc main_arg4) :=
  (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_in m ρ c 2 rfl).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans <| rfl
theorem W11_main_arg5 (c : Dev nD) : W11 m ρ c (Proc.devRef .tc main_arg5) = m ((c : Thread nD τ).loc main_arg5) :=
  (W11_of m ρ c main_arg5 (by decide)).trans <| (W10_of_ne m ρ c main_arg5 (by decide)).trans <| (W9_of m ρ c main_arg5 (by decide)).trans <| (W8_in m ρ c 1 rfl).trans <| (W7_of m ρ c main_arg5 (by decide)).trans <| (W6_of_ne m ρ c main_arg5 (by decide)).trans <| (W5_of m ρ c main_arg5 (by decide)).trans <| (W4_in m ρ c 1 rfl).trans <| (W3_of m ρ c main_arg5 (by decide)).trans <| (W2_of_ne m ρ c main_arg5 (by decide)).trans <| (W1_of m ρ c main_arg5 (by decide)).trans <| rfl
theorem W11_main_arg6 (c : Dev nD) : W11 m ρ c (Proc.devRef .tc main_arg6) = m ((c : Thread nD τ).loc main_arg6) :=
  (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans <| rfl
theorem W11_main_arg7 (c : Dev nD) : W11 m ρ c (Proc.devRef .tc main_arg7) = m ((c : Thread nD τ).loc main_arg7) :=
  (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans <| rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the region's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the region's invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register goes into the region's invariant and comes back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. Its arrays are split out of the unscoped
    buffers and put back at the exit contents; the generator register goes into the region's invariant and comes back;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. Its arrays are split out of the unscoped
    buffers and put back at the exit contents; the generator register goes into the region's invariant and comes back;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    have h := hin4 (V9 m ρ) c
    unfold Pipeline.ΦA at h
    iintro ⟨Hp, -, Hr⟩
    iapply h
    isplitl [Hr]; · iexact Hr
    iexact Hp
  hout c := by
    rw [Pipeline.ownSems0_none, show (pdats m ρ 4 c).Φ (Fin.last _) = (dat4 (V9 m ρ) c).Φ (Fin.last cfg4.N) from rfl]
    have h2 : (Pipeline.ΦA spec4 c : sProp 𝕄) ⊢ iprop((∃ r, prngReg c r) ∗ BI.emp ∗ Pipeline.scopedRest spec4 c) := by
      unfold Pipeline.ΦA
      iintro ⟨Hr, Hp⟩
      isplitl [Hp]; · iexact Hp
      isplitr; · iempintro
      iexact Hr
    exact (hout4 (V9 m ρ) c).trans h2
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds every unscoped buffer of every core at the end of the fold `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show (iprop(StableHlo.held (c : Thread nD τ) (Pipeline.ucRefs τ sig) (W11 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.KernelIdeal.Hand

end
-- ==== Proof.Val.Scale.lean ====
/- The values the two edge-scale regions leave, at the idealized arithmetic.  Each of the 100 points of such a region
   writes back one block of 8000 rows of the output: the body's payload of the point's two input blocks, which at row p
   and lane q is the gathered row's entry (p, q) times the factor of row p.  Every window of the region is on row block t
   at point t, so what point t writes back is block t of ONE function of the two whole arrays,
       scaleG g f (r, q) = g (r, q) * f (r, 0),
   and the blocks of the 100 points cover the [800000, 96] output (row r falls to point r / 8000): after the region the
   output array is scaleG of the two input arrays as the region finds them. -/
import proofs.«111731_j19000935317646_1_alg».proof.Proof.KI.R1
import proofs.«111731_j19000935317646_1_alg».proof.Proof.KI.R3
import Idealize.ShloMosaic.Lib.Pipeline.Value
import Idealize.ShloMosaic.Lib.ValueIdx

noncomputable section

namespace Cert.Val

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The rows of `g` scaled by the one-column array `f`: entry (r, q) of `g` times entry (r, 0) of `f`. -/
def scaleG (g : S800000x96.Idx → Elt Ideal .f32) (f : S800000x1.Idx → Elt Ideal .f32) : S800000x96.Idx → Elt Ideal .f32 :=
  fun i => g i * f (ix2 (⟨(i 0).val, (i 0).isLt⟩ : Fin 800000) (0 : Fin 1))

theorem scaleG_apply (g : S800000x96.Idx → Elt Ideal .f32) (f : S800000x1.Idx → Elt Ideal .f32) (r : Fin 800000) (q : Fin 96) :
    scaleG g f (ix2 r q) = g (ix2 r q) * f (ix2 r 0) := rfl

/-! ## Region 1: the scaled rows -/

/-- The payload of region 1's body at an index: the row's entry times the row's factor (the shape cast is to the same
    shape; the broadcast of the [8000,1] column along the lanes reads the row's one entry). -/
theorem k1_pay1_apply (x0 : Vec Ideal S8000x96 .f32) (x1 : Vec Ideal S8000x1 .f32) (p : Fin 8000) (q : Fin 96) :
    k1_pay1 (F := Ideal) x0 x1 (ix2 p q) = x0 (ix2 p q) * x1 (ix2 p 0) := by
  unfold k1_pay1
  rw [mulf_apply, shapeCast_self]
  congr 1
  refine broadcastTo_apply _ _ _ _ fun a => ?_
  match a with
  | ⟨0, _⟩ => rfl
  | ⟨1, _⟩ => rfl

/-- The index maps over the grid: at point `t` every window is on row block `t` and column block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows of the two arrays as the region finds them. -/
theorem flushed1_eq (c : Dev nD) (t : Fin cfg1.N) :
    (dat1 V c).flushed 2 t = ((cfg1.win 2).blk t).view.read (Elt Ideal) (scaleG (V c main_v18) (V c main_arg5)) := by
  show (cfg1.win 2).cut (grid1.coords t) ((dat1 V c).after 2 t) = _
  rw [after1_2]
  unfold out1_2
  rw [View.canon_unit_zero hz2]
  simp only [View.ld_unit_zero (S := S8000x96) hz2, View.ld_unit_zero (S := S8000x1) hz2]
  obtain ⟨e0, e1, e2, e3, e4, e5⟩ := idx_facts1 t
  funext j
  obtain ⟨p, q, rfl⟩ : ∃ (p : Fin 8000) (q : Fin 96), j = ix2 p q := ⟨j 0, j 1, eq_ix2 j⟩
  show k1_pay1 (F := Ideal) (iblk1 V c 0 t) (iblk1 V c 1 t) (ix2 p q) = _
  rw [k1_pay1_apply]
  show @HMul.hMul (Ideal .f32) (Ideal .f32) (Ideal .f32) _ (V c main_v18 (((cfg1.win 0).blk t).view.emb (ix2 p q))) (V c main_arg5 (((cfg1.win 1).blk t).view.emb (ix2 p 0)))
    = scaleG (V c main_v18) (V c main_arg5) (((cfg1.win 2).blk t).view.emb (ix2 p q))
  unfold scaleG
  have h0 : ((cfg1.win 0).blk t).view.emb (ix2 p q) = ((cfg1.win 2).blk t).view.emb (ix2 p q) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 96 + 1 * q.val = win1_2.index t (1 : Fin 2) * 96 + 1 * q.val; omega
  have h1 : ((cfg1.win 1).blk t).view.emb (ix2 p 0)
      = ix2 (⟨(((cfg1.win 2).blk t).view.emb (ix2 p q) 0).val, (((cfg1.win 2).blk t).view.emb (ix2 p q) 0).isLt⟩ : Fin 800000) (0 : Fin 1) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 1 + 1 * 0 = 0; omega
  rw [h0, h1]

/-- An index of the output array is in point `t`'s block iff each coordinate is in the block's range on its axis. -/
theorem mem_blk1 (t : Fin cfg1.N) (i : S800000x96.Idx) :
    i ∈ ((cfg1.win 2).blk t).view.set ↔ ∀ a : Fin 2, win1_2.index t a * S8000x96.size a ≤ (i a).val ∧ (i a).val < win1_2.index t a * S8000x96.size a + S8000x96.size a := by
  show i ∈ ((View.whole main_v19).slice (win1_2.rect t)).set ↔ _
  rw [View.set_slice_whole, Rect.mem_set_unit]
  exact Iff.rfl

/-- Every index of the output array is in the block of the point its row falls to: row `r` in that of point `r / 8000`. -/
theorem cover1 (i : S800000x96.Idx) :
    ∃ t : Fin cfg1.N, (cfg1.win 2).flush t = true ∧ i ∈ ((cfg1.win 2).blk t).view.set := by
  have hi0 : (i 0).val < 800000 := (i 0).isLt
  have hi1 : (i 1).val < 96 := (i 1).isLt
  obtain ⟨t, ht⟩ : ∃ t : Fin cfg1.N, t.val = (i 0).val / 8000 :=
    ⟨⟨(i 0).val / 8000, by rw [show cfg1.N = 100 from N_1]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 96 ≤ (i 1).val ∧ (i 1).val < win1_2.index t (1 : Fin 2) * 96 + 96; omega

/-- The output array after region 1: the scaled rows of the two input arrays as the region finds them. -/
theorem final1 (c : Dev nD) : (dat1 V c).arrAt 2 cfg1.N = scaleG (V c main_v18) (V c main_arg5) :=
  (dat1 V c).arrAt_eq_of_cover 2 (scaleG (V c main_v18) (V c main_arg5)) (fun t _ => flushed1_eq V c t) cover1

/-- The arrays region 1's windows stage, by name. -/
theorem arrRef1_0 : Pipeline.arrRef spec1 0 = main_v18 := rfl
theorem arrRef1_1 : Pipeline.arrRef spec1 1 = main_arg5 := rfl
theorem arrRef1_2 : Pipeline.arrRef spec1 2 = main_v19 := rfl

/-! ## Region 3: the scaled rows -/

/-- The payload of region 3's body at an index: the row's entry times the row's factor (the shape cast is to the same
    shape; the broadcast of the [8000,1] column along the lanes reads the row's one entry). -/
theorem k3_pay1_apply (x0 : Vec Ideal S8000x96 .f32) (x1 : Vec Ideal S8000x1 .f32) (p : Fin 8000) (q : Fin 96) :
    k3_pay1 (F := Ideal) x0 x1 (ix2 p q) = x0 (ix2 p q) * x1 (ix2 p 0) := by
  unfold k3_pay1
  rw [mulf_apply, shapeCast_self]
  congr 1
  refine broadcastTo_apply _ _ _ _ fun a => ?_
  match a with
  | ⟨0, _⟩ => rfl
  | ⟨1, _⟩ => rfl

/-- The index maps over the grid: at point `t` every window is on row block `t` and column block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the scaled rows of the two arrays as the region finds them. -/
theorem flushed3_eq (c : Dev nD) (t : Fin cfg3.N) :
    (dat3 V c).flushed 2 t = ((cfg3.win 2).blk t).view.read (Elt Ideal) (scaleG (V c main_v30) (V c main_arg5)) := by
  show (cfg3.win 2).cut (grid3.coords t) ((dat3 V c).after 2 t) = _
  rw [after3_2]
  unfold out3_2
  rw [View.canon_unit_zero hz2]
  simp only [View.ld_unit_zero (S := S8000x96) hz2, View.ld_unit_zero (S := S8000x1) hz2]
  obtain ⟨e0, e1, e2, e3, e4, e5⟩ := idx_facts3 t
  funext j
  obtain ⟨p, q, rfl⟩ : ∃ (p : Fin 8000) (q : Fin 96), j = ix2 p q := ⟨j 0, j 1, eq_ix2 j⟩
  show k3_pay1 (F := Ideal) (iblk3 V c 0 t) (iblk3 V c 1 t) (ix2 p q) = _
  rw [k3_pay1_apply]
  show @HMul.hMul (Ideal .f32) (Ideal .f32) (Ideal .f32) _ (V c main_v30 (((cfg3.win 0).blk t).view.emb (ix2 p q))) (V c main_arg5 (((cfg3.win 1).blk t).view.emb (ix2 p 0)))
    = scaleG (V c main_v30) (V c main_arg5) (((cfg3.win 2).blk t).view.emb (ix2 p q))
  unfold scaleG
  have h0 : ((cfg3.win 0).blk t).view.emb (ix2 p q) = ((cfg3.win 2).blk t).view.emb (ix2 p q) := by
    funext a; apply Fin.ext
    match a with
    | ⟨0, _⟩ => show win3_0.index t (0 : Fin 2) * 8000 + 1 * p.val = win3_2.index t (0 : Fin 2) * 8000 + 1 * p.val; omega
    | ⟨1, _⟩ => show win3_0.index t (1 : Fin 2) * 96 + 1 * q.val = win3_2.index t (1 : Fin 2) * 96 + 1 * q.val; omega
  have h1 : ((cfg3.win 1).blk t).view.emb (ix2 p 0)
      = ix2 (⟨(((cfg3.win 2).blk t).view.emb (ix2 p q) 0).val, (((cfg3.win 2).blk t).view.emb (ix2 p q) 0).isLt⟩ : Fin 800000) (0 : Fin 1) := by
    funext a; apply Fin.ext
    match a with
    | ⟨0, _⟩ => show win3_1.index t (0 : Fin 2) * 8000 + 1 * p.val = win3_2.index t (0 : Fin 2) * 8000 + 1 * p.val; omega
    | ⟨1, _⟩ => show win3_1.index t (1 : Fin 2) * 1 + 1 * 0 = 0; omega
  rw [h0, h1]

/-- An index of the output array is in point `t`'s block iff each coordinate is in the block's range on its axis. -/
theorem mem_blk3 (t : Fin cfg3.N) (i : S800000x96.Idx) :
    i ∈ ((cfg3.win 2).blk t).view.set ↔ ∀ a : Fin 2, win3_2.index t a * S8000x96.size a ≤ (i a).val ∧ (i a).val < win3_2.index t a * S8000x96.size a + S8000x96.size a := by
  show i ∈ ((View.whole main_v31).slice (win3_2.rect t)).set ↔ _
  rw [View.set_slice_whole, Rect.mem_set_unit]
  exact Iff.rfl

/-- Every index of the output array is in the block of the point its row falls to: row `r` in that of point `r / 8000`. -/
theorem cover3 (i : S800000x96.Idx) :
    ∃ t : Fin cfg3.N, (cfg3.win 2).flush t = true ∧ i ∈ ((cfg3.win 2).blk t).view.set := by
  have hi0 : (i 0).val < 800000 := (i 0).isLt
  have hi1 : (i 1).val < 96 := (i 1).isLt
  obtain ⟨t, ht⟩ : ∃ t : Fin cfg3.N, t.val = (i 0).val / 8000 :=
    ⟨⟨(i 0).val / 8000, by rw [show cfg3.N = 100 from N_3]; omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 96 ≤ (i 1).val ∧ (i 1).val < win3_2.index t (1 : Fin 2) * 96 + 96; omega

/-- The output array after region 3: the scaled rows of the two input arrays as the region finds them. -/
theorem final3 (c : Dev nD) : (dat3 V c).arrAt 2 cfg3.N = scaleG (V c main_v30) (V c main_arg5) :=
  (dat3 V c).arrAt_eq_of_cover 2 (scaleG (V c main_v30) (V c main_arg5)) (fun t _ => flushed3_eq V c t) cover3

/-- The arrays region 3's windows stage, by name. -/
theorem arrRef3_0 : Pipeline.arrRef spec3 0 = main_v30 := rfl
theorem arrRef3_1 : Pipeline.arrRef spec3 1 = main_arg5 := rfl
theorem arrRef3_2 : Pipeline.arrRef spec3 2 = main_v31 := rfl

end Cert.Val

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«111731_j19000935317646_1_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.Val.Lin.lean ====
/- The value a linear-layer region stores, read at one entry, over the extended reals.

   Regions 0 and 2 store, for a block X of 5000 rows and 96 features, the 96 x 96 weights W, the bias b and the rows'
   scale column s, the matrix whose entry (p, q) is

       ( (sum over k of X[p, k] * W[k, q]) + b[q] ) * s[p],

   region 2 with the hyperbolic tangent applied to every X[p, k] first.  The stored value is printed as a chain of
   vector operations: two changes of float format (the identity on the extended reals), a matrix product into a zero
   accumulator, the bias viewed as one row and repeated over the rows, the scale column repeated over the columns, a
   sum and a product entry by entry.  Each of these is read at the entry (p, q); the product into zero is the
   contraction's sum, re-indexed over k : Fin 96. -/
import proofs.«111731_j19000935317646_1_alg».proof.Proof.Gen.KernelIdeal.Skeleton
import proofs.«111731_j19000935317646_1_alg».proof.Proof.LibDenseLayer
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.Val

open Cert.KernelIdeal Cert.KernelIdeal.Gen
open Idealize.ShloMosaic Idealize.ShloMosaic.ValueIdx Cert.Bridge

/-! ## Two layout readings -/

/-- A vector of length `n` viewed as a one-row matrix reads, at `(0, c)`, the vector at `c`. -/
theorem shapeCast_n_1n_apply {α : Type} {n : ℕ} (v : (⟨1, ![n]⟩ : Shape).Idx → α)
    (h : (⟨1, ![n]⟩ : Shape).ShapeCasts ⟨2, ![1, n]⟩) (c : Fin n) :
    shapeCast ⟨2, ![1, n]⟩ v h (ix2 (0 : Fin 1) c) = v (ix1 c) := by
  refine (shapeCast_addUnit_apply ![n] v h (ix2 (0 : Fin 1) c)).trans (congrArg v ?_)
  funext a
  match a with
  | ⟨0, _⟩ => rfl

/-- A column `[a, 1]` repeated over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The layer at an entry -/

/-- The printed chain for features `A` (already in their final form): entry `(p, q)` is the contraction of row `p` of
    `A` with column `q` of the weights, plus the bias at `q`, times the scale of row `p`. -/
theorem lin_apply (A : FVec Ideal S5000x96 .f32) (x1 : Vec Ideal S96x96 .f32) (x2 : Vec Ideal S96 .f32) (x3 : Vec Ideal S5000x1 .f32)
    (p : Fin 5000) (q : Fin 96) :
    mulf (addf (matmul dot_S5000x96_S96x96_S5000x96_1_0_0_1_n_n none (truncf .bf16 A bitsLt_bf16_f32)
            (truncf .bf16 (shapeCast S96x96 x1 shapeCasts_S96x96_S96x96) bitsLt_bf16_f32) (constant (F := Ideal) S5000x96 .f32 0x00000000#32))
          (broadcastTo S5000x96 (shapeCast S1x96 x2 shapeCasts_S96_S1x96) broadcasts_S1x96_S5000x96))
        (broadcastTo S5000x96 (shapeCast S5000x1 x3 shapeCasts_S5000x1_S5000x1) broadcasts_S5000x1_S5000x96) (ix2 p q)
      = ((∑ k : Fin 96, A (ix2 p k) * x1 (ix2 k q)) + x2 (ix1 q)) * x3 (ix2 p (0 : Fin 1)) := by
  refine (mulf_apply _ _ (ix2 p q)).trans ?_
  have hs : broadcastTo S5000x96 (shapeCast S5000x1 x3 shapeCasts_S5000x1_S5000x1) broadcasts_S5000x1_S5000x96 (ix2 p q)
      = x3 (ix2 p (0 : Fin 1)) :=
    (broadcastTo_a1_ab_apply _ broadcasts_S5000x1_S5000x96 p q).trans (congrFun (shapeCast_self x3 shapeCasts_S5000x1_S5000x1) _)
  have hh : addf (matmul dot_S5000x96_S96x96_S5000x96_1_0_0_1_n_n none (truncf .bf16 A bitsLt_bf16_f32)
            (truncf .bf16 (shapeCast S96x96 x1 shapeCasts_S96x96_S96x96) bitsLt_bf16_f32) (constant (F := Ideal) S5000x96 .f32 0x00000000#32))
          (broadcastTo S5000x96 (shapeCast S1x96 x2 shapeCasts_S96_S1x96) broadcasts_S1x96_S5000x96) (ix2 p q)
      = (∑ k : Fin 96, A (ix2 p k) * x1 (ix2 k q)) + x2 (ix1 q) := by
    refine (LayerAt.head_apply (M := 5000) (K := 96) (N := 96) none (truncf .bf16 A bitsLt_bf16_f32)
      (truncf .bf16 (shapeCast S96x96 x1 shapeCasts_S96x96_S96x96) bitsLt_bf16_f32)
      (shapeCast S1x96 x2 shapeCasts_S96_S1x96) broadcasts_S1x96_S5000x96 p q).trans ?_
    show (∑ k : Fin 96, A (ix2 p k) * shapeCast S96x96 x1 shapeCasts_S96x96_S96x96 (ix2 k q))
        + shapeCast S1x96 x2 shapeCasts_S96_S1x96 (ix2 (0 : Fin 1) q) = _
    rw [shapeCast_self x1 shapeCasts_S96x96_S96x96, shapeCast_n_1n_apply x2 shapeCasts_S96_S1x96 q]
  rw [hh, hs]

/-! ## The two regions' stored values -/

/-- Region 0: entry `(p, q)` of the stored block. -/
theorem k0_pay1_apply (x0 : Vec Ideal S5000x96 .f32) (x1 : Vec Ideal S96x96 .f32) (x2 : Vec Ideal S96 .f32) (x3 : Vec Ideal S5000x1 .f32)
    (p : Fin 5000) (q : Fin 96) :
    k0_pay1 x0 x1 x2 x3 (ix2 p q)
      = ((∑ k : Fin 96, x0 (ix2 p k) * x1 (ix2 k q)) + x2 (ix1 q)) * x3 (ix2 p (0 : Fin 1)) :=
  lin_apply x0 x1 x2 x3 p q

/-- Region 2: the same with the hyperbolic tangent of the features. -/
theorem k2_pay1_apply (x0 : Vec Ideal S5000x96 .f32) (x1 : Vec Ideal S96x96 .f32) (x2 : Vec Ideal S96 .f32) (x3 : Vec Ideal S5000x1 .f32)
    (p : Fin 5000) (q : Fin 96) :
    k2_pay1 x0 x1 x2 x3 (ix2 p q)
      = ((∑ k : Fin 96, Ideal.tanh (x0 (ix2 p k)) * x1 (ix2 k q)) + x2 (ix1 q)) * x3 (ix2 p (0 : Fin 1)) := by
  refine (lin_apply (tanh (shapeCast S5000x96 x0 shapeCasts_S5000x96_S5000x96)) x1 x2 x3 p q).trans ?_
  rw [shapeCast_self x0 shapeCasts_S5000x96_S5000x96]
  rfl

end Cert.Val

end
-- ==== Proof.Val.LinArr.lean ====
/- The output array of a linear-layer region after the region's run, as one function of the arrays the region finds.

   The grid has ten points; point t computes rows 5000 t .. 5000 t + 4999 of the output from the same rows of the
   features and of the scale column and from the whole weights and bias, and writes that block back.  Entry (p, q) of
   a block is ((sum over k of X[p, k] * W[k, q]) + b[q]) * s[p] over the block's rows, which is the same expression
   over the arrays at row 5000 t + p.  The ten blocks tile the 50000 rows, so after the run the output array is the
   layer of the arrays, entry by entry: row r was written by point r / 5000. -/
import proofs.«111731_j19000935317646_1_alg».proof.Proof.KI.R0
import proofs.«111731_j19000935317646_1_alg».proof.Proof.KI.R2
import proofs.«111731_j19000935317646_1_alg».proof.Proof.Val.Lin
import Idealize.ShloMosaic.Lib.Pipeline.Value
import Idealize.ShloMosaic.Lib.ValueIdx

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The layer over whole arrays -/

/-- Entry `(p, q)` of the layer: row `p` of the features against column `q` of the weights, plus the bias at `q`,
    times the scale of row `p`. -/
def linAt (x : S50000x96.Idx → Elt Ideal .f32) (w : S96x96.Idx → Elt Ideal .f32) (b : S96.Idx → Elt Ideal .f32)
    (n : S50000x1.Idx → Elt Ideal .f32) (p : Fin 50000) (q : Fin 96) : Elt Ideal .f32 :=
  ((∑ k : Fin 96, x (ix2 p k) * w (ix2 k q)) + b (ix1 q)) * n (ix2 p (0 : Fin 1))

/-- The layer as an array. -/
def linG (x : S50000x96.Idx → Elt Ideal .f32) (w : S96x96.Idx → Elt Ideal .f32) (b : S96.Idx → Elt Ideal .f32)
    (n : S50000x1.Idx → Elt Ideal .f32) : S50000x96.Idx → Elt Ideal .f32 :=
  fun i => linAt x w b n ⟨(i 0).val, (i 0).isLt⟩ ⟨(i 1).val, (i 1).isLt⟩

theorem linG_apply (x : S50000x96.Idx → Elt Ideal .f32) (w : S96x96.Idx → Elt Ideal .f32) (b : S96.Idx → Elt Ideal .f32)
    (n : S50000x1.Idx → Elt Ideal .f32) (p : Fin 50000) (q : Fin 96) :
    linG x w b n (ix2 p q) = ((∑ k : Fin 96, x (ix2 p k) * w (ix2 k q)) + b (ix1 q)) * n (ix2 p (0 : Fin 1)) := rfl

/-- The same with the hyperbolic tangent of the features. -/
def linTAt (x : S50000x96.Idx → Elt Ideal .f32) (w : S96x96.Idx → Elt Ideal .f32) (b : S96.Idx → Elt Ideal .f32)
    (n : S50000x1.Idx → Elt Ideal .f32) (p : Fin 50000) (q : Fin 96) : Elt Ideal .f32 :=
  ((∑ k : Fin 96, Ideal.tanh (x (ix2 p k)) * w (ix2 k q)) + b (ix1 q)) * n (ix2 p (0 : Fin 1))

def linTG (x : S50000x96.Idx → Elt Ideal .f32) (w : S96x96.Idx → Elt Ideal .f32) (b : S96.Idx → Elt Ideal .f32)
    (n : S50000x1.Idx → Elt Ideal .f32) : S50000x96.Idx → Elt Ideal .f32 :=
  fun i => linTAt x w b n ⟨(i 0).val, (i 0).isLt⟩ ⟨(i 1).val, (i 1).isLt⟩

theorem linTG_apply (x : S50000x96.Idx → Elt Ideal .f32) (w : S96x96.Idx → Elt Ideal .f32) (b : S96.Idx → Elt Ideal .f32)
    (n : S50000x1.Idx → Elt Ideal .f32) (p : Fin 50000) (q : Fin 96) :
    linTG x w b n (ix2 p q) = ((∑ k : Fin 96, Ideal.tanh (x (ix2 p k)) * w (ix2 k q)) + b (ix1 q)) * n (ix2 p (0 : Fin 1)) := rfl

/-! ## A block's entry against the arrays' -/

/-- One entry of a stored block against one entry of the layer of the whole arrays: if row `y 0` of the feature block
    is row `i 0` of the feature array, the weights' and the bias's blocks are the whole arrays, the scale at row `y 0`
    of its block is the scale at row `i 0` of its array, and the two columns agree, then the entries agree. -/
theorem lin_point (X0 : Vec Ideal S5000x96 .f32) (X1 : Vec Ideal S96x96 .f32) (X2 : Vec Ideal S96 .f32) (X3 : Vec Ideal S5000x1 .f32)
    (x : S50000x96.Idx → Elt Ideal .f32) (w : S96x96.Idx → Elt Ideal .f32) (b : S96.Idx → Elt Ideal .f32) (n : S50000x1.Idx → Elt Ideal .f32)
    (y : S5000x96.Idx) (i : S50000x96.Idx)
    (h0 : ∀ k : Fin 96, X0 (ix2 (⟨(y 0).val, (y 0).isLt⟩ : Fin 5000) k) = x (ix2 (⟨(i 0).val, (i 0).isLt⟩ : Fin 50000) k))
    (h1 : ∀ z, X1 z = w z) (h2 : ∀ z, X2 z = b z)
    (h3 : X3 (ix2 (⟨(y 0).val, (y 0).isLt⟩ : Fin 5000) (0 : Fin 1)) = n (ix2 (⟨(i 0).val, (i 0).isLt⟩ : Fin 50000) (0 : Fin 1)))
    (hq : (y 1).val = (i 1).val) :
    k0_pay1 X0 X1 X2 X3 y = linG x w b n i := by
  have hy : y = ix2 (⟨(y 0).val, (y 0).isLt⟩ : Fin 5000) (⟨(y 1).val, (y 1).isLt⟩ : Fin 96) := by
    funext a
    match a with
    | ⟨0, _⟩ => rfl
    | ⟨1, _⟩ => rfl
  have hq' : (⟨(y 1).val, (y 1).isLt⟩ : Fin 96) = ⟨(i 1).val, (i 1).isLt⟩ := Fin.ext hq
  refine (congrArg (k0_pay1 X0 X1 X2 X3) hy).trans ?_
  refine (k0_pay1_apply X0 X1 X2 X3 _ _).trans ?_
  unfold linG linAt
  rw [h3, h2, hq']
  simp only [h0, h1]

/-- One entry of a stored block against one entry of the layer of the whole arrays: if row `y 0` of the feature block
    is row `i 0` of the feature array, the weights' and the bias's blocks are the whole arrays, the scale at row `y 0`
    of its block is the scale at row `i 0` of its array, and the two columns agree, then the entries agree. -/
theorem linT_point (X0 : Vec Ideal S5000x96 .f32) (X1 : Vec Ideal S96x96 .f32) (X2 : Vec Ideal S96 .f32) (X3 : Vec Ideal S5000x1 .f32)
    (x : S50000x96.Idx → Elt Ideal .f32) (w : S96x96.Idx → Elt Ideal .f32) (b : S96.Idx → Elt Ideal .f32) (n : S50000x1.Idx → Elt Ideal .f32)
    (y : S5000x96.Idx) (i : S50000x96.Idx)
    (h0 : ∀ k : Fin 96, X0 (ix2 (⟨(y 0).val, (y 0).isLt⟩ : Fin 5000) k) = x (ix2 (⟨(i 0).val, (i 0).isLt⟩ : Fin 50000) k))
    (h1 : ∀ z, X1 z = w z) (h2 : ∀ z, X2 z = b z)
    (h3 : X3 (ix2 (⟨(y 0).val, (y 0).isLt⟩ : Fin 5000) (0 : Fin 1)) = n (ix2 (⟨(i 0).val, (i 0).isLt⟩ : Fin 50000) (0 : Fin 1)))
    (hq : (y 1).val = (i 1).val) :
    k2_pay1 X0 X1 X2 X3 y = linTG x w b n i := by
  have hy : y = ix2 (⟨(y 0).val, (y 0).isLt⟩ : Fin 5000) (⟨(y 1).val, (y 1).isLt⟩ : Fin 96) := by
    funext a
    match a with
    | ⟨0, _⟩ => rfl
    | ⟨1, _⟩ => rfl
  have hq' : (⟨(y 1).val, (y 1).isLt⟩ : Fin 96) = ⟨(i 1).val, (i 1).isLt⟩ := Fin.ext hq
  refine (congrArg (k2_pay1 X0 X1 X2 X3) hy).trans ?_
  refine (k2_pay1_apply X0 X1 X2 X3 _ _).trans ?_
  unfold linTG linTAt
  rw [h3, h2, hq']
  simp only [h0, h1]

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

-- the contents of the core's buffers when a region is entered
variable (V : (c : Dev nD) → (b : Ref sig .tc) → Buf (Elt Ideal) ((c : Thread nD τ).loc b))

/-! ## Region 0 -/

/-- How the windows' block indices move over the grid, decided point by point: the feature block and the scale block
    move with the output block along the rows; the weights and the bias are one block, never moving; no window moves
    along the columns. -/
theorem idx_facts0 : ∀ t : Fin cfg0.N,
      win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = win0_4.index t (0 : Fin 2) ∧ win0_3.index t (1 : Fin 2) = 0
    ∧ win0_4.index t (1 : Fin 2) = 0 :=
  (by decide +kernel : ∀ t : Fin grid0.N, _)

/-- Every one of the ten blocks of rows is some point's output block. -/
theorem idx_onto0 : ∀ q0 : Fin 10, ∃ t : Fin cfg0.N, win0_4.index t = ![q0.val, 0] :=
  (by decide +kernel : ∀ q0 : Fin 10, ∃ t : Fin grid0.N, win0_4.index t = ![q0.val, 0])

/-- What point `t` writes back is block `t` of the layer of the whole arrays as the region finds them. -/
theorem flushed0_eq (c : Dev nD) (t : Fin cfg0.N) :
    (dat0 (F := Ideal) V c).flushed 4 t
      = ((cfg0.win 4).blk t).view.read (Elt Ideal) (linG (V c main_arg0) (V c main_v9) (V c main_arg2) (V c main_v8)) := by
  show (cfg0.win 4).cut (grid0.coords t) ((dat0 (F := Ideal) V c).after 4 t) = _
  rw [after0_4]
  unfold out0_4
  rw [View.canon_unit_zero hz2]
  simp only [View.ld_unit_zero (S := S5000x96) hz2, View.ld_unit_zero (S := S96x96) hz2, View.ld_unit_zero (S := S96) hz1,
    View.ld_unit_zero (S := S5000x1) hz2]
  obtain ⟨e00, e01, e10, e11, e20, e30, e31, e41⟩ := idx_facts0 t
  funext j
  show k0_pay1 (iblk0 V c 0 t) (iblk0 V c 1 t) (iblk0 V c 2 t) (iblk0 V c 3 t) j
      = linG (V c main_arg0) (V c main_v9) (V c main_arg2) (V c main_v8) (((cfg0.win 4).blk t).view.emb j)
  refine lin_point (iblk0 V c 0 t) (iblk0 V c 1 t) (iblk0 V c 2 t) (iblk0 V c 3 t)
    (V c main_arg0) (V c main_v9) (V c main_arg2) (V c main_v8) j (((cfg0.win 4).blk t).view.emb j) ?_ ?_ ?_ ?_ ?_
  · intro k
    show V c main_arg0 (((cfg0.win 0).blk t).view.emb (ix2 (⟨(j 0).val, (j 0).isLt⟩ : Fin 5000) k)) = _
    refine congrArg (V c main_arg0) ?_
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 96 + 1 * k.val = k.val; omega
  · intro z
    show V c main_v9 (((cfg0.win 1).blk t).view.emb z) = _
    refine congrArg (V c main_v9) ?_
    funext a; apply Fin.ext
    match a with
    | ⟨0, _⟩ => show win0_1.index t (0 : Fin 2) * 96 + 1 * (z 0).val = (z 0).val; omega
    | ⟨1, _⟩ => show win0_1.index t (1 : Fin 2) * 96 + 1 * (z 1).val = (z 1).val; omega
  · intro z
    show V c main_arg2 (((cfg0.win 2).blk t).view.emb z) = _
    refine congrArg (V c main_arg2) ?_
    funext a; apply Fin.ext
    match a with
    | ⟨0, _⟩ => show win0_2.index t (0 : Fin 1) * 96 + 1 * (z 0).val = (z 0).val; omega
  · show V c main_v8 (((cfg0.win 3).blk t).view.emb (ix2 (⟨(j 0).val, (j 0).isLt⟩ : Fin 5000) (0 : Fin 1))) = _
    refine congrArg (V c main_v8) ?_
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 1 + 1 * 0 = 0; omega
  · show (j 1).val = win0_4.index t (1 : Fin 2) * 96 + 1 * (j 1).val
    omega

/-- An index of the output array is in point `t`'s block iff each coordinate is in the block's range on its axis. -/
theorem mem_blk0 (t : Fin cfg0.N) (i : S50000x96.Idx) :
    i ∈ ((cfg0.win 4).blk t).view.set ↔ ∀ a : Fin 2, win0_4.index t a * S5000x96.size a ≤ (i a).val ∧ (i a).val < win0_4.index t a * S5000x96.size a + S5000x96.size a := by
  show i ∈ ((View.whole main_v11).slice (win0_4.rect t)).set ↔ _
  rw [View.set_slice_whole, Rect.mem_set_unit]
  exact Iff.rfl

/-- Every entry of the output array is written back by some point: row `r` by the point whose block is `r / 5000`. -/
theorem cover0 (i : S50000x96.Idx) :
    ∃ t : Fin cfg0.N, (cfg0.win 4).flush t = true ∧ i ∈ ((cfg0.win 4).blk t).view.set := by
  have hi0 : (i 0).val < 50000 := (i 0).isLt
  have hi1 : (i 1).val < 96 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 96 ≤ (i 1).val ∧ (i 1).val < win0_4.index t (1 : Fin 2) * 96 + 96; omega

/-- The output array after the region's run: the layer of the arrays as the region found them. -/
theorem final0 (c : Dev nD) :
    (dat0 (F := Ideal) V c).arrAt 4 cfg0.N = linG (V c main_arg0) (V c main_v9) (V c main_arg2) (V c main_v8) :=
  (dat0 (F := Ideal) V c).arrAt_eq_of_cover 4 (linG (V c main_arg0) (V c main_v9) (V c main_arg2) (V c main_v8))
    (fun t _ => flushed0_eq V c t) (cover0)

/-! ## Region 2 -/

/-- How the windows' block indices move over the grid, decided point by point: the feature block and the scale block
    move with the output block along the rows; the weights and the bias are one block, never moving; no window moves
    along the columns. -/
theorem idx_facts2 : ∀ t : Fin cfg2.N,
      win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = win2_4.index t (0 : Fin 2) ∧ win2_3.index t (1 : Fin 2) = 0
    ∧ win2_4.index t (1 : Fin 2) = 0 :=
  (by decide +kernel : ∀ t : Fin grid2.N, _)

/-- Every one of the ten blocks of rows is some point's output block. -/
theorem idx_onto2 : ∀ q0 : Fin 10, ∃ t : Fin cfg2.N, win2_4.index t = ![q0.val, 0] :=
  (by decide +kernel : ∀ q0 : Fin 10, ∃ t : Fin grid2.N, win2_4.index t = ![q0.val, 0])

/-- What point `t` writes back is block `t` of the layer of the whole arrays as the region finds them. -/
theorem flushed2_eq (c : Dev nD) (t : Fin cfg2.N) :
    (dat2 (F := Ideal) V c).flushed 4 t
      = ((cfg2.win 4).blk t).view.read (Elt Ideal) (linTG (V c main_v22) (V c main_v10) (V c main_arg4) (V c main_v8)) := by
  show (cfg2.win 4).cut (grid2.coords t) ((dat2 (F := Ideal) V c).after 4 t) = _
  rw [after2_4]
  unfold out2_4
  rw [View.canon_unit_zero hz2]
  simp only [View.ld_unit_zero (S := S5000x96) hz2, View.ld_unit_zero (S := S96x96) hz2, View.ld_unit_zero (S := S96) hz1,
    View.ld_unit_zero (S := S5000x1) hz2]
  obtain ⟨e00, e01, e10, e11, e20, e30, e31, e41⟩ := idx_facts2 t
  funext j
  show k2_pay1 (iblk2 V c 0 t) (iblk2 V c 1 t) (iblk2 V c 2 t) (iblk2 V c 3 t) j
      = linTG (V c main_v22) (V c main_v10) (V c main_arg4) (V c main_v8) (((cfg2.win 4).blk t).view.emb j)
  refine linT_point (iblk2 V c 0 t) (iblk2 V c 1 t) (iblk2 V c 2 t) (iblk2 V c 3 t)
    (V c main_v22) (V c main_v10) (V c main_arg4) (V c main_v8) j (((cfg2.win 4).blk t).view.emb j) ?_ ?_ ?_ ?_ ?_
  · intro k
    show V c main_v22 (((cfg2.win 0).blk t).view.emb (ix2 (⟨(j 0).val, (j 0).isLt⟩ : Fin 5000) k)) = _
    refine congrArg (V c main_v22) ?_
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 96 + 1 * k.val = k.val; omega
  · intro z
    show V c main_v10 (((cfg2.win 1).blk t).view.emb z) = _
    refine congrArg (V c main_v10) ?_
    funext a; apply Fin.ext
    match a with
    | ⟨0, _⟩ => show win2_1.index t (0 : Fin 2) * 96 + 1 * (z 0).val = (z 0).val; omega
    | ⟨1, _⟩ => show win2_1.index t (1 : Fin 2) * 96 + 1 * (z 1).val = (z 1).val; omega
  · intro z
    show V c main_arg4 (((cfg2.win 2).blk t).view.emb z) = _
    refine congrArg (V c main_arg4) ?_
    funext a; apply Fin.ext
    match a with
    | ⟨0, _⟩ => show win2_2.index t (0 : Fin 1) * 96 + 1 * (z 0).val = (z 0).val; omega
  · show V c main_v8 (((cfg2.win 3).blk t).view.emb (ix2 (⟨(j 0).val, (j 0).isLt⟩ : Fin 5000) (0 : Fin 1))) = _
    refine congrArg (V c main_v8) ?_
    funext a; apply Fin.ext
    match a with
    | ⟨0, _⟩ => show win2_3.index t (0 : Fin 2) * 5000 + 1 * (j 0).val = win2_4.index t (0 : Fin 2) * 5000 + 1 * (j 0).val; omega
    | ⟨1, _⟩ => show win2_3.index t (1 : Fin 2) * 1 + 1 * 0 = 0; omega
  · show (j 1).val = win2_4.index t (1 : Fin 2) * 96 + 1 * (j 1).val
    omega

/-- An index of the output array is in point `t`'s block iff each coordinate is in the block's range on its axis. -/
theorem mem_blk2 (t : Fin cfg2.N) (i : S50000x96.Idx) :
    i ∈ ((cfg2.win 4).blk t).view.set ↔ ∀ a : Fin 2, win2_4.index t a * S5000x96.size a ≤ (i a).val ∧ (i a).val < win2_4.index t a * S5000x96.size a + S5000x96.size a := by
  show i ∈ ((View.whole main_v23).slice (win2_4.rect t)).set ↔ _
  rw [View.set_slice_whole, Rect.mem_set_unit]
  exact Iff.rfl

/-- Every entry of the output array is written back by some point: row `r` by the point whose block is `r / 5000`. -/
theorem cover2 (i : S50000x96.Idx) :
    ∃ t : Fin cfg2.N, (cfg2.win 4).flush t = true ∧ i ∈ ((cfg2.win 4).blk t).view.set := by
  have hi0 : (i 0).val < 50000 := (i 0).isLt
  have hi1 : (i 1).val < 96 := (i 1).isLt
  obtain ⟨t, ht⟩ := idx_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 96 ≤ (i 1).val ∧ (i 1).val < win2_4.index t (1 : Fin 2) * 96 + 96; omega

/-- The output array after the region's run: the layer of the arrays as the region found them. -/
theorem final2 (c : Dev nD) :
    (dat2 (F := Ideal) V c).arrAt 4 cfg2.N = linTG (V c main_v22) (V c main_v10) (V c main_arg4) (V c main_v8) :=
  (dat2 (F := Ideal) V c).arrAt_eq_of_cover 4 (linTG (V c main_v22) (V c main_v10) (V c main_arg4) (V c main_v8))
    (fun t _ => flushed2_eq V c t) (cover2)

end Cert.Val

end
-- ==== Proof.LibTileSum.lean ====
/- Regrouping a sum over n = a · b consecutive positions into a tiles of b, and the running sum over the tiles:
   only associativity and commutativity of + (any additive commutative monoid; used on the extended reals). -/
import Mathlib.Algebra.BigOperators.Fin
import Mathlib.Algebra.BigOperators.Intervals

open scoped BigOperators

namespace Cert.Lib.TileSum

variable {M : Type*} [AddCommMonoid M]

/-- Position c of tile j is below a · b. -/
theorem tile_lt {a b : ℕ} {j c : ℕ} (hj : j < a) (hc : c < b) : j * b + c < a * b :=
  calc j * b + c < j * b + b := Nat.add_lt_add_left hc _
    _ = (j + 1) * b := (Nat.succ_mul j b).symm
    _ ≤ a * b := Nat.mul_le_mul_right b hj

/-- The first a · b positions, tile by tile: position j · b + c is place c of tile j. -/
theorem sum_range_tiles (a b : ℕ) (h : ℕ → M) :
    ∑ i ∈ Finset.range (a * b), h i = ∑ j ∈ Finset.range a, ∑ c : Fin b, h (j * b + c.val) := by
  induction a with
  | zero => simp
  | succ a ih =>
    rw [Nat.succ_mul, Finset.sum_range_add, ih, Finset.sum_range_succ,
      Fin.sum_univ_eq_sum_range (fun x => h (a * b + x)) b]

/-- A sum over Fin (a · b) of a function of the position is the sum over the a tiles of the tile's b places. -/
theorem sum_tiles (a b : ℕ) (h : ℕ → M) :
    ∑ q : Fin (a * b), h q.val = ∑ j ∈ Finset.range a, ∑ c : Fin b, h (j * b + c.val) := by
  rw [Fin.sum_univ_eq_sum_range h (a * b)]; exact sum_range_tiles a b h

/-- The same over Fin n for n = a · b given as an equation (so that a literal n need not be spelt as a product). -/
theorem sum_tiles_of_eq (n a b : ℕ) (hn : n = a * b) (h : ℕ → M) :
    ∑ q : Fin n, h q.val = ∑ j ∈ Finset.range a, ∑ c : Fin b, h (j * b + c.val) := by
  subst hn; exact sum_tiles a b h

/-- The same with both sides indexed by Fin: f at place c of tile j is f at position j · b + c. -/
theorem sum_tiles_fin (n a b : ℕ) (hn : n = a * b) (f : Fin n → M) :
    ∑ q : Fin n, f q = ∑ j : Fin a, ∑ c : Fin b, f ⟨j.val * b + c.val, hn ▸ tile_lt j.isLt c.isLt⟩ := by
  subst hn
  have key := sum_tiles a b (fun i => if hi : i < a * b then f ⟨i, hi⟩ else 0)
  rw [← Fin.sum_univ_eq_sum_range (fun j => ∑ c : Fin b, (fun i => if hi : i < a * b then f ⟨i, hi⟩ else 0) (j * b + c.val)) a] at key
  refine (Finset.sum_congr rfl fun q _ => ?_).trans (key.trans (Finset.sum_congr rfl fun j _ => Finset.sum_congr rfl fun c _ => ?_))
  · rw [dif_pos q.isLt]
  · exact dif_pos (tile_lt j.isLt c.isLt)

/-- A running sum from z over a list of tiles, each tile's own sum started from z too, is z plus the tiles' sums,
    when z is the zero (as the zero word of a float format is, read as an extended real). -/
theorem foldl_tiles_list {ι : Type*} (z : M) (hz : z = 0) (G : ι → M) (L : List ι) :
    L.foldl (fun acc j => acc + (z + G j)) z = z + (L.map G).sum := by
  subst hz
  suffices H : ∀ acc : M, L.foldl (fun acc j => acc + (0 + G j)) acc = acc + (L.map G).sum from H 0
  induction L with
  | nil => intro acc; simp
  | cons j L ih => intro acc; rw [List.foldl_cons, ih, List.map_cons, List.sum_cons, zero_add, add_assoc]

/-- The running sum over the tiles 0 … a − 1 in order. -/
theorem foldl_tiles_range (z : M) (hz : z = 0) (a : ℕ) (G : ℕ → M) :
    (List.range a).foldl (fun acc j => acc + (z + G j)) z = z + ∑ j ∈ Finset.range a, G j := by
  rw [foldl_tiles_list z hz G, ← Fin.sum_univ_eq_sum_range G a, Fin.sum_univ_def,
    ← List.map_coe_finRange_eq_range, List.map_map]
  rfl

/-- The tiled running sum is the whole sum: folding, over the tiles j = 0 … a − 1, acc + (z + Σ_c h (j·b + c))
    from z gives z + Σ_q h q over all n = a · b positions. -/
theorem foldl_tiles (n a b : ℕ) (hn : n = a * b) (z : M) (hz : z = 0) (h : ℕ → M) :
    (List.range a).foldl (fun acc j => acc + (z + ∑ c : Fin b, h (j * b + c.val))) z = z + ∑ q : Fin n, h q.val := by
  rw [foldl_tiles_range z hz a (fun j => ∑ c : Fin b, h (j * b + c.val)), sum_tiles_of_eq n a b hn h]

end Cert.Lib.TileSum
-- ==== Proof.LibAccFold.lean ====
/-
  Running totals over a counted range.

  A total that starts at z + T 0 and takes T (j + 1) more at each step is z plus the sum of the T's so far; a running maximum of 0/1 indicators that starts from 0 is the indicator of
  "some step so far had it".
-/
import Idealize.ShloMosaic.PureOps.Ideal

open scoped BigOperators

namespace Cert.Lib.AccFold

/-- A running sum started at z + T 0 that takes T (j + 1) more at each step: after step j (below n) it is
    z + T 0 + … + T j. -/
theorem add_fold {M : Type} [AddCommMonoid M] (z : M) (n : ℕ) (a T : ℕ → M)
    (h0 : a 0 = z + T 0) (hs : ∀ j, j + 1 < n → a (j + 1) = a j + T (j + 1)) :
    ∀ j, j < n → a j = z + ∑ i ∈ Finset.range (j + 1), T i
  | 0, _ => by rw [h0, Finset.sum_range_one]
  | j + 1, h => by
    rw [hs j h, add_fold z n a T h0 hs j (Nat.lt_of_succ_lt h), Finset.sum_range_succ _ (j + 1), add_assoc]

/-- The indicator of a proposition as an extended real. -/
noncomputable def ind (p : Prop) [Decidable p] : EReal := if p then 1 else 0

theorem ind_pos {p : Prop} [Decidable p] (h : p) : ind p = 1 := if_pos h
theorem ind_neg {p : Prop} [Decidable p] (h : ¬p) : ind p = 0 := if_neg h

/-- A running maximum of indicators started from 0: after step j it is the indicator that some step i ≤ j had P. -/
theorem max_fold (P : ℕ → Prop) [DecidablePred P] (n : ℕ) (a : ℕ → EReal)
    (h0 : a 0 = max 0 (ind (P 0)))
    (hs : ∀ j, j + 1 < n → a (j + 1) = max (a j) (ind (P (j + 1)))) :
    ∀ j, j < n → a j = ind (∃ i, i ≤ j ∧ P i)
  | 0, _ => by
    rw [h0]
    by_cases hp : P 0
    · rw [ind_pos hp, ind_pos (⟨0, le_rfl, hp⟩ : ∃ i, i ≤ 0 ∧ P i)]; exact max_eq_right zero_le_one
    · have hn : ¬∃ i, i ≤ 0 ∧ P i := by
        rintro ⟨i, hi, hpi⟩
        obtain rfl : i = 0 := by omega
        exact hp hpi
      rw [ind_neg hp, ind_neg hn]; exact max_self _
  | j + 1, h => by
    rw [hs j h, max_fold P n a h0 hs j (Nat.lt_of_succ_lt h)]
    by_cases hq : ∃ i, i ≤ j ∧ P i
    · obtain ⟨i, hi, hpi⟩ := hq
      rw [ind_pos (⟨i, hi, hpi⟩ : ∃ i, i ≤ j ∧ P i), ind_pos (⟨i, Nat.le_succ_of_le hi, hpi⟩ : ∃ i, i ≤ j + 1 ∧ P i)]
      by_cases hp : P (j + 1)
      · rw [ind_pos hp]; exact max_self _
      · rw [ind_neg hp]; exact max_eq_left zero_le_one
    · rw [ind_neg hq]
      by_cases hp : P (j + 1)
      · rw [ind_pos hp, ind_pos (⟨j + 1, le_rfl, hp⟩ : ∃ i, i ≤ j + 1 ∧ P i)]; exact max_eq_right zero_le_one
      · have hn : ¬∃ i, i ≤ j + 1 ∧ P i := by
          rintro ⟨i, hi, hpi⟩
          rcases Nat.lt_or_ge i (j + 1) with hlt | hge
          · exact hq ⟨i, Nat.lt_succ_iff.mp hlt, hpi⟩
          · obtain rfl : i = j + 1 := by omega
            exact hp hpi
        rw [ind_neg hp, ind_neg hn]; exact max_self _

end Cert.Lib.AccFold
-- ==== Proof.Val.Pool.lean ====
/- The pooling region's mathematics at the idealized arithmetic.  The body's three payloads at a lane q: the zero that
   starts the accumulator; one step, the accumulator plus the sum over the block's 5000 rows of tanh of the entry; the
   last step, tanh of the accumulator times 1/50000.  Ten steps over the ten consecutive blocks of 5000 rows of a
   [50000, 96] array, started from zero, accumulate at lane q the sum over all 50000 rows of tanh of the entry: addition
   on the extended reals is associative and commutative, so the sum over 50000 = 10 · 5000 positions regroups into the
   ten blocks' sums.  The region's result at lane q is therefore tanh of that sum times 1/50000. -/
import proofs.«111731_j19000935317646_1_alg».proof.Proof.Gen.KernelIdeal.Skeleton
import proofs.«111731_j19000935317646_1_alg».proof.Proof.LibTileSum
import proofs.«111731_j19000935317646_1_alg».proof.Proof.LibAccFold
import Idealize.ShloMosaic.Lib.Pipeline.Value
import Idealize.ShloMosaic.Lib.ValueIdx
import Idealize.ShloMosaic.PureOps.Ideal.Laws
import Idealize.ShloMosaic.PureOps.IdealRules

noncomputable section

namespace Cert.Val

open Cert.KernelIdeal Cert.KernelIdeal.Gen Idealize.ShloMosaic Idealize.ShloMosaic.TcCoe Idealize.SL.Sem
open Idealize.ShloMosaic.ValueIdx
open scoped BigOperators

/-! ## The payloads at a lane -/

/-- The value that starts the accumulator: the zero word splat, which is the extended real 0. -/
theorem k4_pay1_apply (q : Fin 96) : k4_pay1 (F := Ideal) (ix2 (0 : Fin 1) q) = 0 := by
  unfold k4_pay1
  rw [shapeCast_self]
  show Ideal.ofBits .f32 0x00000000#32 = 0
  exact Ideal.ofBits_zero_f32

/-- A sum over the rows of a [5000, 96] vector into a zero accumulator, at lane q: the sum over the 5000 rows of the
    entry (r, q). -/
theorem sum_rows (src : FVec Ideal S5000x96 .f32) (h : S5000x96.Reduces [0] S96) (hφ : FKind.Formats .f32)
    (hacc : (0x00000000#32 : BitVec 32) = 0x00000000#32) (q : Fin 96) :
    multiReduction .add [0] S96 src 0x00000000#32 h hφ hacc (ix1 q) = ∑ r : Fin 5000, src (ix2 r q) := by
  refine (Ideal.multiReduction_add_single src 0x00000000#32 h hφ hacc (ix1 q)).trans ?_
  refine Finset.sum_congr rfl fun r _ => congrArg src ?_
  funext a; apply Fin.ext
  match a with
  | ⟨0, _⟩ => rfl
  | ⟨1, _⟩ => rfl

/-- One step: the accumulator at lane q plus the sum over the block's rows of tanh of the entry (the shape casts are
    to the same shape, but for the one that gives the [96] row of sums its leading unit axis). -/
theorem k4_pay2_apply (x : Vec Ideal S5000x96 .f32) (acc : Vec Ideal S1x96 .f32) (q : Fin 96) :
    k4_pay2 (F := Ideal) x acc (ix2 (0 : Fin 1) q) = acc (ix2 0 q) + ∑ r : Fin 5000, Ideal.tanh (x (ix2 r q)) := by
  unfold k4_pay2
  rw [shapeCast_self, addf_apply, shapeCast_self]
  congr 1
  refine (shapeCast_addUnit_apply ![96] _ _ (ix2 (0 : Fin 1) q)).trans ?_
  have e : (fun a : Fin 1 => (ix2 (0 : Fin 1) q) a.succ) = ix1 q := by
    funext a; match a with | ⟨0, _⟩ => rfl
  rw [e]
  exact sum_rows _ _ _ _ q

/-- The folded reciprocal is named: at the idealized arithmetic it is the rational 1/50000. -/
theorem inv_50000 : Named.named (F := Ideal) Cert.KernelIdeal.κ "inv_50000" (φ := .f32) 0x37A7C5AC#32 = ((1 / 50000 : ℝ) : EReal) :=
  IdealRules.named_const.ideal_named_scalar _ _ _ _ rfl

/-- The last step: tanh of the accumulator at lane q times 1/50000. -/
theorem k4_pay3_apply (acc : Vec Ideal S1x96 .f32) (q : Fin 96) :
    k4_pay3 (F := Ideal) acc (ix2 (0 : Fin 1) q) = Ideal.tanh (acc (ix2 0 q) * ((1 / 50000 : ℝ) : EReal)) := by
  unfold k4_pay3
  show Ideal.tanh (acc (ix2 0 q) * Named.named (F := Ideal) Cert.KernelIdeal.κ "inv_50000" (φ := .f32) 0x37A7C5AC#32) = _
  rw [inv_50000]

/-! ## The accumulation over the ten blocks -/

/-- Ten steps over the ten consecutive blocks of 5000 rows of `h`, started from the zero: at lane q the accumulator
    ends at the sum over all 50000 rows of tanh of the entry. -/
theorem pool_sum (h : S50000x96.Idx → EReal) (blk : Fin 10 → Vec Ideal S5000x96 .f32)
    (hblk : ∀ (t : Fin 10) (r : Fin 5000) (q : Fin 96),
      blk t (ix2 r q) = h (ix2 (⟨5000 * t.val + r.val, by have := t.isLt; have := r.isLt; omega⟩ : Fin 50000) q))
    (S : ℕ → Vec Ideal S1x96 .f32)
    (h0 : S 0 = k4_pay2 (F := Ideal) (blk 0) (k4_pay1 (F := Ideal)))
    (hs : ∀ n (hn : n < 9), S (n + 1) = k4_pay2 (F := Ideal) (blk ⟨n + 1, by omega⟩) (S n))
    (q : Fin 96) :
    S 9 (ix2 (0 : Fin 1) q) = ∑ n : Fin 50000, Ideal.tanh (h (ix2 n q)) := by
  -- the block sums, indexed by the step
  let T : ℕ → EReal := fun j => if hj : j < 10 then ∑ r : Fin 5000, Ideal.tanh (blk ⟨j, hj⟩ (ix2 r q)) else 0
  have hT : ∀ (j : ℕ) (hj : j < 10), T j = ∑ r : Fin 5000, Ideal.tanh (blk ⟨j, hj⟩ (ix2 r q)) := fun j hj => dif_pos hj
  have a0 : S 0 (ix2 (0 : Fin 1) q) = 0 + T 0 := by
    rw [h0, k4_pay2_apply, k4_pay1_apply, hT 0 (by omega)]; rfl
  have hstep : ∀ j, j + 1 < 10 → S (j + 1) (ix2 (0 : Fin 1) q) = S j (ix2 (0 : Fin 1) q) + T (j + 1) := fun j hj => by
    rw [hs j (by omega), k4_pay2_apply, hT (j + 1) hj]
  have h9 := Cert.Lib.AccFold.add_fold (0 : EReal) 10 (fun j => S j (ix2 (0 : Fin 1) q)) T a0 hstep 9 (by omega)
  refine h9.trans ?_
  rw [zero_add, ← Fin.sum_univ_eq_sum_range T 10,
    Cert.Lib.TileSum.sum_tiles_fin 50000 10 5000 (by norm_num) (fun n => Ideal.tanh (h (ix2 n q)))]
  refine Finset.sum_congr rfl fun j _ => ?_
  rw [hT j.val j.isLt]
  refine Finset.sum_congr rfl fun r _ => ?_
  rw [hblk ⟨j.val, j.isLt⟩ r q]
  congr 3
  apply Fin.ext
  show 5000 * j.val + r.val = j.val * 5000 + r.val
  omega

/-! ## The pooled row -/

/-- The pooled row of a [50000, 96] array: at lane q, tanh of (the sum over the rows of tanh of the entry) / 50000. -/
def poolG (h : S50000x96.Idx → Elt Ideal .f32) : S1x96.Idx → Elt Ideal .f32 :=
  fun i => Ideal.tanh ((∑ n : Fin 50000, Ideal.tanh (h (ix2 n (⟨(i 1).val, (i 1).isLt⟩ : Fin 96)))) * ((1 / 50000 : ℝ) : EReal))

theorem poolG_apply (h : S50000x96.Idx → Elt Ideal .f32) (q : Fin 96) :
    poolG h (ix2 (0 : Fin 1) q) = Ideal.tanh ((∑ n : Fin 50000, Ideal.tanh (h (ix2 n q))) * ((1 / 50000 : ℝ) : EReal)) := rfl

/-- So the last step's payload of the accumulator after the ten steps is the pooled row of `h`, lane by lane, -/
theorem pool_result_apply (h : S50000x96.Idx → EReal) (blk : Fin 10 → Vec Ideal S5000x96 .f32)
    (hblk : ∀ (t : Fin 10) (r : Fin 5000) (q : Fin 96),
      blk t (ix2 r q) = h (ix2 (⟨5000 * t.val + r.val, by have := t.isLt; have := r.isLt; omega⟩ : Fin 50000) q))
    (S : ℕ → Vec Ideal S1x96 .f32)
    (h0 : S 0 = k4_pay2 (F := Ideal) (blk 0) (k4_pay1 (F := Ideal)))
    (hs : ∀ n (hn : n < 9), S (n + 1) = k4_pay2 (F := Ideal) (blk ⟨n + 1, by omega⟩) (S n))
    (q : Fin 96) :
    k4_pay3 (F := Ideal) (S 9) (ix2 (0 : Fin 1) q)
      = Ideal.tanh ((∑ n : Fin 50000, Ideal.tanh (h (ix2 n q))) * ((1 / 50000 : ℝ) : EReal)) := by
  rw [k4_pay3_apply, pool_sum h blk hblk S h0 hs q]

/-- and as a whole row. -/
theorem pool_result (h : S50000x96.Idx → EReal) (blk : Fin 10 → Vec Ideal S5000x96 .f32)
    (hblk : ∀ (t : Fin 10) (r : Fin 5000) (q : Fin 96),
      blk t (ix2 r q) = h (ix2 (⟨5000 * t.val + r.val, by have := t.isLt; have := r.isLt; omega⟩ : Fin 50000) q))
    (S : ℕ → Vec Ideal S1x96 .f32)
    (h0 : S 0 = k4_pay2 (F := Ideal) (blk 0) (k4_pay1 (F := Ideal)))
    (hs : ∀ n (hn : n < 9), S (n + 1) = k4_pay2 (F := Ideal) (blk ⟨n + 1, by omega⟩) (S n)) :
    k4_pay3 (F := Ideal) (S 9) = poolG h := by
  funext i
  obtain ⟨p, q, rfl⟩ : ∃ (p : Fin 1) (q : Fin 96), i = ix2 p q := ⟨i 0, i 1, eq_ix2 i⟩
  obtain rfl : p = 0 := Subsingleton.elim _ _
  rw [pool_result_apply h blk hblk S h0 hs q, poolG_apply]

end Cert.Val

end
-- ==== Proof.KI.R4Val.lean ====
/- The pooling region's accumulation read as the body's arithmetic. Each control case's found pieces are one whole
   store per buffer, so what a case leaves is its last store's payload with every load read back whole: the
   accumulator after a point is the point's block's column sums of tanh added to what it held (the zero row at the
   first point), and the output after the last point is the tanh of the scaled accumulator. -/
import proofs.«111731_j19000935317646_1_alg».proof.Proof.KI.R4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The two-dimensional origin, as the constant function the library's whole-rectangle lemmas ask for. -/
theorem hz2 : (![0, 0] : Fin 2 → Nat) = fun _ => 0 := funext fun a => by fin_cases a <;> rfl

/-! ## One equation per found piece -/

/-- The first point leaves in the accumulator the column sums of the block's tanh added to the zero row. -/
theorem sout4_A_0_eq (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : cond4_0 i) (hc1 : ¬cond4_1 i) (x0 : Vec F S5000x96 .f32) :
    sout4_A_0 c i arg1 harg1 arg2 harg2 arg3 harg3 hc0 hc1 x0 = k4_pay2 x0 k4_pay1 := by
  unfold sout4_A_0
  rw [View.read_writes_eq_canon _ _ _ (scover4_A_0 c i arg1 harg1 arg2 harg2 arg3 harg3 hc0 hc1 x0)]
  unfold kernelRun4_A
  dsimp only
  sl_unfold_words

  rw [View.canon_cons_unit_zero (S := S1x96) hz2, View.readCov_unit_zero (S := S1x96) _ hz2]
  simp only [View.readAt_eq_ld, harg1.read_unread, View.ld_unit_zero (S := S5000x96) hz2]

/-- A middle point leaves in the accumulator the column sums of the block's tanh added to what it found there. -/
theorem sout4_B_0_eq (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : ¬cond4_1 i) (x0 : Vec F S5000x96 .f32) (xs0 : Vec F S1x96 .f32) :
    sout4_B_0 c i arg1 harg1 arg2 harg2 arg3 harg3 hc0 hc1 x0 xs0 = k4_pay2 x0 xs0 := by
  unfold sout4_B_0
  rw [View.read_writes_eq_canon _ _ _ (scover4_B_0 c i arg1 harg1 arg2 harg2 arg3 harg3 hc0 hc1 x0 xs0)]
  unfold kernelRun4_B
  dsimp only
  rw [View.canon_unit_zero (S := S1x96) hz2]
  simp only [View.readAt_eq_ld, harg1.read_unread, harg3.read_unread, View.ld_unit_zero (S := S5000x96) hz2, View.ld_unit_zero (S := S1x96) hz2]

/-- So does the last point. -/
theorem sout4_C_0_eq (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i) (x0 : Vec F S5000x96 .f32) (xs0 : Vec F S1x96 .f32) :
    sout4_C_0 c i arg1 harg1 arg2 harg2 arg3 harg3 hc0 hc1 x0 xs0 = k4_pay2 x0 xs0 := by
  unfold sout4_C_0
  rw [View.read_writes_eq_canon _ _ _ (scover4_C_0 c i arg1 harg1 arg2 harg2 arg3 harg3 hc0 hc1 x0 xs0)]
  unfold kernelRun4_C
  dsimp only
  sl_unfold_words

  rw [View.canon_unit_zero (S := S1x96) hz2]
  simp only [View.readAt_eq_ld, harg1.read_unread, harg3.read_unread, View.ld_unit_zero (S := S5000x96) hz2, View.ld_unit_zero (S := S1x96) hz2]

/-- The last point leaves in the output window the tanh of the scaled accumulator it has just updated. -/
theorem out4_C_1_eq (c : Dev nD) (i : grid4.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (hc0 : ¬cond4_0 i) (hc1 : cond4_1 i) (x0 : Vec F S5000x96 .f32) (xs0 : Vec F S1x96 .f32) :
    out4_C_1 c i arg1 harg1 arg2 harg2 arg3 harg3 hc0 hc1 x0 xs0 = k4_pay3 (k4_pay2 x0 xs0) := by
  unfold out4_C_1
  rw [View.read_writes_eq_canon _ _ _ (cover4_C_1 c i arg1 harg1 arg2 harg2 arg3 harg3 hc0 hc1 x0 xs0)]
  unfold kernelRun4_C
  dsimp only
  sl_unfold_words

  rw [View.canon_unit_zero (S := S1x96) hz2, View.readCov_unit_zero (S := S1x96) _ hz2]
  simp only [View.readAt_eq_ld, harg1.read_unread, harg3.read_unread, View.ld_unit_zero (S := S5000x96) hz2, View.ld_unit_zero (S := S1x96) hz2]

/-! ## The accumulation over the payloads -/

/-- After the first point the accumulator holds the first block's column sums of tanh over the zero row. -/
theorem outsAt4_zero_snd (c : Dev nD) (h : 0 < cfg4.N) :
    (outsAt4 V c 0 h).2 = k4_pay2 (iblk4 V c 0 ⟨0, h⟩) k4_pay1 := by
  show (caseA4 V c ⟨0, h⟩ rfl).2 = _
  unfold caseA4; dsimp only
  exact sout4_A_0_eq c (grid4.coords ⟨0, h⟩) (ms4_0 ⟨0, h⟩) (hs4_0 ⟨0, h⟩) (ms4_1 ⟨0, h⟩) (hs4_1 ⟨0, h⟩) scM4_0 (Memref.isWhole_whole _) (hA0 ⟨0, h⟩ rfl) (hA1 ⟨0, h⟩ rfl) (iblk4 V c 0 ⟨0, h⟩)

/-- After any later point it holds that point's block's column sums of tanh over what the point before left. -/
theorem outsAt4_pos_snd (c : Dev nD) (n : ℕ) (h : n < cfg4.N) (hn : 0 < n) :
    (outsAt4 V c n h).2
      = k4_pay2 (iblk4 V c 0 ⟨n, h⟩) (outsAt4 V c (n - 1) (Nat.lt_of_le_of_lt (Nat.sub_le _ _) h)).2 := by
  have h0 : (⟨n, h⟩ : Fin cfg4.N).val ≠ 0 := Nat.pos_iff_ne_zero.mp hn
  by_cases h1 : (⟨n, h⟩ : Fin cfg4.N).val = 9
  · rw [show outsAt4 V c n h = _ from outsAt4_C V c ⟨n, h⟩ h0 h1]
    unfold caseC4; dsimp only
    exact sout4_C_0_eq c (grid4.coords ⟨n, h⟩) (ms4_0 ⟨n, h⟩) (hs4_0 ⟨n, h⟩) (ms4_1 ⟨n, h⟩) (hs4_1 ⟨n, h⟩) scM4_0 (Memref.isWhole_whole _) (hB0 ⟨n, h⟩ h0) (hC1 ⟨n, h⟩ h1) (iblk4 V c 0 ⟨n, h⟩)
      (outsAt4 V c (n - 1) (Nat.lt_of_le_of_lt (Nat.sub_le _ _) h)).2
  · rw [show outsAt4 V c n h = _ from outsAt4_B V c ⟨n, h⟩ h0 h1]
    unfold caseB4; dsimp only
    exact sout4_B_0_eq c (grid4.coords ⟨n, h⟩) (ms4_0 ⟨n, h⟩) (hs4_0 ⟨n, h⟩) (ms4_1 ⟨n, h⟩) (hs4_1 ⟨n, h⟩) scM4_0 (Memref.isWhole_whole _) (hB0 ⟨n, h⟩ h0) (hB1 ⟨n, h⟩ h1) (iblk4 V c 0 ⟨n, h⟩)
      (outsAt4 V c (n - 1) (Nat.lt_of_le_of_lt (Nat.sub_le _ _) h)).2

/-- After the last point the output buffer holds the tanh of the scaled accumulator. -/
theorem outsAt4_last_fst (c : Dev nD) (h : 9 < cfg4.N) :
    (outsAt4 V c 9 h).1 = k4_pay3 (outsAt4 V c 9 h).2 := by
  have h0 : (⟨9, h⟩ : Fin cfg4.N).val ≠ 0 := Nat.succ_ne_zero 8
  rw [show outsAt4 V c 9 h = _ from outsAt4_C V c ⟨9, h⟩ h0 rfl]
  unfold caseC4; dsimp only
  exact (out4_C_1_eq c (grid4.coords ⟨9, h⟩) (ms4_0 ⟨9, h⟩) (hs4_0 ⟨9, h⟩) (ms4_1 ⟨9, h⟩) (hs4_1 ⟨9, h⟩) scM4_0 (Memref.isWhole_whole _) (hB0 ⟨9, h⟩ h0) (hC1 ⟨9, h⟩ rfl) (iblk4 V c 0 ⟨9, h⟩)
      (outsAt4 V c (9 - 1) (Nat.lt_of_le_of_lt (Nat.sub_le _ _) h)).2).trans
    (congrArg k4_pay3 (sout4_C_0_eq c (grid4.coords ⟨9, h⟩) (ms4_0 ⟨9, h⟩) (hs4_0 ⟨9, h⟩) (ms4_1 ⟨9, h⟩) (hs4_1 ⟨9, h⟩) scM4_0 (Memref.isWhole_whole _) (hB0 ⟨9, h⟩ h0) (hC1 ⟨9, h⟩ rfl) (iblk4 V c 0 ⟨9, h⟩)
      (outsAt4 V c (9 - 1) (Nat.lt_of_le_of_lt (Nat.sub_le _ _) h)).2).symm)

end Cert.KernelIdeal.Hand

end
-- ==== Proof.Val.PoolArr.lean ====
/- The pooled row as the pooling region leaves it in its output array.

   The region's grid has ten points. Point t reads rows 5000 t .. 5000 t + 4999 of the [50000, 96] input (the block
   index of the input window is (t, 0), so entry (r, q) of the block is entry (5000 t + r, q) of the array). The output
   window's block index is (0, 0) at every point and the block is the whole [1, 96] output array; it is written back
   at the last point only, so the array ends holding what the last point leaves in the output buffer. That is the
   last payload of the accumulator after ten steps over the ten blocks, started from the zero row, which is the pooled
   row of the input array. -/
import proofs.«111731_j19000935317646_1_alg».proof.Proof.KI.R4Val
import proofs.«111731_j19000935317646_1_alg».proof.Proof.Val.Pool
import Idealize.ShloMosaic.Lib.Pipeline.Value
import Idealize.ShloMosaic.Lib.ValueIdx

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

-- the contents of the core's buffers when the region is entered
variable (V : (c : Dev nD) → (b : Ref sig .tc) → Buf (Elt Ideal) ((c : Thread nD τ).loc b))

/-- The grid has ten points. -/
theorem N4 : cfg4.N = 10 := N_4

/-! ## The input blocks -/

/-- How the windows' block indices move over the grid, decided point by point: the input block moves with the point
    along the rows; the output block never moves. -/
theorem idx_facts4 : ∀ t : Fin cfg4.N,
      win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Entry (r, q) of the input block at point t is entry (5000 t + r, q) of the input array. -/
theorem iblk4_apply (c : Dev nD) (t : Fin cfg4.N) (r : Fin 5000) (q : Fin 96) :
    (iblk4 (F := Ideal) V c 0 t : Vec Ideal S5000x96 .f32) (ix2 r q)
      = V c main_v34 (ix2 (⟨5000 * t.val + r.val, by have := lt_of_lt_of_eq t.isLt N4; have := r.isLt; omega⟩ : Fin 50000) q) := by
  obtain ⟨e0, e1, _, _⟩ := idx_facts4 t
  show V c main_v34 (((cfg4.win 0).blk t).view.emb (ix2 r q)) = _
  refine congrArg (V c main_v34) ?_
  funext a; apply Fin.ext
  match a with
  | ⟨0, _⟩ => show win4_0.index t (0 : Fin 2) * 5000 + 1 * r.val = 5000 * t.val + r.val; omega
  | ⟨1, _⟩ => show win4_0.index t (1 : Fin 2) * 96 + 1 * q.val = q.val; omega

/-! ## The output array -/

/-- The result row: what the last point leaves in the output buffer. -/
abbrev result4 (c : Dev nD) : Buf (Elt Ideal) ((c : Thread nD τ).loc main_v35) :=
  (outsAt4 (F := Ideal) V c 9 (by rw [N4]; decide)).1

/-- The one write-back, at the last point, writes it: block (0, 0) of the [1, 96] array read through zero offsets is
    the array. -/
theorem flushed4_eq (c : Dev nD) (t : Fin cfg4.N) (hf : (cfg4.win 1).flush t = true) :
    (dat4 (F := Ideal) V c).flushed 1 t = ((cfg4.win 1).blk t).view.read (Elt Ideal) (result4 V c) := by
  have hN : cfg4.N = 10 := N4
  have h9 : t.val = 9 := by have := (flush4_1 t).mp hf; have := t.isLt; omega
  obtain rfl : t = t4_9 := Fin.ext h9
  show (cfg4.win 1).cut (grid4.coords t4_9) ((dat4 (F := Ideal) V c).after 1 t4_9) = _
  rw [after4_1]
  have hz' : (fun a => win4_1.index t4_9 a * main_v35.ty.shape.size a) = fun _ => 0 := funext fun a => by fin_cases a <;> decide
  exact (Memref.read_access_unit_zero (Elt Ideal) main_v35 hz' (fun a => by rw [congrFun hz' a]; simp) (result4 V c)).symm

/-- So the output array ends holding the result row: the last point's block is the whole array. -/
theorem final4_o (c : Dev nD) : (dat4 (F := Ideal) V c).arrAt 1 cfg4.N = result4 V c :=
  (dat4 (F := Ideal) V c).arrAt_eq_of_cover 1 (result4 V c) (flushed4_eq V c) fun i =>
    ⟨t4_9, (flush4_1 t4_9).mpr rfl, by
      show i ∈ ((View.whole main_v35).slice (win4_1.rect t4_9)).set
      rw [View.set_slice_whole, Rect.mem_set_unit]
      intro a
      have h0 : (i 0 : Nat) < 1 := (i 0).isLt
      have h1 : (i 1 : Nat) < 96 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 96 from by decide +kernel]; omega⟩

/-! ## The accumulation as ten steps over the ten blocks -/

/-- The ten input blocks, indexed by the step. -/
def blk4 (c : Dev nD) : Fin 10 → Vec Ideal S5000x96 .f32 :=
  fun t => iblk4 (F := Ideal) V c 0 ⟨t.val, lt_of_lt_of_eq t.isLt N4.symm⟩

/-- The accumulator after each step (the zero row past the grid, where nothing reads it). -/
def acc4 (c : Dev nD) : ℕ → Vec Ideal S1x96 .f32 :=
  fun n => if hn : n < cfg4.N then (outsAt4 (F := Ideal) V c n hn).2 else k4_pay1 (F := Ideal)

theorem acc4_lt (c : Dev nD) (n : ℕ) (hn : n < cfg4.N) : acc4 V c n = (outsAt4 (F := Ideal) V c n hn).2 := dif_pos hn

/-- Block t's entries are the input array's rows 5000 t .. 5000 t + 4999. -/
theorem blk4_apply (c : Dev nD) (t : Fin 10) (r : Fin 5000) (q : Fin 96) :
    blk4 V c t (ix2 r q)
      = V c main_v34 (ix2 (⟨5000 * t.val + r.val, by have := t.isLt; have := r.isLt; omega⟩ : Fin 50000) q) :=
  iblk4_apply V c ⟨t.val, lt_of_lt_of_eq t.isLt N4.symm⟩ r q

/-- The first step starts from the zero row. -/
theorem acc4_zero (c : Dev nD) : acc4 V c 0 = k4_pay2 (F := Ideal) (blk4 V c 0) (k4_pay1 (F := Ideal)) := by
  have h : 0 < cfg4.N := by rw [N4]; decide
  rw [acc4_lt V c 0 h]
  exact outsAt4_zero_snd V c h

/-- Every later step adds its block to what the step before left. -/
theorem acc4_succ (c : Dev nD) (n : ℕ) (hn : n < 9) :
    acc4 V c (n + 1) = k4_pay2 (F := Ideal) (blk4 V c ⟨n + 1, by omega⟩) (acc4 V c n) := by
  have h1 : n + 1 < cfg4.N := by rw [N4]; omega
  have h2 : n < cfg4.N := by rw [N4]; omega
  rw [acc4_lt V c (n + 1) h1, acc4_lt V c n h2]
  exact outsAt4_pos_snd V c (n + 1) h1 (Nat.succ_pos n)

/-- THE OUTPUT ARRAY after the region's run: the pooled row of the input array as the region found it. -/
theorem final4 (c : Dev nD) : (dat4 (F := Ideal) V c).arrAt 1 cfg4.N = poolG (V c main_v34) := by
  have h9 : 9 < cfg4.N := by rw [N4]; decide
  refine (final4_o V c).trans ?_
  show (outsAt4 (F := Ideal) V c 9 h9).1 = _
  rw [outsAt4_last_fst V c h9, ← acc4_lt V c 9 h9]
  exact pool_result (V c main_v34) (blk4 V c) (blk4_apply V c) (acc4 V c) (acc4_zero V c) (acc4_succ V c)

end Cert.Val

end
-- ==== Proof.Val.Ref.lean ====
/-
  The reference program read index by index, at the ideal instance (extended reals).

  The reference is, stage for stage, a two-layer graph network followed by a pooling:
    norm   = max(deg, 1)^(-1/2), deg a scatter-add of ones over the destination nodes;
    feat   = (x · Wᵀ + b) · norm                      (a dense layer, each node's row scaled by its norm);
    msg    = feat[src] · factor                       (each edge's row scaled by the edge's factor);
    agg    = the sum of the messages arriving at each node;
  then the same layer again on tanh(agg), and finally tanh of the mean over the nodes of tanh(agg₂).
  The gathers and scatter-adds read an element that depends on an operand's VALUES, so they stay as named
  stages (val_main_v22, v27, v42, v47, and the norm column val_main_v8); every other stage is read here at literal
  coordinates: node p : Fin 50000, feature q, k : Fin 96, edge e : Fin 800000.

  Conventions.
  * The scalar hyperbolic tangent at the ideal instance is spelled  Ideal.tanh  (the extended reals' tanh,
    -1 at ⊥ and 1 at ⊤); the host's  FloatOps.hostUnary .tanh  becomes it by  Ideal.hostUnary_tanh_def ,
    a kernel's  FloatOps.tanh  by  Ideal.tanh_def .
  * Sums and products are the extended reals' own  +  and  * .
  * The mean divides by the single-precision constant 50000.0; on every extended real that quotient is the
    product with the real 1/50000, written  ((1 / 50000 : ℝ) : EReal) .
  * Indices are built from literal coordinates by ix1, ix2, ix3.
-/
import proofs.«111731_j19000935317646_1_alg».proof.Proof.Gen.ReferenceIdeal.Read
import Idealize.ShloMosaic.Lib.ValueIdx
import Idealize.ShloMosaic.PureOps.Ideal.Laws

noncomputable section

namespace Cert.Val

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The single-precision word 0x47435000 is 2^15 · (1 + 4411392 / 2^23) = 50000. -/
theorem ofBits_50000 : Ideal.ofBits .f32 0x47435000#32 = ((50000 : ℝ) : EReal) := by
  simp [Ideal.ofBits, Ideal.ieee, -EReal.coe_mul]; norm_num

variable (x0 : (⟨S50000x96, .f32⟩ : BufTy).Contents (Elt Ideal)) (x1 : (⟨S96x96, .f32⟩ : BufTy).Contents (Elt Ideal))
  (x2 : (⟨S96, .f32⟩ : BufTy).Contents (Elt Ideal)) (x3 : (⟨S96x96, .f32⟩ : BufTy).Contents (Elt Ideal))
  (x4 : (⟨S96, .f32⟩ : BufTy).Contents (Elt Ideal)) (x5 : (⟨S800000x1, .f32⟩ : BufTy).Contents (Elt Ideal))
  (x6 x7 : (⟨S800000, .i32⟩ : BufTy).Contents (Elt Ideal))

/-- First layer: node p's feature q is (Σₖ x[p,k] · Wᵀ[k,q] + b[q]) · norm[p]. -/
theorem ref_layer1 (p : Fin 50000) (q : Fin 96) :
    val_main_v15 (F := Ideal) x0 x1 x2 x7 (ix2 p q)
      = ((∑ k : Fin 96, x0 (ix2 p k) * val_main_v9 (F := Ideal) x1 (ix2 k q)) + x2 (ix1 q))
          * val_main_v8 (F := Ideal) x7 (ix2 p 0) := by
  have el : ∀ k : Fin 96, lidx_main_v10 (ix2 p q) k = ix2 p k := fun k => funext fun a => Fin.ext (by
    match a with | ⟨0, _⟩ => rfl | ⟨1, _⟩ => rfl)
  have er : ∀ k : Fin 96, ridx_main_v10 (ix2 p q) k = ix2 k q := fun k => funext fun a => Fin.ext (by
    match a with | ⟨0, _⟩ => rfl | ⟨1, _⟩ => rfl)
  have eb : idx_main_v11 (idx_main_v12 (ix2 p q)) = ix1 q := funext fun a => Fin.ext (by
    match a with | ⟨0, _⟩ => rfl)
  have en : idx_main_v14 (ix2 p q) = ix2 p 0 := funext fun a => Fin.ext (by
    match a with | ⟨0, _⟩ => rfl | ⟨1, _⟩ => rfl)
  rw [val_main_v15_apply, val_main_v13_apply, val_main_v10_apply, val_main_v12_apply, val_main_v11_apply,
    val_main_v14_apply]
  simp only [Ideal.mulf_def, Ideal.addf_def, el, er, eb, en]

/-- First edge scale: edge e's message is the gathered row times the edge's factor. -/
theorem ref_edge1 (e : Fin 800000) (q : Fin 96) :
    val_main_v24 (F := Ideal) x0 x1 x2 x5 x6 x7 (ix2 e q)
      = val_main_v22 (F := Ideal) x0 x1 x2 x6 x7 (ix2 e q) * x5 (ix2 e 0) := by
  have ef : idx_main_v23 (ix2 e q) = ix2 e 0 := funext fun a => Fin.ext (by
    match a with | ⟨0, _⟩ => rfl | ⟨1, _⟩ => rfl)
  rw [val_main_v24_apply, val_main_v23_apply]
  simp only [Ideal.mulf_def, ef]

/-- Second layer: the same dense layer on tanh of the first aggregate. The contraction's summands are identified one by
    one (the left factor is tanh of the aggregate at (p, k), the right one the transposed weight at (k, q)). -/
theorem ref_layer2 (p : Fin 50000) (q : Fin 96) :
    val_main_v35 (F := Ideal) x0 x1 x2 x3 x4 x5 x6 x7 (ix2 p q)
      = ((∑ k : Fin 96, Ideal.tanh (val_main_v27 (F := Ideal) x0 x1 x2 x5 x6 x7 (ix2 p k))
            * val_main_v29 (F := Ideal) x3 (ix2 k q)) + x4 (ix1 q))
          * val_main_v8 (F := Ideal) x7 (ix2 p 0) := by
  have el : ∀ k : Fin 96, lidx_main_v30 (ix2 p q) k = ix2 p k := fun k => funext fun a => Fin.ext (by
    match a with | ⟨0, _⟩ => rfl | ⟨1, _⟩ => rfl)
  have er : ∀ k : Fin 96, ridx_main_v30 (ix2 p q) k = ix2 k q := fun k => funext fun a => Fin.ext (by
    match a with | ⟨0, _⟩ => rfl | ⟨1, _⟩ => rfl)
  have eb : idx_main_v31 (idx_main_v32 (ix2 p q)) = ix1 q := funext fun a => Fin.ext (by
    match a with | ⟨0, _⟩ => rfl)
  have en : idx_main_v34 (ix2 p q) = ix2 p 0 := funext fun a => Fin.ext (by
    match a with | ⟨0, _⟩ => rfl | ⟨1, _⟩ => rfl)
  have hs : (∑ k : Fin 96, val_main_v28 (F := Ideal) x0 x1 x2 x5 x6 x7 (lidx_main_v30 (ix2 p q) k)
        * val_main_v29 (F := Ideal) x3 (ridx_main_v30 (ix2 p q) k))
      = ∑ k : Fin 96, Ideal.tanh (val_main_v27 (F := Ideal) x0 x1 x2 x5 x6 x7 (ix2 p k))
        * val_main_v29 (F := Ideal) x3 (ix2 k q) :=
    Finset.sum_congr rfl fun k _ => by rw [el k, er k, val_main_v28_apply, Ideal.hostUnary_tanh_def]
  rw [val_main_v35_apply, val_main_v33_apply, val_main_v30_apply, val_main_v32_apply, val_main_v31_apply,
    val_main_v34_apply, hs, eb, en]
  rfl

/-- Second edge scale. -/
theorem ref_edge2 (e : Fin 800000) (q : Fin 96) :
    val_main_v44 (F := Ideal) x0 x1 x2 x3 x4 x5 x6 x7 (ix2 e q)
      = val_main_v42 (F := Ideal) x0 x1 x2 x3 x4 x5 x6 x7 (ix2 e q) * x5 (ix2 e 0) := by
  have ef : idx_main_v43 (ix2 e q) = ix2 e 0 := funext fun a => Fin.ext (by
    match a with | ⟨0, _⟩ => rfl | ⟨1, _⟩ => rfl)
  rw [val_main_v44_apply, val_main_v43_apply]
  simp only [Ideal.mulf_def, ef]

/-- On one extended real: the zero initial value added, the quotient by the constant 50000.0 taken, then tanh, is tanh
    of the product with the real 1/50000. -/
theorem mean_tanh_scalar (S : EReal) :
    FloatOps.hostUnary (F := Ideal) (φ := .f32) .tanh
        (FloatOps.hostDivf (F := Ideal) (φ := .f32) (FloatOps.ofBits (F := Ideal) .f32 0x00000000#32 + S)
          (FloatOps.ofBits (F := Ideal) .f32 0x47435000#32))
      = Ideal.tanh (S * ((1 / 50000 : ℝ) : EReal)) := by
  simp only [Ideal.hostUnary_tanh_def, Ideal.hostDivf_def, Ideal.ofBits_def, Ideal.ofBits_zero_f32, ofBits_50000, zero_add,
    Ideal.div_coe (by norm_num : (50000 : ℝ) ≠ 0)]

/-- Pooling: feature q of the result is tanh of (Σₙ tanh(agg₂[n,q])) · (1/50000). The sum over the 50000 nodes is
    re-indexed summand by summand and then carried as one extended real through the scalar law above. -/
theorem ref_pool (q : Fin 96) :
    val_main_v54 (F := Ideal) x0 x1 x2 x3 x4 x5 x6 x7 (ix3 0 q 0)
      = Ideal.tanh ((∑ n : Fin 50000, Ideal.tanh (val_main_v47 (F := Ideal) x0 x1 x2 x3 x4 x5 x6 x7 (ix2 n q)))
          * ((1 / 50000 : ℝ) : EReal)) := by
  have e53 : idx_main_v53 (ix3 (0 : Fin 1) q (0 : Fin 1)) = ix2 0 q := funext fun a => Fin.ext (by
    match a with | ⟨0, _⟩ => rfl | ⟨1, _⟩ => rfl)
  have e50 : idx_main_v50 (ix2 (0 : Fin 1) q) = ix1 q := funext fun a => Fin.ext (by
    match a with | ⟨0, _⟩ => rfl)
  have e49 : ∀ n : Fin 50000, idx_main_v49 (ix1 q) n = ix2 n q := fun n => funext fun a => Fin.ext (by
    match a with | ⟨0, _⟩ => rfl | ⟨1, _⟩ => rfl)
  have hs : (∑ k : Fin 50000, val_main_v48 (F := Ideal) x0 x1 x2 x3 x4 x5 x6 x7 (idx_main_v49 (ix1 q) k))
      = ∑ n : Fin 50000, Ideal.tanh (val_main_v47 (F := Ideal) x0 x1 x2 x3 x4 x5 x6 x7 (ix2 n q)) :=
    Finset.sum_congr rfl fun n _ => by rw [e49 n, val_main_v48_apply, Ideal.hostUnary_tanh_def]
  rw [val_main_v54_apply, val_main_v53_apply, e53, val_main_v52_apply, val_main_v50_apply, e50, val_main_v49_apply,
    val_main_v51_apply, val_main_cst_9_apply, val_main_cst_8_apply]
  refine (mean_tanh_scalar _).trans ?_
  exact congrArg (fun S : EReal => Ideal.tanh (S * ((1 / 50000 : ℝ) : EReal))) hs

end Cert.Val

end
-- ==== Proof.Val.Host.lean ====
/-
  Two facts about the host stretches that the comparison of the two programs needs and that involve no kernel.

  (1) The norm column. One program makes the [50000, 1] column of the per-node norm from the [50000] vector by a
      reshape, the other by a broadcast along a new unit axis. Both read, at (p, 0), the vector at p: a reshape keeps
      the row-major position, and the position of (p, 0) in [50000, 1] is p · 1 + 0 = p; a broadcast reads the
      operand's axis 0 at the result's axis 0. So the two columns are one function.
  (2) The two programs name the same gather (rows of a [50000, 96] array at [800000, 1] start indices) and the same
      two scatter-adds (of [800000] ones into [50000], of [800000, 96] rows into [50000, 96]) by records with
      identical dimension numbers; the records differ only in which program's side conditions prove their
      well-formedness, and a proof is not part of a record's identity.
-/
import proofs.«111731_j19000935317646_1_alg».proof.KernelIdeal
import proofs.«111731_j19000935317646_1_alg».proof.ReferenceIdeal
import Idealize.ShloMosaic.Lib.Pipeline.Value
import Idealize.ShloMosaic.Lib.ValueIdx

noncomputable section

namespace Cert.Val

open Idealize.ShloMosaic Idealize.ShloMosaic.ValueIdx

section Column
variable {α : Type} (y : (⟨1, ![50000]⟩ : Shape).Idx → α)

/-- A reshape of a [50000] vector to a [50000, 1] column reads the vector at p, at (p, 0). -/
theorem reshape_col_apply (h : (⟨1, ![50000]⟩ : Shape).ShapeCasts ⟨2, ![50000, 1]⟩) (p : Fin 50000) (z : Fin 1) :
    shapeCast (⟨2, ![50000, 1]⟩ : Shape) y h (ix2 p z) = y (ix1 p) := by
  refine shapeCast_apply y h (ix2 p z) (ix1 p) ?_
  rw [Shape.rowMajor_val_one, Shape.rowMajor_val_two]
  show p.val = p.val * 1 + z.val
  have := z.isLt
  omega

/-- A broadcast of a [50000] vector along a new trailing unit axis reads the vector at p, at (p, 0). -/
theorem bcast_col_apply (h : (⟨1, ![50000]⟩ : Shape).BroadcastsInDim ⟨2, ![50000, 1]⟩ (![0] : Fin 1 → Fin 2))
    (p : Fin 50000) (z : Fin 1) :
    broadcastInDim (⟨2, ![50000, 1]⟩ : Shape) ![0] h y (ix2 p z) = y (ix1 p) :=
  broadcastInDim_apply _ h y (ix2 p z) (ix1 p) (fun a => match a with
    | ⟨0, _⟩ => by show p.val = if (50000 : Nat) = 1 then 0 else p.val; rw [if_neg (by decide)])

/-- The reshaped column is the broadcast column. -/
theorem reshape_col_eq_bcast_col (h : (⟨1, ![50000]⟩ : Shape).ShapeCasts ⟨2, ![50000, 1]⟩)
    (h' : (⟨1, ![50000]⟩ : Shape).BroadcastsInDim ⟨2, ![50000, 1]⟩ (![0] : Fin 1 → Fin 2)) :
    shapeCast (⟨2, ![50000, 1]⟩ : Shape) y h = broadcastInDim (⟨2, ![50000, 1]⟩ : Shape) ![0] h' y := by
  funext j
  obtain ⟨p, z, rfl⟩ : ∃ (p : Fin 50000) (z : Fin 1), j = ix2 p z := ⟨j 0, j 1, eq_ix2 j⟩
  rw [reshape_col_apply y h p z, bcast_col_apply y h' p z]

end Column

section Records
variable [Cert.KernelIdeal.Facts₀] [Cert.ReferenceIdeal.Facts₀]

/-- The gather of rows is the same record in both programs. -/
theorem gather_rows_eq :
    Cert.KernelIdeal.gather_S50000x96_S800000x1_S800000x96_1_0_n_n_0_1_196
      = Cert.ReferenceIdeal.gather_S50000x96_S800000x1_S800000x96_1_0_n_n_0_1_196 := rfl

/-- The scatter-add that counts degrees is the same record in both programs. -/
theorem scatter_deg_eq :
    Cert.KernelIdeal.scatter_S50000_S800000x1_S800000_n_0_0_1
      = Cert.ReferenceIdeal.scatter_S50000_S800000x1_S800000_n_0_0_1 := rfl

/-- The scatter-add of rows is the same record in both programs. -/
theorem scatter_rows_eq :
    Cert.KernelIdeal.scatter_S50000x96_S800000x1_S800000x96_1_0_0_1
      = Cert.ReferenceIdeal.scatter_S50000x96_S800000x1_S800000x96_1_0_0_1 := rfl

end Records

end Cert.Val

end
-- ==== Proof.Val.ChainHost.lean ====
/- The host stretches of the idealized kernel program read as values.  Between the kernel regions the program runs
   stretches of host operations; each buffer a stretch writes holds, after it, the stretch's operations applied to what
   the buffers held before it.  Here: every argument array is, at every boundary, as launched (no stretch writes one, and
   a region hands an input array back unchanged); and each stretch's result is the reference program's value of the same
   operations, given that the arrays the stretch reads are: the two transposes, the degree norm column (a reshape where
   the reference broadcasts), the index normalisation and the gather of rows, the scatter-add of rows into zeros, and the
   last broadcast along a new trailing unit axis. -/
import proofs.«111731_j19000935317646_1_alg».proof.Proof.KI.Run
import proofs.«111731_j19000935317646_1_alg».proof.Proof.Val.Host
import proofs.«111731_j19000935317646_1_alg».proof.Proof.Gen.ReferenceIdeal.Read
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at every boundary -/

theorem W1_arg0 : W1 (F := Ideal) m ρ c (Proc.devRef .tc main_arg0) = m ((c : Thread nD τ).loc main_arg0) :=
  (W1_of m ρ c main_arg0 (by decide)).trans rfl
theorem W2_arg0 : W2 (F := Ideal) m ρ c (Proc.devRef .tc main_arg0) = m ((c : Thread nD τ).loc main_arg0) :=
  (W2_in m ρ c 0 rfl).trans (W1_arg0 m ρ c)
theorem W3_arg0 : W3 (F := Ideal) m ρ c (Proc.devRef .tc main_arg0) = m ((c : Thread nD τ).loc main_arg0) :=
  (W3_of m ρ c main_arg0 (by decide)).trans (W2_arg0 m ρ c)
theorem W4_arg0 : W4 (F := Ideal) m ρ c (Proc.devRef .tc main_arg0) = m ((c : Thread nD τ).loc main_arg0) :=
  (W4_of_ne m ρ c main_arg0 (by decide)).trans (W3_arg0 m ρ c)
theorem W5_arg0 : W5 (F := Ideal) m ρ c (Proc.devRef .tc main_arg0) = m ((c : Thread nD τ).loc main_arg0) :=
  (W5_of m ρ c main_arg0 (by decide)).trans (W4_arg0 m ρ c)
theorem W6_arg0 : W6 (F := Ideal) m ρ c (Proc.devRef .tc main_arg0) = m ((c : Thread nD τ).loc main_arg0) :=
  (W6_of_ne m ρ c main_arg0 (by decide)).trans (W5_arg0 m ρ c)
theorem W7_arg0 : W7 (F := Ideal) m ρ c (Proc.devRef .tc main_arg0) = m ((c : Thread nD τ).loc main_arg0) :=
  (W7_of m ρ c main_arg0 (by decide)).trans (W6_arg0 m ρ c)
theorem W8_arg0 : W8 (F := Ideal) m ρ c (Proc.devRef .tc main_arg0) = m ((c : Thread nD τ).loc main_arg0) :=
  (W8_of_ne m ρ c main_arg0 (by decide)).trans (W7_arg0 m ρ c)
theorem W9_arg0 : W9 (F := Ideal) m ρ c (Proc.devRef .tc main_arg0) = m ((c : Thread nD τ).loc main_arg0) :=
  (W9_of m ρ c main_arg0 (by decide)).trans (W8_arg0 m ρ c)
theorem W10_arg0 : W10 (F := Ideal) m ρ c (Proc.devRef .tc main_arg0) = m ((c : Thread nD τ).loc main_arg0) :=
  (W10_of_ne m ρ c main_arg0 (by decide)).trans (W9_arg0 m ρ c)
theorem W1_arg1 : W1 (F := Ideal) m ρ c (Proc.devRef .tc main_arg1) = m ((c : Thread nD τ).loc main_arg1) :=
  (W1_of m ρ c main_arg1 (by decide)).trans rfl
theorem W2_arg1 : W2 (F := Ideal) m ρ c (Proc.devRef .tc main_arg1) = m ((c : Thread nD τ).loc main_arg1) :=
  (W2_of_ne m ρ c main_arg1 (by decide)).trans (W1_arg1 m ρ c)
theorem W3_arg1 : W3 (F := Ideal) m ρ c (Proc.devRef .tc main_arg1) = m ((c : Thread nD τ).loc main_arg1) :=
  (W3_of m ρ c main_arg1 (by decide)).trans (W2_arg1 m ρ c)
theorem W4_arg1 : W4 (F := Ideal) m ρ c (Proc.devRef .tc main_arg1) = m ((c : Thread nD τ).loc main_arg1) :=
  (W4_of_ne m ρ c main_arg1 (by decide)).trans (W3_arg1 m ρ c)
theorem W5_arg1 : W5 (F := Ideal) m ρ c (Proc.devRef .tc main_arg1) = m ((c : Thread nD τ).loc main_arg1) :=
  (W5_of m ρ c main_arg1 (by decide)).trans (W4_arg1 m ρ c)
theorem W6_arg1 : W6 (F := Ideal) m ρ c (Proc.devRef .tc main_arg1) = m ((c : Thread nD τ).loc main_arg1) :=
  (W6_of_ne m ρ c main_arg1 (by decide)).trans (W5_arg1 m ρ c)
theorem W7_arg1 : W7 (F := Ideal) m ρ c (Proc.devRef .tc main_arg1) = m ((c : Thread nD τ).loc main_arg1) :=
  (W7_of m ρ c main_arg1 (by decide)).trans (W6_arg1 m ρ c)
theorem W8_arg1 : W8 (F := Ideal) m ρ c (Proc.devRef .tc main_arg1) = m ((c : Thread nD τ).loc main_arg1) :=
  (W8_of_ne m ρ c main_arg1 (by decide)).trans (W7_arg1 m ρ c)
theorem W9_arg1 : W9 (F := Ideal) m ρ c (Proc.devRef .tc main_arg1) = m ((c : Thread nD τ).loc main_arg1) :=
  (W9_of m ρ c main_arg1 (by decide)).trans (W8_arg1 m ρ c)
theorem W10_arg1 : W10 (F := Ideal) m ρ c (Proc.devRef .tc main_arg1) = m ((c : Thread nD τ).loc main_arg1) :=
  (W10_of_ne m ρ c main_arg1 (by decide)).trans (W9_arg1 m ρ c)
theorem W1_arg2 : W1 (F := Ideal) m ρ c (Proc.devRef .tc main_arg2) = m ((c : Thread nD τ).loc main_arg2) :=
  (W1_of m ρ c main_arg2 (by decide)).trans rfl
theorem W2_arg2 : W2 (F := Ideal) m ρ c (Proc.devRef .tc main_arg2) = m ((c : Thread nD τ).loc main_arg2) :=
  (W2_in m ρ c 2 rfl).trans (W1_arg2 m ρ c)
theorem W3_arg2 : W3 (F := Ideal) m ρ c (Proc.devRef .tc main_arg2) = m ((c : Thread nD τ).loc main_arg2) :=
  (W3_of m ρ c main_arg2 (by decide)).trans (W2_arg2 m ρ c)
theorem W4_arg2 : W4 (F := Ideal) m ρ c (Proc.devRef .tc main_arg2) = m ((c : Thread nD τ).loc main_arg2) :=
  (W4_of_ne m ρ c main_arg2 (by decide)).trans (W3_arg2 m ρ c)
theorem W5_arg2 : W5 (F := Ideal) m ρ c (Proc.devRef .tc main_arg2) = m ((c : Thread nD τ).loc main_arg2) :=
  (W5_of m ρ c main_arg2 (by decide)).trans (W4_arg2 m ρ c)
theorem W6_arg2 : W6 (F := Ideal) m ρ c (Proc.devRef .tc main_arg2) = m ((c : Thread nD τ).loc main_arg2) :=
  (W6_of_ne m ρ c main_arg2 (by decide)).trans (W5_arg2 m ρ c)
theorem W7_arg2 : W7 (F := Ideal) m ρ c (Proc.devRef .tc main_arg2) = m ((c : Thread nD τ).loc main_arg2) :=
  (W7_of m ρ c main_arg2 (by decide)).trans (W6_arg2 m ρ c)
theorem W8_arg2 : W8 (F := Ideal) m ρ c (Proc.devRef .tc main_arg2) = m ((c : Thread nD τ).loc main_arg2) :=
  (W8_of_ne m ρ c main_arg2 (by decide)).trans (W7_arg2 m ρ c)
theorem W9_arg2 : W9 (F := Ideal) m ρ c (Proc.devRef .tc main_arg2) = m ((c : Thread nD τ).loc main_arg2) :=
  (W9_of m ρ c main_arg2 (by decide)).trans (W8_arg2 m ρ c)
theorem W10_arg2 : W10 (F := Ideal) m ρ c (Proc.devRef .tc main_arg2) = m ((c : Thread nD τ).loc main_arg2) :=
  (W10_of_ne m ρ c main_arg2 (by decide)).trans (W9_arg2 m ρ c)
theorem W1_arg3 : W1 (F := Ideal) m ρ c (Proc.devRef .tc main_arg3) = m ((c : Thread nD τ).loc main_arg3) :=
  (W1_of m ρ c main_arg3 (by decide)).trans rfl
theorem W2_arg3 : W2 (F := Ideal) m ρ c (Proc.devRef .tc main_arg3) = m ((c : Thread nD τ).loc main_arg3) :=
  (W2_of_ne m ρ c main_arg3 (by decide)).trans (W1_arg3 m ρ c)
theorem W3_arg3 : W3 (F := Ideal) m ρ c (Proc.devRef .tc main_arg3) = m ((c : Thread nD τ).loc main_arg3) :=
  (W3_of m ρ c main_arg3 (by decide)).trans (W2_arg3 m ρ c)
theorem W4_arg3 : W4 (F := Ideal) m ρ c (Proc.devRef .tc main_arg3) = m ((c : Thread nD τ).loc main_arg3) :=
  (W4_of_ne m ρ c main_arg3 (by decide)).trans (W3_arg3 m ρ c)
theorem W5_arg3 : W5 (F := Ideal) m ρ c (Proc.devRef .tc main_arg3) = m ((c : Thread nD τ).loc main_arg3) :=
  (W5_of m ρ c main_arg3 (by decide)).trans (W4_arg3 m ρ c)
theorem W6_arg3 : W6 (F := Ideal) m ρ c (Proc.devRef .tc main_arg3) = m ((c : Thread nD τ).loc main_arg3) :=
  (W6_of_ne m ρ c main_arg3 (by decide)).trans (W5_arg3 m ρ c)
theorem W7_arg3 : W7 (F := Ideal) m ρ c (Proc.devRef .tc main_arg3) = m ((c : Thread nD τ).loc main_arg3) :=
  (W7_of m ρ c main_arg3 (by decide)).trans (W6_arg3 m ρ c)
theorem W8_arg3 : W8 (F := Ideal) m ρ c (Proc.devRef .tc main_arg3) = m ((c : Thread nD τ).loc main_arg3) :=
  (W8_of_ne m ρ c main_arg3 (by decide)).trans (W7_arg3 m ρ c)
theorem W9_arg3 : W9 (F := Ideal) m ρ c (Proc.devRef .tc main_arg3) = m ((c : Thread nD τ).loc main_arg3) :=
  (W9_of m ρ c main_arg3 (by decide)).trans (W8_arg3 m ρ c)
theorem W10_arg3 : W10 (F := Ideal) m ρ c (Proc.devRef .tc main_arg3) = m ((c : Thread nD τ).loc main_arg3) :=
  (W10_of_ne m ρ c main_arg3 (by decide)).trans (W9_arg3 m ρ c)
theorem W1_arg4 : W1 (F := Ideal) m ρ c (Proc.devRef .tc main_arg4) = m ((c : Thread nD τ).loc main_arg4) :=
  (W1_of m ρ c main_arg4 (by decide)).trans rfl
theorem W2_arg4 : W2 (F := Ideal) m ρ c (Proc.devRef .tc main_arg4) = m ((c : Thread nD τ).loc main_arg4) :=
  (W2_of_ne m ρ c main_arg4 (by decide)).trans (W1_arg4 m ρ c)
theorem W3_arg4 : W3 (F := Ideal) m ρ c (Proc.devRef .tc main_arg4) = m ((c : Thread nD τ).loc main_arg4) :=
  (W3_of m ρ c main_arg4 (by decide)).trans (W2_arg4 m ρ c)
theorem W4_arg4 : W4 (F := Ideal) m ρ c (Proc.devRef .tc main_arg4) = m ((c : Thread nD τ).loc main_arg4) :=
  (W4_of_ne m ρ c main_arg4 (by decide)).trans (W3_arg4 m ρ c)
theorem W5_arg4 : W5 (F := Ideal) m ρ c (Proc.devRef .tc main_arg4) = m ((c : Thread nD τ).loc main_arg4) :=
  (W5_of m ρ c main_arg4 (by decide)).trans (W4_arg4 m ρ c)
theorem W6_arg4 : W6 (F := Ideal) m ρ c (Proc.devRef .tc main_arg4) = m ((c : Thread nD τ).loc main_arg4) :=
  (W6_in m ρ c 2 rfl).trans (W5_arg4 m ρ c)
theorem W7_arg4 : W7 (F := Ideal) m ρ c (Proc.devRef .tc main_arg4) = m ((c : Thread nD τ).loc main_arg4) :=
  (W7_of m ρ c main_arg4 (by decide)).trans (W6_arg4 m ρ c)
theorem W8_arg4 : W8 (F := Ideal) m ρ c (Proc.devRef .tc main_arg4) = m ((c : Thread nD τ).loc main_arg4) :=
  (W8_of_ne m ρ c main_arg4 (by decide)).trans (W7_arg4 m ρ c)
theorem W9_arg4 : W9 (F := Ideal) m ρ c (Proc.devRef .tc main_arg4) = m ((c : Thread nD τ).loc main_arg4) :=
  (W9_of m ρ c main_arg4 (by decide)).trans (W8_arg4 m ρ c)
theorem W10_arg4 : W10 (F := Ideal) m ρ c (Proc.devRef .tc main_arg4) = m ((c : Thread nD τ).loc main_arg4) :=
  (W10_of_ne m ρ c main_arg4 (by decide)).trans (W9_arg4 m ρ c)
theorem W1_arg5 : W1 (F := Ideal) m ρ c (Proc.devRef .tc main_arg5) = m ((c : Thread nD τ).loc main_arg5) :=
  (W1_of m ρ c main_arg5 (by decide)).trans rfl
theorem W2_arg5 : W2 (F := Ideal) m ρ c (Proc.devRef .tc main_arg5) = m ((c : Thread nD τ).loc main_arg5) :=
  (W2_of_ne m ρ c main_arg5 (by decide)).trans (W1_arg5 m ρ c)
theorem W3_arg5 : W3 (F := Ideal) m ρ c (Proc.devRef .tc main_arg5) = m ((c : Thread nD τ).loc main_arg5) :=
  (W3_of m ρ c main_arg5 (by decide)).trans (W2_arg5 m ρ c)
theorem W4_arg5 : W4 (F := Ideal) m ρ c (Proc.devRef .tc main_arg5) = m ((c : Thread nD τ).loc main_arg5) :=
  (W4_in m ρ c 1 rfl).trans (W3_arg5 m ρ c)
theorem W5_arg5 : W5 (F := Ideal) m ρ c (Proc.devRef .tc main_arg5) = m ((c : Thread nD τ).loc main_arg5) :=
  (W5_of m ρ c main_arg5 (by decide)).trans (W4_arg5 m ρ c)
theorem W6_arg5 : W6 (F := Ideal) m ρ c (Proc.devRef .tc main_arg5) = m ((c : Thread nD τ).loc main_arg5) :=
  (W6_of_ne m ρ c main_arg5 (by decide)).trans (W5_arg5 m ρ c)
theorem W7_arg5 : W7 (F := Ideal) m ρ c (Proc.devRef .tc main_arg5) = m ((c : Thread nD τ).loc main_arg5) :=
  (W7_of m ρ c main_arg5 (by decide)).trans (W6_arg5 m ρ c)
theorem W8_arg5 : W8 (F := Ideal) m ρ c (Proc.devRef .tc main_arg5) = m ((c : Thread nD τ).loc main_arg5) :=
  (W8_in m ρ c 1 rfl).trans (W7_arg5 m ρ c)
theorem W9_arg5 : W9 (F := Ideal) m ρ c (Proc.devRef .tc main_arg5) = m ((c : Thread nD τ).loc main_arg5) :=
  (W9_of m ρ c main_arg5 (by decide)).trans (W8_arg5 m ρ c)
theorem W10_arg5 : W10 (F := Ideal) m ρ c (Proc.devRef .tc main_arg5) = m ((c : Thread nD τ).loc main_arg5) :=
  (W10_of_ne m ρ c main_arg5 (by decide)).trans (W9_arg5 m ρ c)
theorem W1_arg6 : W1 (F := Ideal) m ρ c (Proc.devRef .tc main_arg6) = m ((c : Thread nD τ).loc main_arg6) :=
  (W1_of m ρ c main_arg6 (by decide)).trans rfl
theorem W2_arg6 : W2 (F := Ideal) m ρ c (Proc.devRef .tc main_arg6) = m ((c : Thread nD τ).loc main_arg6) :=
  (W2_of_ne m ρ c main_arg6 (by decide)).trans (W1_arg6 m ρ c)
theorem W3_arg6 : W3 (F := Ideal) m ρ c (Proc.devRef .tc main_arg6) = m ((c : Thread nD τ).loc main_arg6) :=
  (W3_of m ρ c main_arg6 (by decide)).trans (W2_arg6 m ρ c)
theorem W4_arg6 : W4 (F := Ideal) m ρ c (Proc.devRef .tc main_arg6) = m ((c : Thread nD τ).loc main_arg6) :=
  (W4_of_ne m ρ c main_arg6 (by decide)).trans (W3_arg6 m ρ c)
theorem W5_arg6 : W5 (F := Ideal) m ρ c (Proc.devRef .tc main_arg6) = m ((c : Thread nD τ).loc main_arg6) :=
  (W5_of m ρ c main_arg6 (by decide)).trans (W4_arg6 m ρ c)
theorem W6_arg6 : W6 (F := Ideal) m ρ c (Proc.devRef .tc main_arg6) = m ((c : Thread nD τ).loc main_arg6) :=
  (W6_of_ne m ρ c main_arg6 (by decide)).trans (W5_arg6 m ρ c)
theorem W7_arg6 : W7 (F := Ideal) m ρ c (Proc.devRef .tc main_arg6) = m ((c : Thread nD τ).loc main_arg6) :=
  (W7_of m ρ c main_arg6 (by decide)).trans (W6_arg6 m ρ c)
theorem W8_arg6 : W8 (F := Ideal) m ρ c (Proc.devRef .tc main_arg6) = m ((c : Thread nD τ).loc main_arg6) :=
  (W8_of_ne m ρ c main_arg6 (by decide)).trans (W7_arg6 m ρ c)
theorem W9_arg6 : W9 (F := Ideal) m ρ c (Proc.devRef .tc main_arg6) = m ((c : Thread nD τ).loc main_arg6) :=
  (W9_of m ρ c main_arg6 (by decide)).trans (W8_arg6 m ρ c)
theorem W10_arg6 : W10 (F := Ideal) m ρ c (Proc.devRef .tc main_arg6) = m ((c : Thread nD τ).loc main_arg6) :=
  (W10_of_ne m ρ c main_arg6 (by decide)).trans (W9_arg6 m ρ c)
theorem W1_arg7 : W1 (F := Ideal) m ρ c (Proc.devRef .tc main_arg7) = m ((c : Thread nD τ).loc main_arg7) :=
  (W1_of m ρ c main_arg7 (by decide)).trans rfl
theorem W2_arg7 : W2 (F := Ideal) m ρ c (Proc.devRef .tc main_arg7) = m ((c : Thread nD τ).loc main_arg7) :=
  (W2_of_ne m ρ c main_arg7 (by decide)).trans (W1_arg7 m ρ c)
theorem W3_arg7 : W3 (F := Ideal) m ρ c (Proc.devRef .tc main_arg7) = m ((c : Thread nD τ).loc main_arg7) :=
  (W3_of m ρ c main_arg7 (by decide)).trans (W2_arg7 m ρ c)
theorem W4_arg7 : W4 (F := Ideal) m ρ c (Proc.devRef .tc main_arg7) = m ((c : Thread nD τ).loc main_arg7) :=
  (W4_of_ne m ρ c main_arg7 (by decide)).trans (W3_arg7 m ρ c)
theorem W5_arg7 : W5 (F := Ideal) m ρ c (Proc.devRef .tc main_arg7) = m ((c : Thread nD τ).loc main_arg7) :=
  (W5_of m ρ c main_arg7 (by decide)).trans (W4_arg7 m ρ c)
theorem W6_arg7 : W6 (F := Ideal) m ρ c (Proc.devRef .tc main_arg7) = m ((c : Thread nD τ).loc main_arg7) :=
  (W6_of_ne m ρ c main_arg7 (by decide)).trans (W5_arg7 m ρ c)
theorem W7_arg7 : W7 (F := Ideal) m ρ c (Proc.devRef .tc main_arg7) = m ((c : Thread nD τ).loc main_arg7) :=
  (W7_of m ρ c main_arg7 (by decide)).trans (W6_arg7 m ρ c)
theorem W8_arg7 : W8 (F := Ideal) m ρ c (Proc.devRef .tc main_arg7) = m ((c : Thread nD τ).loc main_arg7) :=
  (W8_of_ne m ρ c main_arg7 (by decide)).trans (W7_arg7 m ρ c)
theorem W9_arg7 : W9 (F := Ideal) m ρ c (Proc.devRef .tc main_arg7) = m ((c : Thread nD τ).loc main_arg7) :=
  (W9_of m ρ c main_arg7 (by decide)).trans (W8_arg7 m ρ c)
theorem W10_arg7 : W10 (F := Ideal) m ρ c (Proc.devRef .tc main_arg7) = m ((c : Thread nD τ).loc main_arg7) :=
  (W10_of_ne m ρ c main_arg7 (by decide)).trans (W9_arg7 m ρ c)

/-- The norm column and the second transposed weight, made by the first stretch, are still there when region 2 is entered:
    region 0 reads the column through an input window and does not touch the weight; the stretches between write neither. -/
theorem W5_v8 : W5 (F := Ideal) m ρ c (Proc.devRef .tc main_v8) = W1 (F := Ideal) m ρ c (Proc.devRef .tc main_v8) :=
  (W5_of m ρ c main_v8 (by decide)).trans <| (W4_of_ne m ρ c main_v8 (by decide)).trans <| (W3_of m ρ c main_v8 (by decide)).trans <| W2_in m ρ c 3 rfl
theorem W5_v10 : W5 (F := Ideal) m ρ c (Proc.devRef .tc main_v10) = W1 (F := Ideal) m ρ c (Proc.devRef .tc main_v10) :=
  (W5_of m ρ c main_v10 (by decide)).trans <| (W4_of_ne m ρ c main_v10 (by decide)).trans <| (W3_of m ρ c main_v10 (by decide)).trans <| W2_of_ne m ρ c main_v10 (by decide)

/-! ## The first stretch -/

/-- The norm column: the reference broadcasts the [50000] vector along a new unit axis where this program reshapes it. -/
theorem L1 : W1 (F := Ideal) m ρ c (Proc.devRef .tc main_v8)
    = Cert.ReferenceIdeal.Read.val_main_v8 (F := Ideal) (m ((c : Thread nD τ).loc main_arg7)) := by
  dsimp only [W1, hostOps0]
  after_results
  unfold Cert.ReferenceIdeal.Read.val_main_v8 Cert.ReferenceIdeal.Read.val_main_v7 Cert.ReferenceIdeal.Read.val_main_v5 Cert.ReferenceIdeal.Read.val_main_v3 Cert.ReferenceIdeal.Read.val_main_v6 Cert.ReferenceIdeal.Read.val_main_v4 Cert.ReferenceIdeal.Read.val_main_v2 Cert.ReferenceIdeal.Read.val_main_v1 Cert.ReferenceIdeal.Read.val_main_v0 Cert.ReferenceIdeal.Read.val_main_cst Cert.ReferenceIdeal.Read.val_main_cst_0 Cert.ReferenceIdeal.Read.val_main_cst_1 Cert.ReferenceIdeal.Read.val_main_cst_2
  first
    | exact reshape_col_eq_bcast_col _ _ _
    | (refine (reshape_col_eq_bcast_col _ _ _).trans ?_; rfl)

/-- The two transposed weights. -/
theorem L2a : W1 (F := Ideal) m ρ c (Proc.devRef .tc main_v9)
    = Cert.ReferenceIdeal.Read.val_main_v9 (F := Ideal) (m ((c : Thread nD τ).loc main_arg1)) := by
  dsimp only [W1, hostOps0]
  after_results
  rfl
theorem L2b : W1 (F := Ideal) m ρ c (Proc.devRef .tc main_v10)
    = Cert.ReferenceIdeal.Read.val_main_v29 (F := Ideal) (m ((c : Thread nD τ).loc main_arg3)) := by
  dsimp only [W1, hostOps0]
  after_results
  rfl

/-! ## The later stretches, each from the array it reads of the region before it -/

/-- The stretch before region 1: the source indices normalised (a negative index counts from the end), broadcast to a
    column, and the rows of the region-0 result gathered at them. -/
theorem L4 (h11 : W2 (F := Ideal) m ρ c (Proc.devRef .tc main_v11) = Cert.ReferenceIdeal.Read.val_main_v15 (F := Ideal) (m ((c : Thread nD τ).loc main_arg0)) (m ((c : Thread nD τ).loc main_arg1)) (m ((c : Thread nD τ).loc main_arg2)) (m ((c : Thread nD τ).loc main_arg7))) :
    W3 (F := Ideal) m ρ c (Proc.devRef .tc main_v18)
      = Cert.ReferenceIdeal.Read.val_main_v22 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  dsimp only [W3, hostOps1]
  after_results
  rw [h11, W2_arg6 m ρ c]
  unfold Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_c Cert.ReferenceIdeal.Read.val_main_c_3
  rfl

/-- The stretch before region 2: the scaled rows scatter-added, at the destination indices, into zeros. -/
theorem L6 (h19 : W4 (F := Ideal) m ρ c (Proc.devRef .tc main_v19) = Cert.ReferenceIdeal.Read.val_main_v24 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) :
    W5 (F := Ideal) m ρ c (Proc.devRef .tc main_v22)
      = Cert.ReferenceIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  dsimp only [W5, hostOps2]
  after_results
  rw [h19, W4_arg7 m ρ c]
  unfold Cert.ReferenceIdeal.Read.val_main_v27 Cert.ReferenceIdeal.Read.val_main_v26 Cert.ReferenceIdeal.Read.val_main_v25 Cert.ReferenceIdeal.Read.val_main_cst_4
  rfl

/-- The stretch before region 3: as before region 1, of the region-2 result. -/
theorem L8 (h23 : W6 (F := Ideal) m ρ c (Proc.devRef .tc main_v23) = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W7 (F := Ideal) m ρ c (Proc.devRef .tc main_v30)
      = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W7, hostOps3]
  after_results
  rw [h23, W6_arg6 m ρ c]
  unfold Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_c_5 Cert.ReferenceIdeal.Read.val_main_c_6
  rfl

/-- The stretch before region 4: as before region 2, of the region-3 result. -/
theorem L10 (h31 : W8 (F := Ideal) m ρ c (Proc.devRef .tc main_v31) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W9 (F := Ideal) m ρ c (Proc.devRef .tc main_v34)
      = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W9, hostOps4]
  after_results
  rw [h31, W8_arg7 m ρ c]
  unfold Cert.ReferenceIdeal.Read.val_main_v47 Cert.ReferenceIdeal.Read.val_main_v46 Cert.ReferenceIdeal.Read.val_main_v45 Cert.ReferenceIdeal.Read.val_main_cst_7
  rfl

/-- The last stretch: the pooled row broadcast along a new trailing unit axis. -/
theorem L12a : W11 (F := Ideal) m ρ c (Proc.devRef .tc main_v36)
    = broadcastInDim S1x96x1 ![0, 1] bcast_S1x96_S1x96x1_0_1 (W10 (F := Ideal) m ρ c (Proc.devRef .tc main_v35)) := by
  dsimp only [W11, hostOps5]
  after_results

end Cert.Val

end
-- ==== Proof.Val.Chain.lean ====
/-
  The value of the idealized kernel program's result, stage by stage. Each kernel region's output array, read off the
  run's fold of buffer contents, is the same function of the region's input arrays as the reference's stage of the
  same name is of its operands: a dense layer scaled row by row by the degree norm (the matrix unit's product into a
  zero accumulator is the textbook sum over k), an edge message scaled by the edge's factor, and the pooled feature
  tanh((Σ over all nodes of tanh) · 1/50000), the running sum over ten tiles of 5000 rows regrouped into one sum over
  the 50000 nodes. Gathers and scatter-adds are the same host operation on both sides, applied to equal arrays.
-/
import proofs.«111731_j19000935317646_1_alg».proof.Proof.KI.Run
import proofs.«111731_j19000935317646_1_alg».proof.Proof.Val.Scale
import proofs.«111731_j19000935317646_1_alg».proof.Proof.Val.LinArr
import proofs.«111731_j19000935317646_1_alg».proof.Proof.Val.Pool
import proofs.«111731_j19000935317646_1_alg».proof.Proof.Val.PoolArr
import proofs.«111731_j19000935317646_1_alg».proof.Proof.Val.Ref
import proofs.«111731_j19000935317646_1_alg».proof.Proof.Val.ChainHost
import proofs.«111731_j19000935317646_1_alg».proof.Proof.Gen.ReferenceIdeal.Read

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg) (c : Dev nD)
variable {x0 : (⟨S50000x96, .f32⟩ : BufTy).Contents (Elt Ideal)} {x1 : (⟨S96x96, .f32⟩ : BufTy).Contents (Elt Ideal)}
  {x2 : (⟨S96, .f32⟩ : BufTy).Contents (Elt Ideal)} {x3 : (⟨S96x96, .f32⟩ : BufTy).Contents (Elt Ideal)}
  {x4 : (⟨S96, .f32⟩ : BufTy).Contents (Elt Ideal)} {x5 : (⟨S800000x1, .f32⟩ : BufTy).Contents (Elt Ideal)}
  {x6 x7 : (⟨S800000, .i32⟩ : BufTy).Contents (Elt Ideal)}

/-- Region 0: the first layer's features. -/
theorem step_layer1 (h0 : V1 (F := Ideal) m ρ c main_arg0 = x0) (h9 : V1 (F := Ideal) m ρ c main_v9 = Cert.ReferenceIdeal.Read.val_main_v9 (F := Ideal) x1)
    (h2 : V1 (F := Ideal) m ρ c main_arg2 = x2) (h8 : V1 (F := Ideal) m ρ c main_v8 = Cert.ReferenceIdeal.Read.val_main_v8 (F := Ideal) x7) :
    W2 (F := Ideal) m ρ c (Proc.devRef .tc main_v11) = Cert.ReferenceIdeal.Read.val_main_v15 (F := Ideal) x0 x1 x2 x7 := by
  refine (W2_arr m ρ c 4).trans ?_
  rw [final0 (V1 m ρ) c, h0, h9, h2, h8]
  funext i
  obtain ⟨p, q, rfl⟩ : ∃ (p : Fin 50000) (q : Fin 96), i = ix2 p q := ⟨i 0, i 1, eq_ix2 i⟩
  rw [linG_apply, ref_layer1]

/-- Region 1: the first layer's edge messages. -/
theorem step_edge1 (h18 : V3 (F := Ideal) m ρ c main_v18 = Cert.ReferenceIdeal.Read.val_main_v22 (F := Ideal) x0 x1 x2 x6 x7)
    (h5 : V3 (F := Ideal) m ρ c main_arg5 = x5) :
    W4 (F := Ideal) m ρ c (Proc.devRef .tc main_v19) = Cert.ReferenceIdeal.Read.val_main_v24 (F := Ideal) x0 x1 x2 x5 x6 x7 := by
  refine (W4_arr m ρ c 2).trans ?_
  rw [final1 (V3 m ρ) c, h18, h5]
  funext i
  obtain ⟨e, q, rfl⟩ : ∃ (e : Fin 800000) (q : Fin 96), i = ix2 e q := ⟨i 0, i 1, eq_ix2 i⟩
  rw [scaleG_apply, ref_edge1]

/-- Region 2: the second layer's features. -/
theorem step_layer2 (h22 : V5 (F := Ideal) m ρ c main_v22 = Cert.ReferenceIdeal.Read.val_main_v27 (F := Ideal) x0 x1 x2 x5 x6 x7)
    (h10 : V5 (F := Ideal) m ρ c main_v10 = Cert.ReferenceIdeal.Read.val_main_v29 (F := Ideal) x3)
    (h4 : V5 (F := Ideal) m ρ c main_arg4 = x4) (h8 : V5 (F := Ideal) m ρ c main_v8 = Cert.ReferenceIdeal.Read.val_main_v8 (F := Ideal) x7) :
    W6 (F := Ideal) m ρ c (Proc.devRef .tc main_v23) = Cert.ReferenceIdeal.Read.val_main_v35 (F := Ideal) x0 x1 x2 x3 x4 x5 x6 x7 := by
  refine (W6_arr m ρ c 4).trans ?_
  rw [final2 (V5 m ρ) c, h22, h10, h4, h8]
  funext i
  obtain ⟨p, q, rfl⟩ : ∃ (p : Fin 50000) (q : Fin 96), i = ix2 p q := ⟨i 0, i 1, eq_ix2 i⟩
  rw [linTG_apply, ref_layer2]

/-- Region 3: the second layer's edge messages. -/
theorem step_edge2 (h30 : V7 (F := Ideal) m ρ c main_v30 = Cert.ReferenceIdeal.Read.val_main_v42 (F := Ideal) x0 x1 x2 x3 x4 x5 x6 x7)
    (h5 : V7 (F := Ideal) m ρ c main_arg5 = x5) :
    W8 (F := Ideal) m ρ c (Proc.devRef .tc main_v31) = Cert.ReferenceIdeal.Read.val_main_v44 (F := Ideal) x0 x1 x2 x3 x4 x5 x6 x7 := by
  refine (W8_arr m ρ c 2).trans ?_
  rw [final3 (V7 m ρ) c, h30, h5]
  funext i
  obtain ⟨e, q, rfl⟩ : ∃ (e : Fin 800000) (q : Fin 96), i = ix2 e q := ⟨i 0, i 1, eq_ix2 i⟩
  rw [scaleG_apply, ref_edge2]

/-- Region 4: the pooled features, from the second aggregate. -/
theorem step_pool (h34 : V9 (F := Ideal) m ρ c main_v34 = Cert.ReferenceIdeal.Read.val_main_v47 (F := Ideal) x0 x1 x2 x3 x4 x5 x6 x7) :
    W10 (F := Ideal) m ρ c (Proc.devRef .tc main_v35) = poolG (Cert.ReferenceIdeal.Read.val_main_v47 (F := Ideal) x0 x1 x2 x3 x4 x5 x6 x7) := by
  refine (W10_arr m ρ c 1).trans ?_
  rw [final4 (V9 m ρ) c, h34]

/-- The [1,96] row spread to [1,96,1], read at (0, q, 0). -/
theorem bcast_row_apply (y : (⟨2, ![1, 96]⟩ : Shape).Idx → EReal)
    (h : (⟨2, ![1, 96]⟩ : Shape).BroadcastsInDim ⟨3, ![1, 96, 1]⟩ (![0, 1] : Fin 2 → Fin 3)) (q : Fin 96) :
    broadcastInDim (⟨3, ![1, 96, 1]⟩ : Shape) ![0, 1] h y (ix3 (0 : Fin 1) q (0 : Fin 1)) = y (ix2 (0 : Fin 1) q) :=
  broadcastInDim_apply _ h y (ix3 (0 : Fin 1) q (0 : Fin 1)) (ix2 (0 : Fin 1) q) (fun a => match a with
    | ⟨0, _⟩ => by show 0 = if (1 : Nat) = 1 then 0 else _; rw [if_pos rfl]
    | ⟨1, _⟩ => by show q.val = if (96 : Nat) = 1 then 0 else q.val; rw [if_neg (by decide)])

/-- The result: the pooled row spread to [1,96,1] is the reference's last stage. -/
theorem step_result (Y : (⟨S1x96, .f32⟩ : BufTy).Contents (Elt Ideal))
    (hY : Y = poolG (Cert.ReferenceIdeal.Read.val_main_v47 (F := Ideal) x0 x1 x2 x3 x4 x5 x6 x7)) :
    (broadcastInDim S1x96x1 ![0, 1] bcast_S1x96_S1x96x1_0_1 Y : (⟨S1x96x1, .f32⟩ : BufTy).Contents (Elt Ideal))
      = Cert.ReferenceIdeal.Read.val_main_v54 (F := Ideal) x0 x1 x2 x3 x4 x5 x6 x7 := by
  subst hY
  funext i
  obtain ⟨z, q, z', rfl⟩ : ∃ (z : Fin 1) (q : Fin 96) (z' : Fin 1), i = ix3 z q z' := ⟨i 0, i 1, i 2, eq_ix3 i⟩
  obtain rfl : z = 0 := Subsingleton.elim _ _
  obtain rfl : z' = 0 := Subsingleton.elim _ _
  rw [ref_pool]
  exact (bcast_row_apply _ _ q).trans (poolG_apply _ q)

/-- THE KERNEL PROGRAM'S RESULT. At the end of the run the result buffer holds the reference's last stage of the
    launch contents of the eight arguments. -/
theorem kernel_value :
    W11 (F := Ideal) m ρ c (Proc.devRef .tc main_v36)
      = Cert.ReferenceIdeal.Read.val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have h11 := step_layer1 m ρ c (W1_arg0 m ρ c) (L2a m ρ c) (W1_arg2 m ρ c) (L1 m ρ c)
  have h18 := L4 m ρ c h11
  have h19 := step_edge1 m ρ c h18 (W3_arg5 m ρ c)
  have h22 := L6 m ρ c h19
  have h23 := step_layer2 m ρ c h22 ((W5_v10 m ρ c).trans (L2b m ρ c)) (W5_arg4 m ρ c) ((W5_v8 m ρ c).trans (L1 m ρ c))
  have h30 := L8 m ρ c h23
  have h31 := step_edge2 m ρ c h30 (W7_arg5 m ρ c)
  have h34 := L10 m ρ c h31
  have h35 := step_pool m ρ c h34
  rw [L12a m ρ c]
  exact step_result _ h35

end Cert.Val

end
-- ==== Proof.lean ====
/-
  The kernel program is a two-layer graph network followed by a pooling, in five kernel regions among host
  operations: degree norm (a scatter-add of ones, max with 1, power -1/2); a dense layer x·Wᵀ + b scaled row by
  row by the norm; a row gather by source node; the edge messages scaled by the edge factor; a scatter-add by
  destination node; tanh and the same again; finally tanh of the mean over the 50000 nodes of tanh, the mean taken
  as a running sum over ten tiles of 5000 rows times the constant named 1/50000.

  Frames. Each program's @main is run as a list of segments, host stretches and kernel regions; the contents of
  every unscoped buffer at each boundary are a fold from the launch memory, and the argument arrays come out of the
  fold as launched. The same text serves the word-level program and the idealized one. The reference has no kernel:
  its frame is its run with the result dropped.

  Preserves. The one rewrite of the idealization names the pooling constant 1/50000.

  Algebraic. At the extended reals both programs compute, stage by stage, the same function of the arguments: each
  region's output array is the reference's stage of its input arrays (the matrix unit's product into a zero
  accumulator is the textbook sum; a change of float format is the identity; the tiled running sum is the sum over all
  nodes, addition of extended reals being commutative and associative; the reference's quotient by 50000 is the
  product with 1/50000 on every extended real), and the gathers and scatter-adds are the same host operations on equal
  arrays. No finiteness of the inputs is used.
-/
import proofs.«111731_j19000935317646_1_alg».proof.Defs
import proofs.«111731_j19000935317646_1_alg».proof.Proof.Gen.Kernel
import proofs.«111731_j19000935317646_1_alg».proof.Proof.Gen.KernelIdeal
import proofs.«111731_j19000935317646_1_alg».proof.Proof.Gen.ReferenceIdeal
import proofs.«111731_j19000935317646_1_alg».proof.Proof.Gen.Pre_finite_inputs
import proofs.«111731_j19000935317646_1_alg».proof.Proof.Gen.ReferenceIdeal.Run
import proofs.«111731_j19000935317646_1_alg».proof.Proof.Gen.ReferenceIdeal.Read
import proofs.«111731_j19000935317646_1_alg».proof.Proof.K.Run
import proofs.«111731_j19000935317646_1_alg».proof.Proof.KI.Run
import proofs.«111731_j19000935317646_1_alg».proof.Proof.Val.Chain
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization's one rewrite: the pooling constant is the rational 1/50000. -/
theorem preserves : Cert.preserves_Kernel_KernelIdeal :=
  IdealRules.named_const.statement Cert.KernelIdeal.κ "inv_50000" .f32 0x37A7C5AC#32 ((1 / 50000 : ℝ) : EReal) rfl

open Cert.KernelIdeal Cert.KernelIdeal.Gen Cert.KernelIdeal.Hand in
/-- Both idealized programs end with the result at the reference's last stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W11 (F := Ideal) m ρ c (Proc.devRef .tc main_v36), ?_, ?_⟩
  · exact (θ_run Cert.KernelIdeal.defs _ _).mono (fun r h c =>
      ⟨h c _ (mem_uc main_v36 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩) (run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq]
    refine Eq.trans ?_ (Cert.Val.kernel_value m ρ c).symm
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
